-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S65536x512 : Shape := ⟨2, ![65536, 512]⟩
abbrev S65536 : Shape := ⟨1, ![65536]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_

variable [Facts]

def fn {F : FTy → Type} [FloatOps F] (main_arg0 : FVec F S512x512 .f32) (main_arg1 : IVec S512 32) (main_arg2 : FVec F S65536x512 .f32) (main_arg3 : IVec S65536 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S65536x512 .f32 := Host.absf main_arg2
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  main_v8
-- ==== Kernel.lean ====
abbrev S512x512 : Shape := ⟨2, ![512, 512]⟩
abbrev S512 : Shape := ⟨1, ![512]⟩
abbrev S65536x512 : Shape := ⟨2, ![65536, 512]⟩
abbrev S65536 : Shape := ⟨1, ![65536]⟩
abbrev S512x1 : Shape := ⟨2, ![512, 1]⟩
abbrev S1x65536 : Shape := ⟨2, ![1, 65536]⟩
abbrev S512x65536 : Shape := ⟨2, ![512, 65536]⟩
abbrev S256x512 : Shape := ⟨2, ![256, 512]⟩
abbrev S4096x512 : Shape := ⟨2, ![4096, 512]⟩
abbrev S256x1 : Shape := ⟨2, ![256, 1]⟩
abbrev S1x4096 : Shape := ⟨2, ![1, 4096]⟩
abbrev S256x4096 : Shape := ⟨2, ![256, 4096]⟩
abbrev S256 : Shape := ⟨1, ![256]⟩
abbrev S_ : Shape := ⟨0, ![]⟩

abbrev nBuf : Space → Nat
  | .hbm => 27
  | .vmem => 30
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S65536x512, .f32⟩
  | .hbm, ⟨3, _⟩ => ⟨S65536, .i32⟩
  | .hbm, ⟨4, _⟩ => ⟨S512x1, .i32⟩
  | .hbm, ⟨5, _⟩ => ⟨S1x65536, .i32⟩
  | .hbm, ⟨6, _⟩ => ⟨S512x65536, .f32⟩
  | .hbm, ⟨7, _⟩ => ⟨S512x1, .f32⟩
  | .hbm, ⟨8, _⟩ => ⟨S512x1, .f32⟩
  | .hbm, ⟨9, _⟩ => ⟨S512x1, .f32⟩
  | .hbm, ⟨10, _⟩ => ⟨S512x1, .f32⟩
  | .hbm, ⟨11, _⟩ => ⟨S512x1, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S_, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S4096x512, .f32⟩
  | .local _ .vmem, ⟨4, _⟩ => ⟨S256x1, .i32⟩
  | .local _ .vmem, ⟨5, _⟩ => ⟨S256x1, .i32⟩
  | .local _ .vmem, ⟨6, _⟩ => ⟨S1x4096, .i32⟩
  | .local _ .vmem, ⟨7, _⟩ => ⟨S1x4096, .i32⟩
  | .local _ .vmem, ⟨8, _⟩ => ⟨S256x4096, .f32⟩
  | .local _ .vmem, ⟨9, _⟩ => ⟨S256x4096, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x4096, .f32⟩
  | .local _ .vmem, ⟨17, _⟩ => ⟨S256x4096, .f32⟩
  | .local _ .vmem, ⟨18, _⟩ => ⟨S256x1, .i32⟩
  | .local _ .vmem, ⟨19, _⟩ => ⟨S256x1, .i32⟩
  | .local _ .vmem, ⟨20, _⟩ => ⟨S1x4096, .i32⟩
  | .local _ .vmem, ⟨21, _⟩ => ⟨S1x4096, .i32⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | .local _ .vmem, ⟨26, _⟩ => ⟨S256x1, .f32⟩
  | .local _ .vmem, ⟨27, _⟩ => ⟨S256x1, .f32⟩
  | .local _ .vmem, ⟨28, _⟩ => ⟨S256x1, .f32⟩
  | .local _ .vmem, ⟨29, _⟩ => ⟨S256x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S512_S512x1 : S512.ShapeCasts S512x1
  shapeCasts_S65536_S1x65536 : S65536.ShapeCasts S1x65536
  inb_S256x1_S256x1_0_0 : ∀ a, (![0, 0] : Fin 2 → Nat) a + S256x1.size a ≤ S256x1.size a
  h_S256x1 : 0 < S256x1.numel
  inb_S256x512_S256x512_0_0 : ∀ a, (![0, 0] : Fin 2 → Nat) a + S256x512.size a ≤ S256x512.size a
  h_S256x512 : 0 < S256x512.numel
  inb_S4096x512_S4096x512_0_0 : ∀ a, (![0, 0] : Fin 2 → Nat) a + S4096x512.size a ≤ S4096x512.size a
  h_S4096x512 : 0 < S4096x512.numel
  inb_S256x4096_S256x4096_0_0 : ∀ a, (![0, 0] : Fin 2 → Nat) a + S256x4096.size a ≤ S256x4096.size a
  h_S256x4096 : 0 < S256x4096.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  iota_S256x4096_d0_w32 : S256x4096.Iotas .tc 32 [0]
  iota_S256x4096_d1_w32 : S256x4096.Iotas .tc 32 [1]
  reduces_S256x4096_S256 : S256x4096.Reduces [1] S256
  shapeCasts_S256_S256x1 : S256.ShapeCasts S256x1
  natLt_1_32 : 1 < 32
  shapeCasts_S256x4096_S256x4096 : S256x4096.ShapeCasts S256x4096
  shapeCasts_S512x1_S512 : S512x1.ShapeCasts S512
  bcast_S_S512 : S_.BroadcastsInDim S512 (![] : Fin 0 → Fin S512.rank)
  reducesTo_S512_S_d0 : S512.ReducesTo [0] S_
  h_S_ : 0 < S_.numel
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S512x512.size a
  hwx0_0 : ∀ i : grid0.Coords, EltTy.bits .f32 = 32 ∨ (Rect.block (s := S512x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S65536x512.size a
  hwx0_1 : ∀ i : grid0.Coords, EltTy.bits .f32 = 32 ∨ (Rect.block (s := S65536x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S512x1.size a
  hwx0_2 : ∀ i : grid0.Coords, EltTy.bits .i32 = 32 ∨ (Rect.block (s := S512x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x65536.size a
  hwx0_3 : ∀ i : grid0.Coords, EltTy.bits .i32 = 32 ∨ (Rect.block (s := S1x65536) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S512x65536.size a
  hwx0_4 : ∀ i : grid0.Coords, EltTy.bits .f32 = 32 ∨ (Rect.block (s := S512x65536) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S512x1.size a
  hwx0_5 : ∀ i : grid0.Coords, EltTy.bits .f32 = 32 ∨ (Rect.block (s := S512x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S512x1.size a
  hwx0_6 : ∀ i : grid0.Coords, EltTy.bits .f32 = 32 ∨ (Rect.block (s := S512x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S512x1.size a
  hwx0_7 : ∀ i : grid0.Coords, EltTy.bits .f32 = 32 ∨ (Rect.block (s := S512x1) S256x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S512x65536.size a
  hwx1_0 : ∀ i : grid1.Coords, EltTy.bits .f32 = 32 ∨ (Rect.block (s := S512x65536) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S512x1.size a
  hwx1_1 : ∀ i : grid1.Coords, EltTy.bits .i32 = 32 ∨ (Rect.block (s := S512x1) S256x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x65536.size a
  hwx1_2 : ∀ i : grid1.Coords, EltTy.bits .i32 = 32 ∨ (Rect.block (s := S1x65536) S1x4096.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S512x1.size a
  hwx1_3 : ∀ i : grid1.Coords, EltTy.bits .f32 = 32 ∨ (Rect.block (s := S512x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S512x1.size a
  hwx1_4 : ∀ i : grid1.Coords, EltTy.bits .f32 = 32 ∨ (Rect.block (s := S512x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S512x1.size a
  hwx1_5 : ∀ i : grid1.Coords, EltTy.bits .f32 = 32 ∨ (Rect.block (s := S512x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S512x1.size a
  hwx1_6 : ∀ i : grid1.Coords, EltTy.bits .f32 = 32 ∨ (Rect.block (s := S512x1) S256x1.size (cc1_transform_6 i) (hinb1_6 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S256x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S256x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_2) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S256x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S256x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S512x512 : Shape := ⟨2, ![512, 512]⟩
abbrev S512 : Shape := ⟨1, ![512]⟩
abbrev S65536x512 : Shape := ⟨2, ![65536, 512]⟩
abbrev S65536 : Shape := ⟨1, ![65536]⟩
abbrev S512x65536 : Shape := ⟨2, ![512, 65536]⟩
abbrev S512x1 : Shape := ⟨2, ![512, 1]⟩
abbrev S1x65536 : Shape := ⟨2, ![1, 65536]⟩
abbrev S_ : Shape := ⟨0, ![]⟩
abbrev S1 : Shape := ⟨1, ![1]⟩

abbrev nBuf : Space → Nat
  | .hbm => 76
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S65536x512, .f32⟩
  | .hbm, ⟨3, _⟩ => ⟨S65536, .i32⟩
  | .hbm, ⟨4, _⟩ => ⟨S512x65536, .f32⟩
  | .hbm, ⟨5, _⟩ => ⟨S512x65536, .f32⟩
  | .hbm, ⟨6, _⟩ => ⟨S512x1, .i32⟩
  | .hbm, ⟨7, _⟩ => ⟨S1x65536, .i32⟩
  | .hbm, ⟨8, _⟩ => ⟨S512x65536, .i32⟩
  | .hbm, ⟨9, _⟩ => ⟨S512x65536, .i32⟩
  | .hbm, ⟨10, _⟩ => ⟨S512x65536, .i1⟩
  | .hbm, ⟨11, _⟩ => ⟨S512x65536, .i1⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S512x512, .i1⟩
  | .hbm, ⟨19, _⟩ => ⟨S512x512, .i1⟩
  | .hbm, ⟨20, _⟩ => ⟨S_, .i32⟩
  | .hbm, ⟨21, _⟩ => ⟨S1, .i32⟩
  | .hbm, ⟨22, _⟩ => ⟨S512x65536, .i1⟩
  | .hbm, ⟨23, _⟩ => ⟨S_, .f32⟩
  | .hbm, ⟨24, _⟩ => ⟨S512x65536, .f32⟩
  | .hbm, ⟨25, _⟩ => ⟨S512x65536, .f32⟩
  | .hbm, ⟨26, _⟩ => ⟨S_, .f32⟩
  | .hbm, ⟨27, _⟩ => ⟨S512, .f32⟩
  | .hbm, ⟨28, _⟩ => ⟨S_, .f32⟩
  | .hbm, ⟨29, _⟩ => ⟨S512x65536, .f32⟩
  | .hbm, ⟨30, _⟩ => ⟨S512x65536, .f32⟩
  | .hbm, ⟨31, _⟩ => ⟨S_, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S512x1, .f32⟩
  | .hbm, ⟨37, _⟩ => ⟨S512x65536, .f32⟩
  | .hbm, ⟨38, _⟩ => ⟨S512x65536, .i1⟩
  | .hbm, ⟨39, _⟩ => ⟨S512x65536, .i1⟩
  | .hbm, ⟨40, _⟩ => ⟨S_, .f32⟩
  | .hbm, ⟨41, _⟩ => ⟨S512x65536, .f32⟩
  | .hbm, ⟨42, _⟩ => ⟨S512x65536, .f32⟩
  | .hbm, ⟨43, _⟩ => ⟨S_, .f32⟩
  | .hbm, ⟨44, _⟩ => ⟨S_, .f32⟩
  | .hbm, ⟨45, _⟩ => ⟨S512x65536, .f32⟩
  | .hbm, ⟨46, _⟩ => ⟨S512x65536, .f32⟩
  | .hbm, ⟨47, _⟩ => ⟨S_, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512x1, .f32⟩
  | .hbm, ⟨56, _⟩ => ⟨S512x65536, .f32⟩
  | .hbm, ⟨57, _⟩ => ⟨S512x65536, .i1⟩
  | .hbm, ⟨58, _⟩ => ⟨S512x65536, .i1⟩
  | .hbm, ⟨59, _⟩ => ⟨S_, .f32⟩
  | .hbm, ⟨60, _⟩ => ⟨S_, .f32⟩
  | .hbm, ⟨61, _⟩ => ⟨S512x65536, .f32⟩
  | .hbm, ⟨62, _⟩ => ⟨S512x65536, .f32⟩
  | .hbm, ⟨63, _⟩ => ⟨S_, .f32⟩
  | .hbm, ⟨64, _⟩ => ⟨S512, .f32⟩
  | .hbm, ⟨65, _⟩ => ⟨S_, .i1⟩
  | .hbm, ⟨66, _⟩ => ⟨S512, .i1⟩
  | .hbm, ⟨67, _⟩ => ⟨S512, .f32⟩
  | .hbm, ⟨68, _⟩ => ⟨S_, .f32⟩
  | .hbm, ⟨69, _⟩ => ⟨S_, .f32⟩
  | .hbm, ⟨70, _⟩ => ⟨S512, .f32⟩
  | .hbm, ⟨71, _⟩ => ⟨S512, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_call1_v0 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_call2_v0 : Ref sig .tc := ⟨.hbm, 44, rfl⟩
abbrev main_call2_v1 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_call3_v0 : Ref sig .tc := ⟨.hbm, 60, rfl⟩
abbrev main_call3_v1 : Ref sig .tc := ⟨.hbm, 61, rfl⟩
abbrev main_v39 : Ref sig .tc := ⟨.hbm, 62, rfl⟩
abbrev main_cst_11 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_cst_13 : Ref sig .tc := ⟨.hbm, 68, rfl⟩
abbrev main_call4_v0 : Ref sig .tc := ⟨.hbm, 69, rfl⟩
abbrev main_call4_v1 : Ref sig .tc := ⟨.hbm, 70, rfl⟩
abbrev main_v43 : Ref sig .tc := ⟨.hbm, 71, rfl⟩
abbrev main_cst_14 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩

abbrev nD : Nat := 1
abbrev τ : Topo := Topo.v7x

variable {F : FTy → Type} [FloatOps F]

class Facts₀ : Prop where
  transposes_S65536x512_S512x65536_1_0 : S65536x512.Transposes [1, 0] S512x65536
  bcast_S512_S512x1_0 : S512.BroadcastsInDim S512x1 (![0] : Fin 1 → Fin S512x1.rank)
  bcast_S65536_S1x65536_1 : S65536.BroadcastsInDim S1x65536 (![1] : Fin 1 → Fin S1x65536.rank)
  bcast_S512x1_S512x65536_0_1 : S512x1.BroadcastsInDim S512x65536 (![0, 1] : Fin 2 → Fin S512x65536.rank)
  bcast_S1x65536_S512x65536_0_1 : S1x65536.BroadcastsInDim S512x65536 (![0, 1] : Fin 2 → Fin S512x65536.rank)
  bcast_S_S512x512 : S_.BroadcastsInDim S512x512 (![] : Fin 0 → Fin S512x512.rank)
  slices_S512x65536_S512x512_0_0 : S512x65536.Slices ![0, 0] S512x512
  bcast_S_S1 : S_.BroadcastsInDim S1 (![] : Fin 0 → Fin S1.rank)
  bcast_S_S512x65536 : S_.BroadcastsInDim S512x65536 (![] : Fin 0 → Fin S512x65536.rank)
  reducesTo_S512x65536_S512_d1 : S512x65536.ReducesTo [1] S512
  h_S_ : 0 < S_.numel
  bcast_S_S512 : S_.BroadcastsInDim S512 (![] : Fin 0 → Fin S512.rank)
  reducesTo_S512_S_d0 : S512.ReducesTo [0] S_
  dot_S512x512_S512x65536_S512x65536_1_0_0_1_n_n_wf : DotDims.WF S512x512 S512x65536 S512x65536 [1] [0] [0] [1] [] []
  scatter_S512x65536_S1_S512x512_01_n_1_0_wf : ScatterDims.WF S512x65536 S1 S512x512 [0, 1] [] [1] 0

variable [Facts₀]

def dot_S512x512_S512x65536_S512x65536_1_0_0_1_n_n : DotDims S512x512 S512x65536 S512x65536 where
  lhsContracting := [1]
  rhsContracting := [0]
  lhsNonContracting := [0]
  rhsNonContracting := [1]
  lhsBatch := []
  rhsBatch := []
  wf := dot_S512x512_S512x65536_S512x65536_1_0_0_1_n_n_wf
def scatter_S512x65536_S1_S512x512_01_n_1_0 : ScatterDims S512x65536 S1 S512x512 where
  updateWindowDims := [0, 1]
  insertedWindowDims := []
  scatterDimsToOperandDims := [1]
  indexVectorDim := 0
  wf := scatter_S512x65536_S1_S512x512_01_n_1_0_wf

class Facts : Prop extends Facts₀ where

variable [Facts]
-- ==== Proof.KRun.lean ====
/-
  The kernel program's run with its RESULT named. The program is six segments: two reshapes of the label vectors, the
  two grid regions, and three stretches of host operations that turn the regions' four column vectors into one number.
  Every weakly fair execution terminates, nothing faulting, with each unscoped buffer at the contents the segments
  leave one after the other (the fold `Gen.W6`); in particular the result buffer holds `Gen.W6 … main_v12` and the four
  argument arrays are as launched.
-/
import proofs.«163207_j1769526526574_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v12) = W6 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v12 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.KRun

end
-- ==== Proof.Spec.lean ====
/-
  The loss as ONE function of the four argument arrays, over the extended reals.

  For a row `i` of the 512 anchors and a column `j` of the 65536 memory rows: `sim i j` is the inner product of row `i` of
  the first matrix with row `j` of the second; `same i j` says the two labels agree; a pair is POSITIVE when the labels
  agree, except that on the diagonal `i = j` the answer is flipped (`posM`), and NEGATIVE when the labels differ (`negM`).
  `maxNeg i` / `maxPos i` are the largest similarity of a negative / positive pair of row `i` (-∞ when there is none).
  The positive loss of a row adds `1 - sim` over its positive pairs with `sim < maxNeg + 0.1`, the negative loss adds
  `sim` over its negative pairs with `sim > max 0.6 maxPos - 0.1`; a row with no positive pair counts for nothing; the
  loss is the sum over the rows divided by 512. The float words are kept as words: both programs hold the same ones.
-/
import Idealize.ShloMosaic.PureOps.Ideal
import Idealize.ShloMosaic.PureOps.Ideal.Laws
import Idealize.ShloMosaic.Lib.ValueIdx

noncomputable section

namespace Cert.Spec

open Idealize.ShloMosaic

/-- The f32 words of the two programs, read at the extended reals: -∞, 0.1, 0.6, 1, 0, 512, and (kernel only) 0.5. -/
abbrev ninf : EReal := Ideal.ofBits .f32 0xFF800000#32
abbrev c01 : EReal := Ideal.ofBits .f32 0x3DCCCCCD#32
abbrev c06 : EReal := Ideal.ofBits .f32 0x3F19999A#32
abbrev c1 : EReal := Ideal.ofBits .f32 0x3F800000#32
abbrev c0 : EReal := Ideal.ofBits .f32 0x00000000#32
abbrev c512 : EReal := Ideal.ofBits .f32 0x44000000#32
abbrev chalf : EReal := Ideal.ofBits .f32 0x3F000000#32

/-- Labels agree. -/
def same (tc : Fin 512 → BitVec 32) (tr : Fin 65536 → BitVec 32) (i : Fin 512) (j : Fin 65536) : BitVec 1 :=
  IntOp.cmpi .eq (tc i) (tr j)

/-- The diagonal `i = j` of the 512 × 65536 rectangle. -/
def diag (i : Fin 512) (j : Fin 65536) : BitVec 1 := if i.val = j.val then 1#1 else 0#1

/-- Positive pair: labels agree, flipped on the diagonal. -/
def posM (tc : Fin 512 → BitVec 32) (tr : Fin 65536 → BitVec 32) (i : Fin 512) (j : Fin 65536) : BitVec 1 :=
  IntOp.xori (same tc tr i j) (diag i j)

/-- Negative pair: labels differ. -/
def negM (tc : Fin 512 → BitVec 32) (tr : Fin 65536 → BitVec 32) (i : Fin 512) (j : Fin 65536) : BitVec 1 :=
  IntOp.xori (same tc tr i j) 1#1

/-- The similarity matrix: row `i` of `A` against row `j` of `B`. -/
def sim (A : Fin 512 → Fin 512 → EReal) (B : Fin 65536 → Fin 512 → EReal) (i : Fin 512) (j : Fin 65536) : EReal :=
  ∑ k : Fin 512, A i k * B j k

/-- A row's largest entry among the columns a mask selects (-∞ over the others): the fold of `max` from -∞. -/
def rowMax (s : Fin 65536 → EReal) (p : Fin 65536 → BitVec 1) : EReal :=
  (Finset.univ : Finset (Fin 65536)).fold max ninf (fun j => Scalar.select (p j) (s j) ninf)

/-- One pair's share of the positive loss, given the row's largest negative similarity `mn`. -/
def posTerm (s : EReal) (p : BitVec 1) (mn : EReal) : EReal :=
  Scalar.select (IntOp.andi p (Ideal.cmp .olt s (mn + c01))) (c1 - s) c0

/-- One pair's share of the negative loss, given the row's largest positive similarity `mp`. -/
def negTerm (s : EReal) (n : BitVec 1) (mp : EReal) : EReal :=
  Scalar.select (IntOp.andi n (Ideal.cmp .ogt s (max c06 mp - c01))) s c0

/-- Some column of the mask is set. -/
def anyB (p : Fin 65536 → BitVec 1) : BitVec 1 := if ∃ j, p j = 1#1 then 1#1 else 0#1

section
variable (A : Fin 512 → Fin 512 → EReal) (B : Fin 65536 → Fin 512 → EReal) (tc : Fin 512 → BitVec 32) (tr : Fin 65536 → BitVec 32)

def maxNeg (i : Fin 512) : EReal := rowMax (sim A B i) (negM tc tr i)
def maxPos (i : Fin 512) : EReal := rowMax (sim A B i) (posM tc tr i)
def posLoss (i : Fin 512) : EReal := ∑ j : Fin 65536, posTerm (sim A B i j) (posM tc tr i j) (maxNeg A B tc tr i)
def negLoss (i : Fin 512) : EReal := ∑ j : Fin 65536, negTerm (sim A B i j) (negM tc tr i j) (maxPos A B tc tr i)
def rowLoss (i : Fin 512) : EReal :=
  Scalar.select (anyB (posM tc tr i)) (posLoss A B tc tr i + negLoss A B tc tr i) c0

/-- The loss. -/
def loss : EReal := Ideal.div (c0 + ∑ i : Fin 512, rowLoss A B tc tr i) c512
end

/-- A matrix / a vector given as an array over a literal shape, read by its coordinates. -/
def mat {α : Type} {n0 n1 : Nat} (X : (⟨2, ![n0, n1]⟩ : Shape).Idx → α) : Fin n0 → Fin n1 → α := fun i k => X (ValueIdx.ix2 i k)
def vec {α : Type} {n : Nat} (x : (⟨1, ![n]⟩ : Shape).Idx → α) : Fin n → α := fun i => x (ValueIdx.ix1 i)

/-- The loss of the four argument arrays. -/
def lossOf (a0 : (⟨2, ![512, 512]⟩ : Shape).Idx → EReal) (a1 : (⟨1, ![512]⟩ : Shape).Idx → BitVec 32)
    (a2 : (⟨2, ![65536, 512]⟩ : Shape).Idx → EReal) (a3 : (⟨1, ![65536]⟩ : Shape).Idx → BitVec 32) : EReal :=
  loss (mat a0) (mat a2) (vec a1) (vec a3)

end Cert.Spec

end
-- ==== Proof.Tail.lean ====
/-
  The last stretch of the kernel program: fifteen host operations turn the two regions' three column vectors — a row's
  flag, its positive loss and its negative loss — into one number: the flags are compared with one half, the two losses
  added, a row without the flag counts for zero, the rows are summed from zero and the sum is divided by 512.
-/
import proofs.«163207_j1769526526574_2_alg».proof.Proof.Gen.KernelIdeal.Frame
import proofs.«163207_j1769526526574_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

/-- A column vector `[a, 1]` cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar broadcast to any shape reads the scalar everywhere. -/
theorem broadcast_scalar_apply {T : Shape} {α : Type} (h : (⟨0, ![]⟩ : Shape).BroadcastsInDim T ![])
    (x : (⟨0, ![]⟩ : Shape).Idx → α) (j : T.Idx) (k : (⟨0, ![]⟩ : Shape).Idx) : broadcastInDim T ![] h x j = x k := by
  unfold broadcastInDim; exact congrArg x (funext fun a => a.elim0)

/-- The indices of a vector are its coordinates. -/
def ix1Equiv (n : ℕ) : Fin n ≃ (⟨1, ![n]⟩ : Shape).Idx where
  toFun := ix1
  invFun j := j 0
  left_inv _ := rfl
  right_inv j := (eq_ix1 j).symm

/-- A sum over a vector's indices is the sum over its coordinates. -/
theorem sum_idx1 {n : ℕ} (x : (⟨1, ![n]⟩ : Shape).Idx → EReal) :
    ∑ i : (⟨1, ![n]⟩ : Shape).Idx, x i = ∑ i : Fin n, x (ix1 i) :=
  (Fintype.sum_equiv (ix1Equiv n) _ _ (fun _ => rfl)).symm

/-- The fifteen operations as one function of the three column vectors, read at the extended reals. -/
theorem tail_eq (X7 X5 X6 : S512x1.Idx → EReal) (flag pl nl : Fin 512 → EReal)
    (h7 : ∀ i : Fin 512, X7 (ix2 i (0 : Fin 1)) = flag i)
    (h5 : ∀ i : Fin 512, X5 (ix2 i (0 : Fin 1)) = pl i)
    (h6 : ∀ i : Fin 512, X6 (ix2 i (0 : Fin 1)) = nl i) :
    Host.divf (F := Ideal) (φ := .f32)
      (Host.reduceAdd (F := Ideal) (φ := .f32)
        (select
          (cmpf (F := Ideal) (φ := .f32) .ogt (shapeCast S512 X7 shapeCasts_S512x1_S512)
            (broadcastInDim S512 ![] bcast_S_S512 (constant (F := Ideal) S_ .f32 0x3F000000#32)))
          (addf (F := Ideal) (φ := .f32) (shapeCast S512 X5 shapeCasts_S512x1_S512) (shapeCast S512 X6 shapeCasts_S512x1_S512))
          (broadcastInDim S512 ![] bcast_S_S512 (id (constant (F := Ideal) S_ .f32 0x00000000#32))))
        (constant (F := Ideal) S_ .f32 0x00000000#32) reducesTo_S512_S_d0 h_S_)
      (constant (F := Ideal) S_ .f32 0x44000000#32)
    = fun _ => Ideal.div (Spec.c0 + ∑ i : Fin 512, Scalar.select (Ideal.cmp .ogt (flag i) Spec.chalf) (pl i + nl i) Spec.c0) Spec.c512 := by
  funext j
  show Ideal.div (Ideal.hostReduceAdd reducesTo_S512_S_d0 _ Spec.c0 j) Spec.c512 = _
  rw [Ideal.hostReduceAdd_total reducesTo_S512_S_d0 (fun b => b.elim0), sum_idx1]
  refine congrArg (fun t => Ideal.div (Spec.c0 + t) Spec.c512) (Finset.sum_congr rfl fun i _ => ?_)
  rw [select_apply, cmpf_apply, addf_apply, shapeCast_a1_a_apply, shapeCast_a1_a_apply, shapeCast_a1_a_apply,
    broadcast_scalar_apply _ _ _ ix0, broadcast_scalar_apply _ _ _ ix0, h7, h5, h6]
  rfl

theorem result_eq (m : (ℓ : Loc nD τ sig) → Buf (Elt Ideal) ℓ) (ρ : Dev nD → PrngReg) (c : Dev nD) (flag pl nl : Fin 512 → EReal)
    (h7 : ∀ i : Fin 512, (W3 m ρ c (Proc.devRef .tc main_v2_3) : S512x1.Idx → EReal) (ix2 i (0 : Fin 1)) = flag i)
    (h5 : ∀ i : Fin 512, (W3 m ρ c (Proc.devRef .tc main_v3_0) : S512x1.Idx → EReal) (ix2 i (0 : Fin 1)) = pl i)
    (h6 : ∀ i : Fin 512, (W3 m ρ c (Proc.devRef .tc main_v3_1) : S512x1.Idx → EReal) (ix2 i (0 : Fin 1)) = nl i) :
    (W6 m ρ c (Proc.devRef .tc main_v12) : S_.Idx → EReal)
      = fun _ => Ideal.div (Spec.c0 + ∑ i : Fin 512, Scalar.select (Ideal.cmp .ogt (flag i) Spec.chalf) (pl i + nl i) Spec.c0) Spec.c512 := by
  show StableHlo.after hostOps2_2 (W5 m ρ c) (Proc.devRef .tc main_v12) = _
  after_results
  exact tail_eq (W3 m ρ c (Proc.devRef .tc main_v2_3)) (W3 m ρ c (Proc.devRef .tc main_v3_0)) (W3 m ρ c (Proc.devRef .tc main_v3_1))
    flag pl nl h7 h5 h6

end Cert.KernelIdeal.Tail

end
-- ==== Proof.Region0Body.lean ====
/-
  Region 0 (the similarity-and-maxima pass), one grid point: what the body leaves in each output block, as a function of
  the point's input blocks. The similarity block is the product of the two row blocks; each of the three column blocks
  is the running value folded with this tile's value (the tile's largest negative / positive similarity, the tile's
  "some positive pair" flag), the running value being the start value (-∞, -∞, 0) at the first tile of a row tile and
  what the point before left otherwise.
-/
import proofs.«163207_j1769526526574_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]

theorem hz : (![0, 0] : Fin 2 → Nat) = fun _ => 0 := funext fun a => by fin_cases a <;> rfl

/-- The start values the first tile of a row tile stores before it reads them back: -∞, -∞, 0. -/
abbrev start5 : Vec F S256x1 .f32 := k0_pay4
abbrev start6 : Vec F S256x1 .f32 := k0_pay5
abbrev start7 : Vec F S256x1 .f32 := k0_pay6

/-- This tile's values for the three column blocks, and the fold of each into a running block `xo`. -/
abbrev step5 (x0 : Vec F S256x512 .f32) (x1 : Vec F S4096x512 .f32) (x2 : Vec F S256x1 .i32) (x3 : Vec F S1x4096 .i32) (xo : Vec F S256x1 .f32) : Vec F S256x1 .f32 :=
  k0_pay1 (k0_pay10 x0 x1 x2 x3) xo
abbrev step6 (i : grid0.Coords) (x0 : Vec F S256x512 .f32) (x1 : Vec F S4096x512 .f32) (x2 : Vec F S256x1 .i32) (x3 : Vec F S1x4096 .i32) (xo : Vec F S256x1 .f32) : Vec F S256x1 .f32 :=
  k0_pay2 (k0_pay11 i x0 x1 x2 x3) xo
abbrev step7 (i : grid0.Coords) (x2 : Vec F S256x1 .i32) (x3 : Vec F S1x4096 .i32) (xo : Vec F S256x1 .f32) : Vec F S256x1 .f32 :=
  k0_pay3 (k0_pay9 i x2 x3) (Scalar.ofBits .f32 0x00000000#32) k0_pay12 xo

/-! ## Later tiles of a row tile: the running blocks are what the point before left -/

theorem out_B_4 (c : Dev nD) (i : grid0.Coords) (a2 : Memref sig .tc .vmem S256x512 .f32) (h2 : a2.IsWhole) (a3 : Memref sig .tc .vmem S4096x512 .f32) (h3 : a3.IsWhole) (a4 : Memref sig .tc .vmem S256x1 .i32) (h4 : a4.IsWhole) (a5 : Memref sig .tc .vmem S1x4096 .i32) (h5 : a5.IsWhole) (a6 : Memref sig .tc .vmem S256x4096 .f32) (h6 : a6.IsWhole) (a7 : Memref sig .tc .vmem S256x1 .f32) (h7 : a7.IsWhole) (a8 : Memref sig .tc .vmem S256x1 .f32) (h8 : a8.IsWhole) (a9 : Memref sig .tc .vmem S256x1 .f32) (h9 : a9.IsWhole) (hc : ¬cond0_0 i) (x0 : Vec F S256x512 .f32) (x1 : Vec F S4096x512 .f32) (x2 : Vec F S256x1 .i32) (x3 : Vec F S1x4096 .i32) (xo5 xo6 xo7 : Vec F S256x1 .f32) :
    out0_B_4 c i a2 h2 a3 h3 a4 h4 a5 h5 a6 h6 a7 h7 a8 h8 a9 h9 hc x0 x1 x2 x3 xo5 xo6 xo7 = k0_pay7 x0 x1 := by
  unfold out0_B_4
  rw [View.read_writes_eq_canon _ _ _ (cover0_B_4 c i a2 h2 a3 h3 a4 h4 a5 h5 a6 h6 a7 h7 a8 h8 a9 h9 hc x0 x1 x2 x3 xo5 xo6 xo7)]
  unfold kernelRun0_B
  dsimp only
  sl_unfold_words
  rw [View.canon_unit_zero hz]
  simp only [View.readAt_eq_ld, h2.read_unread, h3.read_unread, h4.read_unread, h5.read_unread, h7.read_unread, h8.read_unread, h9.read_unread, View.ld_unit_zero (S := S256x512) hz, View.ld_unit_zero (S := S4096x512) hz, View.ld_unit_zero (S := S256x1) hz, View.ld_unit_zero (S := S1x4096) hz]

theorem out_B_5 (c : Dev nD) (i : grid0.Coords) (a2 : Memref sig .tc .vmem S256x512 .f32) (h2 : a2.IsWhole) (a3 : Memref sig .tc .vmem S4096x512 .f32) (h3 : a3.IsWhole) (a4 : Memref sig .tc .vmem S256x1 .i32) (h4 : a4.IsWhole) (a5 : Memref sig .tc .vmem S1x4096 .i32) (h5 : a5.IsWhole) (a6 : Memref sig .tc .vmem S256x4096 .f32) (h6 : a6.IsWhole) (a7 : Memref sig .tc .vmem S256x1 .f32) (h7 : a7.IsWhole) (a8 : Memref sig .tc .vmem S256x1 .f32) (h8 : a8.IsWhole) (a9 : Memref sig .tc .vmem S256x1 .f32) (h9 : a9.IsWhole) (hc : ¬cond0_0 i) (x0 : Vec F S256x512 .f32) (x1 : Vec F S4096x512 .f32) (x2 : Vec F S256x1 .i32) (x3 : Vec F S1x4096 .i32) (xo5 xo6 xo7 : Vec F S256x1 .f32) :
    out0_B_5 c i a2 h2 a3 h3 a4 h4 a5 h5 a6 h6 a7 h7 a8 h8 a9 h9 hc x0 x1 x2 x3 xo5 xo6 xo7 = step5 x0 x1 x2 x3 xo5 := by
  unfold out0_B_5
  rw [View.read_writes_eq_canon _ _ _ (cover0_B_5 c i a2 h2 a3 h3 a4 h4 a5 h5 a6 h6 a7 h7 a8 h8 a9 h9 hc x0 x1 x2 x3 xo5 xo6 xo7)]
  unfold kernelRun0_B
  dsimp only
  sl_unfold_words
  rw [View.canon_unit_zero hz]
  simp only [View.readAt_eq_ld, h2.read_unread, h3.read_unread, h4.read_unread, h5.read_unread, h7.read_unread, h8.read_unread, h9.read_unread, View.ld_unit_zero (S := S256x512) hz, View.ld_unit_zero (S := S4096x512) hz, View.ld_unit_zero (S := S256x1) hz, View.ld_unit_zero (S := S1x4096) hz]

theorem out_B_6 (c : Dev nD) (i : grid0.Coords) (a2 : Memref sig .tc .vmem S256x512 .f32) (h2 : a2.IsWhole) (a3 : Memref sig .tc .vmem S4096x512 .f32) (h3 : a3.IsWhole) (a4 : Memref sig .tc .vmem S256x1 .i32) (h4 : a4.IsWhole) (a5 : Memref sig .tc .vmem S1x4096 .i32) (h5 : a5.IsWhole) (a6 : Memref sig .tc .vmem S256x4096 .f32) (h6 : a6.IsWhole) (a7 : Memref sig .tc .vmem S256x1 .f32) (h7 : a7.IsWhole) (a8 : Memref sig .tc .vmem S256x1 .f32) (h8 : a8.IsWhole) (a9 : Memref sig .tc .vmem S256x1 .f32) (h9 : a9.IsWhole) (hc : ¬cond0_0 i) (x0 : Vec F S256x512 .f32) (x1 : Vec F S4096x512 .f32) (x2 : Vec F S256x1 .i32) (x3 : Vec F S1x4096 .i32) (xo5 xo6 xo7 : Vec F S256x1 .f32) :
    out0_B_6 c i a2 h2 a3 h3 a4 h4 a5 h5 a6 h6 a7 h7 a8 h8 a9 h9 hc x0 x1 x2 x3 xo5 xo6 xo7 = step6 i x0 x1 x2 x3 xo6 := by
  unfold out0_B_6
  rw [View.read_writes_eq_canon _ _ _ (cover0_B_6 c i a2 h2 a3 h3 a4 h4 a5 h5 a6 h6 a7 h7 a8 h8 a9 h9 hc x0 x1 x2 x3 xo5 xo6 xo7)]
  unfold kernelRun0_B
  dsimp only
  sl_unfold_words
  rw [View.canon_unit_zero hz]
  simp only [View.readAt_eq_ld, h2.read_unread, h3.read_unread, h4.read_unread, h5.read_unread, h7.read_unread, h8.read_unread, h9.read_unread, View.ld_unit_zero (S := S256x512) hz, View.ld_unit_zero (S := S4096x512) hz, View.ld_unit_zero (S := S256x1) hz, View.ld_unit_zero (S := S1x4096) hz]

theorem out_B_7 (c : Dev nD) (i : grid0.Coords) (a2 : Memref sig .tc .vmem S256x512 .f32) (h2 : a2.IsWhole) (a3 : Memref sig .tc .vmem S4096x512 .f32) (h3 : a3.IsWhole) (a4 : Memref sig .tc .vmem S256x1 .i32) (h4 : a4.IsWhole) (a5 : Memref sig .tc .vmem S1x4096 .i32) (h5 : a5.IsWhole) (a6 : Memref sig .tc .vmem S256x4096 .f32) (h6 : a6.IsWhole) (a7 : Memref sig .tc .vmem S256x1 .f32) (h7 : a7.IsWhole) (a8 : Memref sig .tc .vmem S256x1 .f32) (h8 : a8.IsWhole) (a9 : Memref sig .tc .vmem S256x1 .f32) (h9 : a9.IsWhole) (hc : ¬cond0_0 i) (x0 : Vec F S256x512 .f32) (x1 : Vec F S4096x512 .f32) (x2 : Vec F S256x1 .i32) (x3 : Vec F S1x4096 .i32) (xo5 xo6 xo7 : Vec F S256x1 .f32) :
    out0_B_7 c i a2 h2 a3 h3 a4 h4 a5 h5 a6 h6 a7 h7 a8 h8 a9 h9 hc x0 x1 x2 x3 xo5 xo6 xo7 = step7 i x2 x3 xo7 := by
  unfold out0_B_7
  rw [View.read_writes_eq_canon _ _ _ (cover0_B_7 c i a2 h2 a3 h3 a4 h4 a5 h5 a6 h6 a7 h7 a8 h8 a9 h9 hc x0 x1 x2 x3 xo5 xo6 xo7)]
  unfold kernelRun0_B
  dsimp only
  sl_unfold_words
  rw [View.canon_unit_zero hz]
  simp only [View.readAt_eq_ld, h2.read_unread, h3.read_unread, h4.read_unread, h5.read_unread, h7.read_unread, h8.read_unread, h9.read_unread, View.ld_unit_zero (S := S256x512) hz, View.ld_unit_zero (S := S4096x512) hz, View.ld_unit_zero (S := S256x1) hz, View.ld_unit_zero (S := S1x4096) hz]

/-! ## The first tile of a row tile: the running blocks are the start values just stored -/

theorem out_A_4 (c : Dev nD) (i : grid0.Coords) (a2 : Memref sig .tc .vmem S256x512 .f32) (h2 : a2.IsWhole) (a3 : Memref sig .tc .vmem S4096x512 .f32) (h3 : a3.IsWhole) (a4 : Memref sig .tc .vmem S256x1 .i32) (h4 : a4.IsWhole) (a5 : Memref sig .tc .vmem S1x4096 .i32) (h5 : a5.IsWhole) (a6 : Memref sig .tc .vmem S256x4096 .f32) (h6 : a6.IsWhole) (a7 : Memref sig .tc .vmem S256x1 .f32) (h7 : a7.IsWhole) (a8 : Memref sig .tc .vmem S256x1 .f32) (h8 : a8.IsWhole) (a9 : Memref sig .tc .vmem S256x1 .f32) (h9 : a9.IsWhole) (hc : cond0_0 i) (x0 : Vec F S256x512 .f32) (x1 : Vec F S4096x512 .f32) (x2 : Vec F S256x1 .i32) (x3 : Vec F S1x4096 .i32) :
    out0_A_4 c i a2 h2 a3 h3 a4 h4 a5 h5 a6 h6 a7 h7 a8 h8 a9 h9 hc x0 x1 x2 x3 = k0_pay7 x0 x1 := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.canon_unit_zero hz]
  simp only [View.readAt_eq_ld, h2.read_unread, h3.read_unread, h4.read_unread, h5.read_unread, h7.read_unread, h8.read_unread, h9.read_unread, View.ld_unit_zero (S := S256x512) hz, View.ld_unit_zero (S := S4096x512) hz, View.ld_unit_zero (S := S256x1) hz, View.ld_unit_zero (S := S1x4096) hz]

theorem out_A_5 (c : Dev nD) (i : grid0.Coords) (a2 : Memref sig .tc .vmem S256x512 .f32) (h2 : a2.IsWhole) (a3 : Memref sig .tc .vmem S4096x512 .f32) (h3 : a3.IsWhole) (a4 : Memref sig .tc .vmem S256x1 .i32) (h4 : a4.IsWhole) (a5 : Memref sig .tc .vmem S1x4096 .i32) (h5 : a5.IsWhole) (a6 : Memref sig .tc .vmem S256x4096 .f32) (h6 : a6.IsWhole) (a7 : Memref sig .tc .vmem S256x1 .f32) (h7 : a7.IsWhole) (a8 : Memref sig .tc .vmem S256x1 .f32) (h8 : a8.IsWhole) (a9 : Memref sig .tc .vmem S256x1 .f32) (h9 : a9.IsWhole) (hc : cond0_0 i) (x0 : Vec F S256x512 .f32) (x1 : Vec F S4096x512 .f32) (x2 : Vec F S256x1 .i32) (x3 : Vec F S1x4096 .i32) :
    out0_A_5 c i a2 h2 a3 h3 a4 h4 a5 h5 a6 h6 a7 h7 a8 h8 a9 h9 hc x0 x1 x2 x3 = step5 x0 x1 x2 x3 start5 := by
  unfold out0_A_5
  rw [View.read_writes_eq_canon _ _ _ (cover0_A_5 c i a2 h2 a3 h3 a4 h4 a5 h5 a6 h6 a7 h7 a8 h8 a9 h9 hc x0 x1 x2 x3)]
  unfold kernelRun0_A
  dsimp only
  sl_unfold_words
  rw [View.canon_cons_unit_zero (S := S256x1) hz, View.readCov_unit_zero (S := S256x1) _ hz]
  simp only [View.readAt_eq_ld, h2.read_unread, h3.read_unread, h4.read_unread, h5.read_unread, h7.read_unread, h8.read_unread, h9.read_unread, View.ld_unit_zero (S := S256x512) hz, View.ld_unit_zero (S := S4096x512) hz, View.ld_unit_zero (S := S256x1) hz, View.ld_unit_zero (S := S1x4096) hz]

theorem out_A_6 (c : Dev nD) (i : grid0.Coords) (a2 : Memref sig .tc .vmem S256x512 .f32) (h2 : a2.IsWhole) (a3 : Memref sig .tc .vmem S4096x512 .f32) (h3 : a3.IsWhole) (a4 : Memref sig .tc .vmem S256x1 .i32) (h4 : a4.IsWhole) (a5 : Memref sig .tc .vmem S1x4096 .i32) (h5 : a5.IsWhole) (a6 : Memref sig .tc .vmem S256x4096 .f32) (h6 : a6.IsWhole) (a7 : Memref sig .tc .vmem S256x1 .f32) (h7 : a7.IsWhole) (a8 : Memref sig .tc .vmem S256x1 .f32) (h8 : a8.IsWhole) (a9 : Memref sig .tc .vmem S256x1 .f32) (h9 : a9.IsWhole) (hc : cond0_0 i) (x0 : Vec F S256x512 .f32) (x1 : Vec F S4096x512 .f32) (x2 : Vec F S256x1 .i32) (x3 : Vec F S1x4096 .i32) :
    out0_A_6 c i a2 h2 a3 h3 a4 h4 a5 h5 a6 h6 a7 h7 a8 h8 a9 h9 hc x0 x1 x2 x3 = step6 i x0 x1 x2 x3 start6 := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  sl_unfold_words
  rw [View.canon_cons_unit_zero (S := S256x1) hz, View.readCov_unit_zero (S := S256x1) _ hz]
  simp only [View.readAt_eq_ld, h2.read_unread, h3.read_unread, h4.read_unread, h5.read_unread, h7.read_unread, h8.read_unread, h9.read_unread, View.ld_unit_zero (S := S256x512) hz, View.ld_unit_zero (S := S4096x512) hz, View.ld_unit_zero (S := S256x1) hz, View.ld_unit_zero (S := S1x4096) hz]

theorem out_A_7 (c : Dev nD) (i : grid0.Coords) (a2 : Memref sig .tc .vmem S256x512 .f32) (h2 : a2.IsWhole) (a3 : Memref sig .tc .vmem S4096x512 .f32) (h3 : a3.IsWhole) (a4 : Memref sig .tc .vmem S256x1 .i32) (h4 : a4.IsWhole) (a5 : Memref sig .tc .vmem S1x4096 .i32) (h5 : a5.IsWhole) (a6 : Memref sig .tc .vmem S256x4096 .f32) (h6 : a6.IsWhole) (a7 : Memref sig .tc .vmem S256x1 .f32) (h7 : a7.IsWhole) (a8 : Memref sig .tc .vmem S256x1 .f32) (h8 : a8.IsWhole) (a9 : Memref sig .tc .vmem S256x1 .f32) (h9 : a9.IsWhole) (hc : cond0_0 i) (x0 : Vec F S256x512 .f32) (x1 : Vec F S4096x512 .f32) (x2 : Vec F S256x1 .i32) (x3 : Vec F S1x4096 .i32) :
    out0_A_7 c i a2 h2 a3 h3 a4 h4 a5 h5 a6 h6 a7 h7 a8 h8 a9 h9 hc x0 x1 x2 x3 = step7 i x2 x3 start7 := by
  unfold out0_A_7
  rw [View.read_writes_eq_canon _ _ _ (cover0_A_7 c i a2 h2 a3 h3 a4 h4 a5 h5 a6 h6 a7 h7 a8 h8 a9 h9 hc x0 x1 x2 x3)]
  unfold kernelRun0_A
  dsimp only
  sl_unfold_words
  rw [View.canon_cons_unit_zero (S := S256x1) hz, View.readCov_unit_zero (S := S256x1) _ hz]
  simp only [View.readAt_eq_ld, h2.read_unread, h3.read_unread, h4.read_unread, h5.read_unread, h7.read_unread, h8.read_unread, h9.read_unread, View.ld_unit_zero (S := S256x512) hz, View.ld_unit_zero (S := S4096x512) hz, View.ld_unit_zero (S := S256x1) hz, View.ld_unit_zero (S := S1x4096) hz]

end Cert.KernelIdeal.R0
end
-- ==== Proof.LibColumn.lean ====
/-
  Column vectors read at an index, for any sizes.

  A keepdims reduction leaves an `[a]` vector that is viewed as an `[a, 1]` column, a column is broadcast across `b`
  lanes, and a column is flattened back to `[a]`: each of these reads the operand at the row's one entry. A lane
  maximum of an `[a, b]` array from the word for -∞, at the extended reals, is the fold of `max` over the row's `b`
  entries from that word's value, and a lane sum from the zero word is the row's sum.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LibColumn

open Idealize.ShloMosaic ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector viewed as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column flattened to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- Over result index `p`, the source index of a reduction of `[a, b]` along its lanes with lane coordinate `k` is `(p, k)`. -/
theorem lift_rows {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A lane maximum of an f32 `[a, b]` array from the word of -∞, at the extended reals: the fold of `max` over the row. -/
theorem rowMax_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine Finset.fold_congr fun k _ => ?_
  exact congrArg src (lift_rows h p k)

/-- A lane sum of an f32 `[a, b]` array from the zero word, at the extended reals: the row's sum. -/
theorem rowSum_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  exact Finset.sum_congr rfl fun k _ => congrArg src (lift_rows h p k)

end Idealize.ShloMosaic.LibColumn

end
-- ==== Proof.Tiles.lean ====
/-
  Reducing a row of 65536 columns tile by tile: sixteen tiles of 4096 columns, visited in order, each tile reduced by
  itself and then folded into a running value. For `max` and for `+` on the extended reals the running value after
  the last tile is the reduction of the whole row (only commutativity and associativity are used, so no entry has to be
  finite); and a row's "some column of the mask is set" can be carried as a running maximum of 0 / 1 flags.
-/
import proofs.«163207_j1769526526574_2_alg».proof.Proof.Spec

noncomputable section

namespace Cert.Tiles

open Idealize.ShloMosaic Cert.Spec

/-- Column `k` of tile `a`: the row's column `4096 a + k`. -/
def col (a : Fin 16) (k : Fin 4096) : Fin 65536 := ⟨a.val * 4096 + k.val, by have := a.isLt; have := k.isLt; omega⟩

/-- Row `r` of row-tile `n`: the matrix's row `256 n + r`. -/
def row (n : Fin 2) (r : Fin 256) : Fin 512 := ⟨n.val * 256 + r.val, by have := n.isLt; have := r.isLt; omega⟩

/-- The running value after tile `n`: tile 0 folded into the start value `z`, then one tile at a time. -/
def acc (op : EReal → EReal → EReal) (z : EReal) (tile : Fin 16 → EReal) : (n : ℕ) → n < 16 → EReal
  | 0, h => op z (tile ⟨0, h⟩)
  | n + 1, h => op (acc op z tile n (Nat.lt_of_succ_lt h)) (tile ⟨n + 1, h⟩)

/-- One tile's maximum from the start value `b`. -/
def tileMax (f : Fin 65536 → EReal) (b : EReal) (a : Fin 16) : EReal :=
  (Finset.univ : Finset (Fin 4096)).fold max b (fun k => f (col a k))

/-- One tile's sum. -/
def tileSum (g : Fin 65536 → EReal) (a : Fin 16) : EReal := ∑ k : Fin 4096, g (col a k)

/-- One tile's flag as the kernel computes it: 1.0 when some column of the mask is set in the tile, else 0.0 —
    the maximum over the tile of 1.0 / 0.0, compared with 0, the bit read back as a float. -/
def tileFlag (p : Fin 65536 → BitVec 1) (a : Fin 16) : EReal :=
  (((BitVec.setWidth 32 (Ideal.cmp .ogt ((Finset.univ : Finset (Fin 4096)).fold max ninf
      (fun k => Scalar.select (p (col a k)) c1 c0)) c0)).toInt : ℝ) : EReal)

/-- Every column of the row lies in exactly one tile: column `j` is column `j % 4096` of tile `j / 4096`. -/
theorem col_div_mod (j : Fin 65536) :
    col ⟨j.val / 4096, by have := j.isLt; omega⟩ ⟨j.val % 4096, Nat.mod_lt _ (by norm_num)⟩ = j :=
  Fin.ext (by simp only [col]; omega)

/-- A running maximum is below a bound exactly when the start value and every tile visited so far are. -/
theorem acc_max_le_iff (z c : EReal) (tile : Fin 16 → EReal) : ∀ (n : ℕ) (h : n < 16),
    acc max z tile n h ≤ c ↔ z ≤ c ∧ ∀ a : Fin 16, a.val ≤ n → tile a ≤ c
  | 0, h => by
    simp only [acc, max_le_iff]
    constructor
    · rintro ⟨hz, ht⟩
      refine ⟨hz, fun a ha => ?_⟩
      have e : a = ⟨0, h⟩ := Fin.ext (by simpa using ha)
      rw [e]; exact ht
    · rintro ⟨hz, ht⟩; exact ⟨hz, ht ⟨0, h⟩ (le_refl _)⟩
  | n + 1, h => by
    simp only [acc, max_le_iff, acc_max_le_iff z c tile n (Nat.lt_of_succ_lt h)]
    constructor
    · rintro ⟨⟨hz, ht⟩, hl⟩
      refine ⟨hz, fun a ha => ?_⟩
      rcases Nat.lt_or_ge a.val (n + 1) with h1 | h1
      · exact ht a (Nat.lt_succ_iff.mp h1)
      · have e : a = ⟨n + 1, h⟩ := Fin.ext (by simp only; omega)
        rw [e]; exact hl
    · rintro ⟨hz, ht⟩
      exact ⟨⟨hz, fun a ha => ht a (by omega)⟩, ht ⟨n + 1, h⟩ (le_refl _)⟩

/-- The running maximum over the sixteen tiles is the row's maximum. -/
theorem acc_max_last (f : Fin 65536 → EReal) (b : EReal) :
    acc max b (tileMax f b) 15 (by omega) = (Finset.univ : Finset (Fin 65536)).fold max b f := by
  refine eq_of_forall_ge_iff fun c => ?_
  rw [acc_max_le_iff, Finset.fold_max_le]
  constructor
  · rintro ⟨hb, ht⟩
    refine ⟨hb, fun j _ => ?_⟩
    have h1 := ht ⟨j.val / 4096, by have := j.isLt; omega⟩ (by have := j.isLt; simp only; omega)
    rw [tileMax, Finset.fold_max_le] at h1
    have h2 := h1.2 ⟨j.val % 4096, Nat.mod_lt _ (by norm_num)⟩ (Finset.mem_univ _)
    rwa [col_div_mod] at h2
  · rintro ⟨hb, hj⟩
    refine ⟨hb, fun a _ => ?_⟩
    rw [tileMax, Finset.fold_max_le]
    exact ⟨hb, fun k _ => hj _ (Finset.mem_univ _)⟩

/-- A running sum is the start value plus the sum of the tiles visited so far. -/
theorem acc_add_eq (z : EReal) (tile : Fin 16 → EReal) : ∀ (n : ℕ) (h : n < 16),
    acc (· + ·) z tile n h = z + ∑ a ∈ Finset.range (n + 1), if h' : a < 16 then tile ⟨a, h'⟩ else 0
  | 0, h => by
    simp only [acc, zero_add, Finset.range_one, Finset.sum_singleton, dif_pos h]
  | n + 1, h => by
    rw [acc, acc_add_eq z tile n (Nat.lt_of_succ_lt h), Finset.sum_range_succ _ (n + 1), dif_pos h, add_assoc]

/-- The tiles partition the row: columns are pairs (tile, column in the tile). -/
def colEquiv : Fin 16 × Fin 4096 ≃ Fin 65536 where
  toFun x := col x.1 x.2
  invFun j := (⟨j.val / 4096, by have := j.isLt; omega⟩, ⟨j.val % 4096, Nat.mod_lt _ (by norm_num)⟩)
  left_inv x := by
    rcases x with ⟨a, k⟩
    have := k.isLt
    refine Prod.ext (Fin.ext ?_) (Fin.ext ?_) <;> simp only [col] <;> omega
  right_inv j := col_div_mod j

/-- The sum of the tiles' sums is the row's sum. -/
theorem sum_tileSum (g : Fin 65536 → EReal) : ∑ a : Fin 16, tileSum g a = ∑ j : Fin 65536, g j := by
  simp only [tileSum]
  rw [← Fintype.sum_prod_type' (f := fun a k => g (col a k))]
  exact Fintype.sum_equiv colEquiv _ _ (fun _ => rfl)

/-- The running sum over the sixteen tiles is the start value plus the row's sum. -/
theorem acc_add_last (g : Fin 65536 → EReal) (z : EReal) :
    acc (· + ·) z (tileSum g) 15 (by omega) = z + ∑ j : Fin 65536, g j := by
  rw [acc_add_eq, ← sum_tileSum, Finset.sum_fin_eq_sum_range]

/-- The float words of the flags, read at the extended reals: 0, 1, one half and -∞. -/
theorem c0_eq : c0 = 0 := by simp [c0, Ideal.ofBits, Ideal.ieee]
theorem c1_eq : c1 = 1 := by
  rw [show (1 : EReal) = ((1 : ℝ) : EReal) by norm_cast]
  simp [c1, Ideal.ofBits, Ideal.ieee, -EReal.coe_mul]; norm_num
theorem chalf_eq : chalf = (((1 : ℝ) / 2 : ℝ) : EReal) := by
  simp [chalf, Ideal.ofBits, Ideal.ieee, -EReal.coe_mul]; norm_num
theorem ninf_eq : ninf = ⊥ := by simp [ninf, Ideal.ofBits, Ideal.ieee]

/-- The ordered "greater than" as a bit. -/
theorem cmp_ogt (x y : EReal) : Ideal.cmp .ogt x y = if y < x then 1#1 else 0#1 := by
  unfold Ideal.cmp; by_cases h : y < x <;> simp [h]

/-- The compare bit widened to a 32-bit word and read as an integer: 1 for a set bit, 0 for a clear one. -/
theorem flagWord_one : (((BitVec.setWidth 32 (1#1 : BitVec 1)).toInt : ℝ) : EReal) = 1 := by
  have e : (BitVec.setWidth 32 (1#1 : BitVec 1)).toInt = 1 := by decide
  rw [e]; simp
theorem flagWord_zero : (((BitVec.setWidth 32 (0#1 : BitVec 1)).toInt : ℝ) : EReal) = 0 := by
  have e : (BitVec.setWidth 32 (0#1 : BitVec 1)).toInt = 0 := by decide
  rw [e]; simp

/-- A tile's flag is 1 when some column of the mask is set in the tile, else 0. -/
theorem tileFlag_eq (p : Fin 65536 → BitVec 1) (a : Fin 16) :
    tileFlag p a = if ∃ k, p (col a k) = 1#1 then 1 else 0 := by
  have hM : c0 < (Finset.univ : Finset (Fin 4096)).fold max ninf (fun k => Scalar.select (p (col a k)) c1 c0)
      ↔ ∃ k, p (col a k) = 1#1 := by
    rw [Finset.lt_fold_max, c0_eq, c1_eq, ninf_eq]
    constructor
    · rintro (h | ⟨k, _, hk⟩)
      · exact absurd h not_lt_bot
      · refine ⟨k, ?_⟩
        by_contra hne
        rw [ValueIdx.eq_zero_of_ne_one hne, ValueIdx.select_zero] at hk
        exact lt_irrefl _ hk
    · rintro ⟨k, hk⟩
      exact Or.inr ⟨k, Finset.mem_univ _, by rw [hk, ValueIdx.select_one]; exact zero_lt_one⟩
  unfold tileFlag
  rw [cmp_ogt]
  by_cases h : ∃ k, p (col a k) = 1#1
  · rw [if_pos (hM.mpr h), if_pos h, flagWord_one]
  · rw [if_neg (mt hM.mp h), if_neg h, flagWord_zero]

/-- A running maximum exceeds a bound exactly when the start value or some tile visited so far does. -/
theorem lt_acc_max_iff (z c : EReal) (tile : Fin 16 → EReal) (n : ℕ) (h : n < 16) :
    c < acc max z tile n h ↔ c < z ∨ ∃ a : Fin 16, a.val ≤ n ∧ c < tile a := by
  rw [← not_le, acc_max_le_iff, not_and_or, not_le]
  simp only [not_forall, not_le, exists_prop]

/-- The running maximum of the tiles' flags, from 0.0, exceeds 0.5 exactly when some column of the mask is set. -/
theorem acc_flag_last (p : Fin 65536 → BitVec 1) :
    Ideal.cmp .ogt (acc max c0 (tileFlag p) 15 (by omega)) chalf = anyB p := by
  have hhalf0 : ¬ (((1 : ℝ) / 2 : ℝ) : EReal) < 0 := not_lt.mpr (EReal.coe_nonneg.mpr (by norm_num))
  have hhalf1 : (((1 : ℝ) / 2 : ℝ) : EReal) < 1 := by
    rw [← EReal.coe_one]; exact EReal.coe_lt_coe_iff.mpr (by norm_num)
  have key : chalf < acc max c0 (tileFlag p) 15 (by omega) ↔ ∃ j, p j = 1#1 := by
    rw [lt_acc_max_iff, c0_eq, chalf_eq]
    constructor
    · rintro (h | ⟨a, _, ha⟩)
      · exact absurd h hhalf0
      · rw [tileFlag_eq] at ha
        by_cases hk : ∃ k, p (col a k) = 1#1
        · obtain ⟨k, hk⟩ := hk; exact ⟨_, hk⟩
        · rw [if_neg hk] at ha; exact absurd ha hhalf0
    · rintro ⟨j, hj⟩
      refine Or.inr ⟨⟨j.val / 4096, by have := j.isLt; omega⟩, by have := j.isLt; simp only; omega, ?_⟩
      rw [tileFlag_eq, if_pos ⟨⟨j.val % 4096, Nat.mod_lt _ (by norm_num)⟩, by rw [col_div_mod]; exact hj⟩]
      exact hhalf1
  rw [cmp_ogt, anyB]
  by_cases h : ∃ j, p j = 1#1
  · rw [if_pos (key.mpr h), if_pos h]
  · rw [if_neg (mt key.mp h), if_neg h]

/-- Equality of two words as a bit. -/
theorem cmpi_eq (x y : BitVec 32) : IntOp.cmpi .eq x y = if x = y then 1#1 else 0#1 := by
  unfold IntOp.cmpi
  by_cases h : x = y
  · subst h; simp
  · have e : (x == y) = false := beq_eq_false_iff_ne.mpr h
    rw [if_neg h]; simp only [e]; rfl

/-- The diagonal as the kernel computes it on a tile: (row in tile + 256 · row-tile) = (column in tile + 4096 · tile)
    as 32-bit words, which do not wrap at these sizes. -/
theorem diag_tile (n : Fin 2) (r : Fin 256) (a : Fin 16) (k : Fin 4096) :
    IntOp.cmpi .eq (IntOp.addi (BitVec.ofNat 32 r.val) (Scalar.muli (BitVec.ofNat 32 n.val) 256#32))
        (IntOp.addi (BitVec.ofNat 32 k.val) (Scalar.muli (BitVec.ofNat 32 a.val) 4096#32))
      = diag (row n r) (col a k) := by
  have hn := n.isLt; have hr := r.isLt; have ha := a.isLt; have hk := k.isLt
  have key : IntOp.addi (BitVec.ofNat 32 r.val) (Scalar.muli (BitVec.ofNat 32 n.val) 256#32)
        = IntOp.addi (BitVec.ofNat 32 k.val) (Scalar.muli (BitVec.ofNat 32 a.val) 4096#32)
      ↔ (row n r).val = (col a k).val := by
    rw [← BitVec.toNat_inj]
    simp only [IntOp.addi, Scalar.muli, IntOp.muli, BitVec.toNat_add, BitVec.toNat_mul, BitVec.toNat_ofNat, row, col]
    omega
  rw [cmpi_eq, diag]
  by_cases h : (row n r).val = (col a k).val
  · rw [if_pos (key.mpr h), if_pos h]
  · rw [if_neg (mt key.mp h), if_neg h]

/-! Near variants: the two words by themselves, the comparison of two small words, and the other operand orders. -/

/-- The row word: (row in tile + 256 · row-tile) is the word of the matrix's row, nothing wrapping. -/
theorem rowWord (n : Fin 2) (r : Fin 256) :
    IntOp.addi (BitVec.ofNat 32 r.val) (Scalar.muli (BitVec.ofNat 32 n.val) 256#32) = BitVec.ofNat 32 (row n r).val := by
  have hn := n.isLt; have hr := r.isLt
  apply BitVec.eq_of_toNat_eq
  simp only [IntOp.addi, Scalar.muli, IntOp.muli, BitVec.toNat_add, BitVec.toNat_mul, BitVec.toNat_ofNat, row]
  omega

/-- The column word: (column in tile + 4096 · tile) is the word of the row's column, nothing wrapping. -/
theorem colWord (a : Fin 16) (k : Fin 4096) :
    IntOp.addi (BitVec.ofNat 32 k.val) (Scalar.muli (BitVec.ofNat 32 a.val) 4096#32) = BitVec.ofNat 32 (col a k).val := by
  have ha := a.isLt; have hk := k.isLt
  apply BitVec.eq_of_toNat_eq
  simp only [IntOp.addi, Scalar.muli, IntOp.muli, BitVec.toNat_add, BitVec.toNat_mul, BitVec.toNat_ofNat, col]
  omega

/-- Two indices of the rectangle are equal as 32-bit words exactly on the diagonal. -/
theorem diag_ofNat (i : Fin 512) (j : Fin 65536) :
    IntOp.cmpi .eq (BitVec.ofNat 32 i.val) (BitVec.ofNat 32 j.val) = diag i j := by
  have hi := i.isLt; have hj := j.isLt
  have key : BitVec.ofNat 32 i.val = BitVec.ofNat 32 j.val ↔ i.val = j.val := by
    rw [← BitVec.toNat_inj]
    simp only [BitVec.toNat_ofNat]
    omega
  rw [cmpi_eq, diag]
  by_cases h : i.val = j.val
  · rw [if_pos (key.mpr h), if_pos h]
  · rw [if_neg (mt key.mp h), if_neg h]

/-- Word addition and multiplication commute; the scalar forms are the integer ones. -/
theorem addi_comm (x y : BitVec 32) : IntOp.addi x y = IntOp.addi y x := BitVec.add_comm x y
theorem muli_comm (x y : BitVec 32) : Scalar.muli x y = Scalar.muli y x := BitVec.mul_comm x y
theorem intMuli_comm (x y : BitVec 32) : IntOp.muli x y = IntOp.muli y x := BitVec.mul_comm x y
theorem scalar_muli (x y : BitVec 32) : Scalar.muli x y = IntOp.muli x y := rfl

/-- The same with the sums' operands swapped: (256 · row-tile + row in tile) = (4096 · tile + column in tile). -/
theorem diag_tile_add_swap (n : Fin 2) (r : Fin 256) (a : Fin 16) (k : Fin 4096) :
    IntOp.cmpi .eq (IntOp.addi (Scalar.muli (BitVec.ofNat 32 n.val) 256#32) (BitVec.ofNat 32 r.val))
        (IntOp.addi (Scalar.muli (BitVec.ofNat 32 a.val) 4096#32) (BitVec.ofNat 32 k.val))
      = diag (row n r) (col a k) := by
  rw [addi_comm (Scalar.muli _ _), addi_comm (Scalar.muli _ _)]; exact diag_tile n r a k

/-- The same with the products' operands swapped: (row in tile + row-tile · 256 written as 256 · row-tile). -/
theorem diag_tile_mul_swap (n : Fin 2) (r : Fin 256) (a : Fin 16) (k : Fin 4096) :
    IntOp.cmpi .eq (IntOp.addi (BitVec.ofNat 32 r.val) (Scalar.muli 256#32 (BitVec.ofNat 32 n.val)))
        (IntOp.addi (BitVec.ofNat 32 k.val) (Scalar.muli 4096#32 (BitVec.ofNat 32 a.val)))
      = diag (row n r) (col a k) := by
  rw [muli_comm 256#32, muli_comm 4096#32]; exact diag_tile n r a k

/-- The same with both the sums' and the products' operands swapped. -/
theorem diag_tile_add_mul_swap (n : Fin 2) (r : Fin 256) (a : Fin 16) (k : Fin 4096) :
    IntOp.cmpi .eq (IntOp.addi (Scalar.muli 256#32 (BitVec.ofNat 32 n.val)) (BitVec.ofNat 32 r.val))
        (IntOp.addi (Scalar.muli 4096#32 (BitVec.ofNat 32 a.val)) (BitVec.ofNat 32 k.val))
      = diag (row n r) (col a k) := by
  rw [muli_comm 256#32, muli_comm 4096#32]; exact diag_tile_add_swap n r a k

/-- The same with the integer product spelled directly. -/
theorem diag_tile_intMuli (n : Fin 2) (r : Fin 256) (a : Fin 16) (k : Fin 4096) :
    IntOp.cmpi .eq (IntOp.addi (BitVec.ofNat 32 r.val) (IntOp.muli (BitVec.ofNat 32 n.val) 256#32))
        (IntOp.addi (BitVec.ofNat 32 k.val) (IntOp.muli (BitVec.ofNat 32 a.val) 4096#32))
      = diag (row n r) (col a k) := diag_tile n r a k

end Cert.Tiles

end
-- ==== Proof.Region0Pay.lean ====
/-
  Region 0, one grid point, entry by entry at the extended reals. For row `r` of the point's 256 rows and column `k` of
  its 4096 columns: the similarity block's entry is the inner product of row `r` of the first input block with row `k` of
  the second; the label mask compares the column label of row `r` with the row label of column `k`; the diagonal mask
  compares the row's and the column's positions in the whole matrix (the point's offsets added); and each of the three
  column blocks at row `r` is `max` of the running value there with this tile's value — the largest similarity over the
  tile's negative pairs, over its positive pairs, and the 0 / 1 flag "the tile has a positive pair".
-/
import proofs.«163207_j1769526526574_2_alg».proof.Proof.Region0Body
import proofs.«163207_j1769526526574_2_alg».proof.Proof.LibColumn
import proofs.«163207_j1769526526574_2_alg».proof.Proof.Tiles
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.R0

open Cert.KernelIdeal Cert.KernelIdeal.Gen ValueIdx Idealize.ShloMosaic.LibColumn Cert.Spec

/-- The product's operand indices on the two row axes: the output's row, and the output's column. -/
theorem lhs7_0 (j : S256x4096.Idx) (q : dot_S256x512_S4096x512_S256x4096_1_1_0_0_n_n.contr.Idx) : (dot_S256x512_S4096x512_S256x4096_1_1_0_0_n_n.lhsIdx j q 0).val = (j 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem rhs7_0 (j : S256x4096.Idx) (q : dot_S256x512_S4096x512_S256x4096_1_1_0_0_n_n.contr.Idx) : (dot_S256x512_S4096x512_S256x4096_1_1_0_0_n_n.rhsIdx j q 0).val = (j 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl

/-- The similarity block: a matrix product into zero, contracted over the 512 features of both operands' rows. -/
theorem pay7_apply (x0 : FVec Ideal S256x512 .f32) (x1 : FVec Ideal S4096x512 .f32) (r : Fin 256) (k : Fin 4096) :
    k0_pay7 (F := Ideal) x0 x1 (ix2 r k) = ∑ q : Fin 512, x0 (ix2 r q) * x1 (ix2 k q) := by
  unfold k0_pay7
  simp only [matmul]
  rw [Ideal.matmul_constant_zero_apply, ← Equiv.sum_comp (ValueIdx.contrEquiv1 dot_S256x512_S4096x512_S256x4096_1_1_0_0_n_n 512 rfl rfl).symm]
  refine Finset.sum_congr rfl fun q _ => ?_
  have hq := ValueIdx.contrEquiv1_symm_val dot_S256x512_S4096x512_S256x4096_1_1_0_0_n_n 512 rfl rfl q
  have el : dot_S256x512_S4096x512_S256x4096_1_1_0_0_n_n.lhsIdx (ix2 r k) ((ValueIdx.contrEquiv1 dot_S256x512_S4096x512_S256x4096_1_1_0_0_n_n 512 rfl rfl).symm q) = ix2 r q := funext fun a => Fin.ext (by
    match a with
    | ⟨0, _⟩ => exact lhs7_0 _ _
    | ⟨1, _⟩ => exact (dot_S256x512_S4096x512_S256x4096_1_1_0_0_n_n.lhsIdx_val_of_single rfl _ _).trans hq)
  have er : dot_S256x512_S4096x512_S256x4096_1_1_0_0_n_n.rhsIdx (ix2 r k) ((ValueIdx.contrEquiv1 dot_S256x512_S4096x512_S256x4096_1_1_0_0_n_n 512 rfl rfl).symm q) = ix2 k q := funext fun a => Fin.ext (by
    match a with
    | ⟨0, _⟩ => exact rhs7_0 _ _
    | ⟨1, _⟩ => exact (dot_S256x512_S4096x512_S256x4096_1_1_0_0_n_n.rhsIdx_val_of_single rfl _ _).trans hq)
  rw [el, er]

/-- The label mask: the column label of row `r` against the row label of column `k`. -/
theorem pay8_apply (x2 : Vec Ideal S256x1 .i32) (x3 : Vec Ideal S1x4096 .i32) (r : Fin 256) (k : Fin 4096) :
    k0_pay8 (F := Ideal) x2 x3 (ix2 r k) = IntOp.cmpi .eq (x2 (ix2 r (0 : Fin 1))) (x3 (ix2 (0 : Fin 1) k)) := by
  unfold k0_pay8
  show IntOp.cmpi .eq (broadcastTo S256x4096 (shapeCast S256x1 x2 shapeCasts_S256x1_S256x1) broadcasts_S256x1_S256x4096 (ix2 r k))
      (broadcastTo S256x4096 (shapeCast S1x4096 x3 shapeCasts_S1x4096_S1x4096) broadcasts_S1x4096_S256x4096 (ix2 r k)) = _
  rw [shapeCast_self, shapeCast_self]
  exact congrArg₂ (IntOp.cmpi .eq) (broadcastTo_a1_ab_apply _ _ r k) (broadcastTo_1b_ab_apply _ _ r k)

/-- The positive mask at the point of row tile `n` and column tile `a`: labels agree, flipped on the matrix's diagonal. -/
theorem pay9_apply (i : grid0.Coords) (n : Fin 2) (a : Fin 16) (hn : (i 0).val = n.val) (ha : (i 1).val = a.val)
    (x2 : Vec Ideal S256x1 .i32) (x3 : Vec Ideal S1x4096 .i32) (r : Fin 256) (k : Fin 4096) :
    k0_pay9 (F := Ideal) i x2 x3 (ix2 r k)
      = IntOp.xori (IntOp.cmpi .eq (x2 (ix2 r (0 : Fin 1))) (x3 (ix2 (0 : Fin 1) k))) (diag (Tiles.row n r) (Tiles.col a k)) := by
  unfold k0_pay9
  show IntOp.xori (k0_pay8 x2 x3 (ix2 r k))
      (IntOp.cmpi .eq (IntOp.addi (iota .tc S256x4096 32 [0] iota_S256x4096_d0_w32 (ix2 r k)) (Scalar.muli (BitVec.ofNat 32 (i 0).val) 256#32))
        (IntOp.addi (iota .tc S256x4096 32 [1] iota_S256x4096_d1_w32 (ix2 r k)) (Scalar.muli (BitVec.ofNat 32 (i 1).val) 4096#32))) = _
  rw [pay8_apply, iota_single_apply, iota_single_apply, hn, ha]
  exact congrArg (IntOp.xori _) (Tiles.diag_tile n r a k)

/-- The negative-maximum block: the running value against the tile's largest similarity over pairs whose labels differ. -/
theorem step5_apply (x0 : FVec Ideal S256x512 .f32) (x1 : FVec Ideal S4096x512 .f32) (x2 : Vec Ideal S256x1 .i32) (x3 : Vec Ideal S1x4096 .i32)
    (xo : FVec Ideal S256x1 .f32) (r : Fin 256) :
    step5 (F := Ideal) x0 x1 x2 x3 xo (ix2 r (0 : Fin 1))
      = max (xo (ix2 r (0 : Fin 1))) ((Finset.univ : Finset (Fin 4096)).fold max ninf (fun k =>
          Scalar.select (IntOp.xori (IntOp.cmpi .eq (x2 (ix2 r (0 : Fin 1))) (x3 (ix2 (0 : Fin 1) k))) 1#1)
            (∑ q : Fin 512, x0 (ix2 r q) * x1 (ix2 k q)) ninf)) := by
  show max (shapeCast S256x1 xo shapeCasts_S256x1_S256x1 (ix2 r (0 : Fin 1))) (k0_pay10 x0 x1 x2 x3 (ix2 r (0 : Fin 1))) = _
  rw [shapeCast_self]
  refine congrArg (max _) ?_
  unfold k0_pay10
  refine (shapeCast_a_a1_apply _ _ r 0).trans ?_
  refine (rowMax_f32 _ _ _ _ r).trans ?_
  refine Finset.fold_congr fun k _ => ?_
  show Scalar.select (IntOp.xori (k0_pay8 (F := Ideal) x2 x3 (ix2 r k)) 1#1) (k0_pay7 (F := Ideal) x0 x1 (ix2 r k)) ninf = _
  rw [pay8_apply, pay7_apply]

/-- The positive-maximum block: the same over the positive pairs. -/
theorem step6_apply (i : grid0.Coords) (n : Fin 2) (a : Fin 16) (hn : (i 0).val = n.val) (ha : (i 1).val = a.val)
    (x0 : FVec Ideal S256x512 .f32) (x1 : FVec Ideal S4096x512 .f32) (x2 : Vec Ideal S256x1 .i32) (x3 : Vec Ideal S1x4096 .i32)
    (xo : FVec Ideal S256x1 .f32) (r : Fin 256) :
    step6 (F := Ideal) i x0 x1 x2 x3 xo (ix2 r (0 : Fin 1))
      = max (xo (ix2 r (0 : Fin 1))) ((Finset.univ : Finset (Fin 4096)).fold max ninf (fun k =>
          Scalar.select (IntOp.xori (IntOp.cmpi .eq (x2 (ix2 r (0 : Fin 1))) (x3 (ix2 (0 : Fin 1) k))) (diag (Tiles.row n r) (Tiles.col a k)))
            (∑ q : Fin 512, x0 (ix2 r q) * x1 (ix2 k q)) ninf)) := by
  show max (shapeCast S256x1 xo shapeCasts_S256x1_S256x1 (ix2 r (0 : Fin 1))) (k0_pay11 i x0 x1 x2 x3 (ix2 r (0 : Fin 1))) = _
  rw [shapeCast_self]
  refine congrArg (max _) ?_
  unfold k0_pay11
  refine (shapeCast_a_a1_apply _ _ r 0).trans ?_
  refine (rowMax_f32 _ _ _ _ r).trans ?_
  refine Finset.fold_congr fun k _ => ?_
  show Scalar.select (k0_pay9 (F := Ideal) i x2 x3 (ix2 r k)) (k0_pay7 (F := Ideal) x0 x1 (ix2 r k)) ninf = _
  rw [pay9_apply i n a hn ha, pay7_apply]

/-- The flag payload for any mask `v24`, "one" block `v33` and "zero" word `cst`: the running value against the bit
    "the row's largest selected entry exceeds 0", read as 0.0 / 1.0. -/
theorem pay3_apply (v24 : IVec S256x4096 1) (cst : Ideal .f32) (v33 : FVec Ideal S256x4096 .f32) (v50 : FVec Ideal S256x1 .f32) (r : Fin 256) :
    k0_pay3 (F := Ideal) v24 cst v33 v50 (ix2 r (0 : Fin 1))
      = max (v50 (ix2 r (0 : Fin 1))) (((BitVec.setWidth 32 (Ideal.cmp .ogt ((Finset.univ : Finset (Fin 4096)).fold max ninf (fun k =>
          Scalar.select (v24 (ix2 r k)) (v33 (ix2 r k)) cst)) c0)).toInt : ℝ) : EReal) := by
  unfold k0_pay3
  dsimp only
  rw [shapeCast_self]
  show max (v50 (ix2 r (0 : Fin 1))) (FloatOps.sitofp (F := Ideal) .f32 (BitVec.setWidth 32 (shapeCast S256x1 _ shapeCasts_S256_S256x1 (ix2 r (0 : Fin 1))))) = _
  refine congrArg (max _) ?_
  rw [shapeCast_a_a1_apply _ _ r 0, ValueIdx.cmpf_apply]
  have hMR : multiReduction (F := Ideal) .maximumf [1] S256 (select v24 v33 (broadcast S256x4096 cst)) 0xFF800000#32 reduces_S256x4096_S256 (.inl rfl) rfl (ix1 r)
      = (Finset.univ : Finset (Fin 4096)).fold max ninf (fun k => Scalar.select (v24 (ix2 r k)) (v33 (ix2 r k)) cst) :=
    (rowMax_f32 _ _ _ _ r).trans rfl
  rw [hMR]
  rfl

/-- The flag block: the running value against 1 when the tile has a positive pair in row `r`, else 0. -/
theorem step7_apply (i : grid0.Coords) (n : Fin 2) (a : Fin 16) (hn : (i 0).val = n.val) (ha : (i 1).val = a.val)
    (x2 : Vec Ideal S256x1 .i32) (x3 : Vec Ideal S1x4096 .i32) (xo : FVec Ideal S256x1 .f32) (r : Fin 256) :
    step7 (F := Ideal) i x2 x3 xo (ix2 r (0 : Fin 1))
      = max (xo (ix2 r (0 : Fin 1))) (((BitVec.setWidth 32 (Ideal.cmp .ogt ((Finset.univ : Finset (Fin 4096)).fold max ninf (fun k =>
          Scalar.select (IntOp.xori (IntOp.cmpi .eq (x2 (ix2 r (0 : Fin 1))) (x3 (ix2 (0 : Fin 1) k))) (diag (Tiles.row n r) (Tiles.col a k))) c1 c0)) c0)).toInt : ℝ) : EReal) := by
  refine (pay3_apply _ _ _ _ r).trans ?_
  refine congrArg (fun z => max (xo (ix2 r (0 : Fin 1))) (((BitVec.setWidth 32 (Ideal.cmp .ogt z c0)).toInt : ℝ) : EReal)) ?_
  refine Finset.fold_congr fun k _ => ?_
  show Scalar.select (k0_pay9 (F := Ideal) i x2 x3 (ix2 r k)) c1 c0 = _
  rw [pay9_apply i n a hn ha]

end Cert.KernelIdeal.R0

end
-- ==== Proof.Region0Blk.lean ====
/-
  Region 0: the point `t = 16 n + a` of the 2 × 16 grid (row tile `n`, column tile `a`) reads rows `256 n …` of the first
  matrix and of the column labels, and rows `4096 a …` of the second matrix and of the row labels. A block's entry is the
  array's entry at block index × block size + the coordinate inside the block.
-/
import proofs.«163207_j1769526526574_2_alg».proof.Proof.Gen.KernelIdeal.Frame
import proofs.«163207_j1769526526574_2_alg».proof.Proof.Tiles
import Idealize.ShloMosaic.Lib.Pipeline.Value
import Idealize.ShloMosaic.Lib.ValueIdx

noncomputable section

open Idealize.ShloMosaic Idealize.ShloMosaic.TcCoe Idealize.SL.Sem

namespace Cert.KernelIdeal.R0

open Cert.KernelIdeal Cert.KernelIdeal.Gen ValueIdx Cert.Spec

variable (V : (c : Dev nD) → (b : Ref sig .tc) → Buf (Elt Ideal) ((c : Thread nD τ).loc b)) (c : Dev nD)

/-- The region's four input arrays as it finds them, read by coordinates. -/
def Amat : Fin 512 → Fin 512 → EReal := fun i q => (V c main_arg0 : S512x512.Idx → EReal) (ix2 i q)
def Bmat : Fin 65536 → Fin 512 → EReal := fun j q => (V c main_arg2 : S65536x512.Idx → EReal) (ix2 j q)
def tcOf : Fin 512 → BitVec 32 := fun i => (V c main_v0 : S512x1.Idx → BitVec 32) (ix2 i (0 : Fin 1))
def trOf : Fin 65536 → BitVec 32 := fun j => (V c main_v1 : S1x65536.Idx → BitVec 32) (ix2 (0 : Fin 1) j)

/-- The point's grid coordinates and the input windows' block indices, decided over the 32 points. -/
theorem coords0 : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)
theorem idx0_0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx0_1 : ∀ t : Fin cfg0.N, win0_1.index t 0 = t.val % 16 ∧ win0_1.index t 1 = 0 :=
  (by decide +kernel : ∀ t : Fin grid0.N, win0_1.index t 0 = t.val % 16 ∧ win0_1.index t 1 = 0)
theorem idx0_2 : ∀ t : Fin cfg0.N, win0_2.index t 0 = t.val / 16 ∧ win0_2.index t 1 = 0 :=
  (by decide +kernel : ∀ t : Fin grid0.N, win0_2.index t 0 = t.val / 16 ∧ win0_2.index t 1 = 0)
theorem idx0_3 : ∀ t : Fin cfg0.N, win0_3.index t 0 = 0 ∧ win0_3.index t 1 = t.val % 16 :=
  (by decide +kernel : ∀ t : Fin grid0.N, win0_3.index t 0 = 0 ∧ win0_3.index t 1 = t.val % 16)

theorem blk0_0 (t : Fin cfg0.N) (n : Fin 2) (a : Fin 16) (ht : t.val = n.val * 16 + a.val) (r : Fin 256) (q : Fin 512) :
    (iblk0 V c 0 t : S256x512.Idx → EReal) (ix2 r q) = Amat V c (Tiles.row n r) q := by
  unfold iblk0 Amat
  rw [View.read_apply]
  show V c main_arg0 _ = V c main_arg0 _
  refine congrArg _ (funext fun ax => Fin.ext ?_)
  have ha := a.isLt
  match ax with
  | ⟨0, _⟩ => show win0_0.index t 0 * 256 + 1 * r.val = n.val * 256 + r.val; rw [(idx0_0 t).1, ht]; omega
  | ⟨1, _⟩ => show win0_0.index t 1 * 512 + 1 * q.val = q.val; rw [(idx0_0 t).2]; omega

theorem blk0_1 (t : Fin cfg0.N) (n : Fin 2) (a : Fin 16) (ht : t.val = n.val * 16 + a.val) (k : Fin 4096) (q : Fin 512) :
    (iblk0 V c 1 t : S4096x512.Idx → EReal) (ix2 k q) = Bmat V c (Tiles.col a k) q := by
  unfold iblk0 Bmat
  rw [View.read_apply]
  show V c main_arg2 _ = V c main_arg2 _
  refine congrArg _ (funext fun ax => Fin.ext ?_)
  have ha := a.isLt
  match ax with
  | ⟨0, _⟩ => show win0_1.index t 0 * 4096 + 1 * k.val = a.val * 4096 + k.val; rw [(idx0_1 t).1, ht]; omega
  | ⟨1, _⟩ => show win0_1.index t 1 * 512 + 1 * q.val = q.val; rw [(idx0_1 t).2]; omega

theorem blk0_2 (t : Fin cfg0.N) (n : Fin 2) (a : Fin 16) (ht : t.val = n.val * 16 + a.val) (r : Fin 256) :
    (iblk0 V c 2 t : S256x1.Idx → BitVec 32) (ix2 r (0 : Fin 1)) = tcOf V c (Tiles.row n r) := by
  unfold iblk0 tcOf
  rw [View.read_apply]
  show V c main_v0 _ = V c main_v0 _
  refine congrArg _ (funext fun ax => Fin.ext ?_)
  have ha := a.isLt
  match ax with
  | ⟨0, _⟩ => show win0_2.index t 0 * 256 + 1 * r.val = n.val * 256 + r.val; rw [(idx0_2 t).1, ht]; omega
  | ⟨1, _⟩ => show win0_2.index t 1 * 1 + 1 * 0 = 0; rw [(idx0_2 t).2]

theorem blk0_3 (t : Fin cfg0.N) (n : Fin 2) (a : Fin 16) (ht : t.val = n.val * 16 + a.val) (k : Fin 4096) :
    (iblk0 V c 3 t : S1x4096.Idx → BitVec 32) (ix2 (0 : Fin 1) k) = trOf V c (Tiles.col a k) := by
  unfold iblk0 trOf
  rw [View.read_apply]
  show V c main_v1 _ = V c main_v1 _
  refine congrArg _ (funext fun ax => Fin.ext ?_)
  have ha := a.isLt
  match ax with
  | ⟨0, _⟩ => show win0_3.index t 0 * 1 + 1 * 0 = 0; rw [(idx0_3 t).1]
  | ⟨1, _⟩ => show win0_3.index t 1 * 4096 + 1 * k.val = a.val * 4096 + k.val; rw [(idx0_3 t).2, ht]; omega

end Cert.KernelIdeal.R0

end
-- ==== Proof.Region0Acc.lean ====
/-
  Region 0 over its grid: what the four output blocks hold after each point. The similarity block after the point
  (row tile `n`, column tile `a`) is that tile of the similarity matrix; the three column blocks hold, at row `r`, the
  running value over the column tiles `0 … a` of row `256 n + r`: the running maximum of the negative pairs' and of the
  positive pairs' similarities from -∞, and the running maximum of the tiles' "has a positive pair" flags from 0 — by
  induction on the column tile, the first tile of a row tile starting from the start values it has just stored.
-/
import proofs.«163207_j1769526526574_2_alg».proof.Proof.Region0Pay
import proofs.«163207_j1769526526574_2_alg».proof.Proof.Region0Blk

noncomputable section

open Idealize.ShloMosaic Idealize.ShloMosaic.TcCoe Idealize.SL.Sem

namespace Cert.KernelIdeal.R0

open Cert.KernelIdeal Cert.KernelIdeal.Gen ValueIdx Idealize.ShloMosaic.LibColumn Cert.Spec

variable (V : (c : Dev nD) → (b : Ref sig .tc) → Buf (Elt Ideal) ((c : Thread nD τ).loc b)) (c : Dev nD)

/-- Row `i`'s similarities masked to its negative / positive pairs (-∞ elsewhere), over the region's input arrays. -/
def negRow (i : Fin 512) : Fin 65536 → EReal :=
  fun j => Scalar.select (negM (tcOf V c) (trOf V c) i j) (sim (Amat V c) (Bmat V c) i j) ninf
def posRow (i : Fin 512) : Fin 65536 → EReal :=
  fun j => Scalar.select (posM (tcOf V c) (trOf V c) i j) (sim (Amat V c) (Bmat V c) i j) ninf

/-- The point's four input blocks. -/
abbrev x0 (t : Fin cfg0.N) : FVec Ideal S256x512 .f32 := iblk0 V c 0 t
abbrev x1 (t : Fin cfg0.N) : FVec Ideal S4096x512 .f32 := iblk0 V c 1 t
abbrev x2 (t : Fin cfg0.N) : S256x1.Idx → BitVec 32 := iblk0 V c 2 t
abbrev x3 (t : Fin cfg0.N) : S1x4096.Idx → BitVec 32 := iblk0 V c 3 t

/-- The tile's three values at row `r`, read off the point's blocks, are the tile's values of the whole rows. -/
theorem tile5 (t : Fin cfg0.N) (n : Fin 2) (a : Fin 16) (ht : t.val = n.val * 16 + a.val) (r : Fin 256) :
    (Finset.univ : Finset (Fin 4096)).fold max ninf (fun k =>
        Scalar.select (IntOp.xori (IntOp.cmpi .eq (x2 V c t (ix2 r (0 : Fin 1))) (x3 V c t (ix2 (0 : Fin 1) k))) 1#1)
          (∑ q : Fin 512, x0 V c t (ix2 r q) * x1 V c t (ix2 k q)) ninf)
      = Tiles.tileMax (negRow V c (Tiles.row n r)) ninf a := by
  unfold Tiles.tileMax
  refine Finset.fold_congr fun k _ => ?_
  dsimp only [x0, x1, x2, x3]
  rw [blk0_2 V c t n a ht r, blk0_3 V c t n a ht k]
  refine congrArg (fun z => Scalar.select _ z ninf) ?_
  exact Finset.sum_congr rfl fun q _ => by rw [blk0_0 V c t n a ht r q, blk0_1 V c t n a ht k q]

theorem tile6 (t : Fin cfg0.N) (n : Fin 2) (a : Fin 16) (ht : t.val = n.val * 16 + a.val) (r : Fin 256) :
    (Finset.univ : Finset (Fin 4096)).fold max ninf (fun k =>
        Scalar.select (IntOp.xori (IntOp.cmpi .eq (x2 V c t (ix2 r (0 : Fin 1))) (x3 V c t (ix2 (0 : Fin 1) k))) (diag (Tiles.row n r) (Tiles.col a k)))
          (∑ q : Fin 512, x0 V c t (ix2 r q) * x1 V c t (ix2 k q)) ninf)
      = Tiles.tileMax (posRow V c (Tiles.row n r)) ninf a := by
  unfold Tiles.tileMax
  refine Finset.fold_congr fun k _ => ?_
  dsimp only [x0, x1, x2, x3]
  rw [blk0_2 V c t n a ht r, blk0_3 V c t n a ht k]
  refine congrArg (fun z => Scalar.select _ z ninf) ?_
  exact Finset.sum_congr rfl fun q _ => by rw [blk0_0 V c t n a ht r q, blk0_1 V c t n a ht k q]

theorem tile7 (t : Fin cfg0.N) (n : Fin 2) (a : Fin 16) (ht : t.val = n.val * 16 + a.val) (r : Fin 256) :
    (((BitVec.setWidth 32 (Ideal.cmp .ogt ((Finset.univ : Finset (Fin 4096)).fold max ninf (fun k =>
        Scalar.select (IntOp.xori (IntOp.cmpi .eq (x2 V c t (ix2 r (0 : Fin 1))) (x3 V c t (ix2 (0 : Fin 1) k))) (diag (Tiles.row n r) (Tiles.col a k))) c1 c0)) c0)).toInt : ℝ) : EReal)
      = Tiles.tileFlag (posM (tcOf V c) (trOf V c) (Tiles.row n r)) a := by
  unfold Tiles.tileFlag
  refine congrArg (fun z => (((BitVec.setWidth 32 (Ideal.cmp .ogt z c0)).toInt : ℝ) : EReal)) ?_
  refine Finset.fold_congr fun k _ => ?_
  dsimp only [x0, x1, x2, x3]
  rw [blk0_2 V c t n a ht r, blk0_3 V c t n a ht k]
  rfl

/-- The similarity block after any point is its tile of the similarity matrix. -/
theorem out4 (t : Fin cfg0.N) (n : Fin 2) (a : Fin 16) (ht : t.val = n.val * 16 + a.val) (r : Fin 256) (k : Fin 4096) :
    ((outsAt0 V c t.val t.isLt).1 : S256x4096.Idx → EReal) (ix2 r k) = sim (Amat V c) (Bmat V c) (Tiles.row n r) (Tiles.col a k) := by
  have key : (k0_pay7 (F := Ideal) (iblk0 V c 0 t) (iblk0 V c 1 t) : S256x4096.Idx → EReal) (ix2 r k)
      = sim (Amat V c) (Bmat V c) (Tiles.row n r) (Tiles.col a k) := by
    refine (pay7_apply _ _ r k).trans ?_
    exact Finset.sum_congr rfl fun q _ => by rw [blk0_0 V c t n a ht r q, blk0_1 V c t n a ht k q]
  by_cases h0 : t.val % 16 = 0
  · rw [outsAt0_A V c t h0]
    dsimp only
    rw [out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t)]
    exact key
  · rw [outsAt0_B V c t h0]
    dsimp only
    rw [out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t)]
    exact key

theorem outsAt0_congr {n n' : ℕ} (e : n = n') (h : n < cfg0.N) (h' : n' < cfg0.N) : outsAt0 V c n h = outsAt0 V c n' h' := by
  subst e; rfl

/-- The three column blocks after the point (row tile `n`, column tile `a`), at row `r`: the running values. -/
theorem inv (n : Fin 2) : ∀ (a : ℕ) (ha : a < 16) (hn : n.val * 16 + a < cfg0.N) (r : Fin 256),
    ((outsAt0 V c (n.val * 16 + a) hn).2.1 : S256x1.Idx → EReal) (ix2 r (0 : Fin 1))
        = Tiles.acc max ninf (Tiles.tileMax (negRow V c (Tiles.row n r)) ninf) a ha
    ∧ ((outsAt0 V c (n.val * 16 + a) hn).2.2.1 : S256x1.Idx → EReal) (ix2 r (0 : Fin 1))
        = Tiles.acc max ninf (Tiles.tileMax (posRow V c (Tiles.row n r)) ninf) a ha
    ∧ ((outsAt0 V c (n.val * 16 + a) hn).2.2.2 : S256x1.Idx → EReal) (ix2 r (0 : Fin 1))
        = Tiles.acc max c0 (Tiles.tileFlag (posM (tcOf V c) (trOf V c) (Tiles.row n r))) a ha
  | 0, ha, hn, r => by
    have h0 : (⟨n.val * 16 + 0, hn⟩ : Fin cfg0.N).val % 16 = 0 := by show (n.val * 16 + 0) % 16 = 0; omega
    have ht : (⟨n.val * 16 + 0, hn⟩ : Fin cfg0.N).val = n.val * 16 + (⟨0, ha⟩ : Fin 16).val := rfl
    have hc := coords0 ⟨n.val * 16 + 0, hn⟩
    have hcn : ((grid0.coords ⟨n.val * 16 + 0, hn⟩) 0).val = n.val := by rw [hc.1]; show (n.val * 16 + 0) / 16 = n.val; omega
    have hca : ((grid0.coords ⟨n.val * 16 + 0, hn⟩) 1).val = (⟨0, ha⟩ : Fin 16).val := by rw [hc.2]; show (n.val * 16 + 0) % 16 = 0; omega
    have e := outsAt0_A V c ⟨n.val * 16 + 0, hn⟩ h0
    refine ⟨?_, ?_, ?_⟩
    · refine (congrArg (fun o => (o.2.1 : S256x1.Idx → EReal) (ix2 r (0 : Fin 1))) e).trans ?_
      dsimp only
      rw [out_A_5 c (grid0.coords ⟨n.val * 16 + 0, hn⟩) (ms0_0 ⟨n.val * 16 + 0, hn⟩) (hs0_0 ⟨n.val * 16 + 0, hn⟩) (ms0_1 ⟨n.val * 16 + 0, hn⟩) (hs0_1 ⟨n.val * 16 + 0, hn⟩) (ms0_2 ⟨n.val * 16 + 0, hn⟩) (hs0_2 ⟨n.val * 16 + 0, hn⟩) (ms0_3 ⟨n.val * 16 + 0, hn⟩) (hs0_3 ⟨n.val * 16 + 0, hn⟩) (ms0_4 ⟨n.val * 16 + 0, hn⟩) (hs0_4 ⟨n.val * 16 + 0, hn⟩) (ms0_5 ⟨n.val * 16 + 0, hn⟩) (hs0_5 ⟨n.val * 16 + 0, hn⟩) (ms0_6 ⟨n.val * 16 + 0, hn⟩) (hs0_6 ⟨n.val * 16 + 0, hn⟩) (ms0_7 ⟨n.val * 16 + 0, hn⟩) (hs0_7 ⟨n.val * 16 + 0, hn⟩) ((hcond0_0 ⟨n.val * 16 + 0, hn⟩).mpr h0) (iblk0 V c 0 ⟨n.val * 16 + 0, hn⟩) (iblk0 V c 1 ⟨n.val * 16 + 0, hn⟩) (iblk0 V c 2 ⟨n.val * 16 + 0, hn⟩) (iblk0 V c 3 ⟨n.val * 16 + 0, hn⟩)]
      refine (step5_apply _ _ _ _ _ r).trans ?_
      rw [tile5 V c ⟨n.val * 16 + 0, hn⟩ n ⟨0, ha⟩ ht r]
      rfl
    · refine (congrArg (fun o => (o.2.2.1 : S256x1.Idx → EReal) (ix2 r (0 : Fin 1))) e).trans ?_
      dsimp only
      rw [out_A_6 c (grid0.coords ⟨n.val * 16 + 0, hn⟩) (ms0_0 ⟨n.val * 16 + 0, hn⟩) (hs0_0 ⟨n.val * 16 + 0, hn⟩) (ms0_1 ⟨n.val * 16 + 0, hn⟩) (hs0_1 ⟨n.val * 16 + 0, hn⟩) (ms0_2 ⟨n.val * 16 + 0, hn⟩) (hs0_2 ⟨n.val * 16 + 0, hn⟩) (ms0_3 ⟨n.val * 16 + 0, hn⟩) (hs0_3 ⟨n.val * 16 + 0, hn⟩) (ms0_4 ⟨n.val * 16 + 0, hn⟩) (hs0_4 ⟨n.val * 16 + 0, hn⟩) (ms0_5 ⟨n.val * 16 + 0, hn⟩) (hs0_5 ⟨n.val * 16 + 0, hn⟩) (ms0_6 ⟨n.val * 16 + 0, hn⟩) (hs0_6 ⟨n.val * 16 + 0, hn⟩) (ms0_7 ⟨n.val * 16 + 0, hn⟩) (hs0_7 ⟨n.val * 16 + 0, hn⟩) ((hcond0_0 ⟨n.val * 16 + 0, hn⟩).mpr h0) (iblk0 V c 0 ⟨n.val * 16 + 0, hn⟩) (iblk0 V c 1 ⟨n.val * 16 + 0, hn⟩) (iblk0 V c 2 ⟨n.val * 16 + 0, hn⟩) (iblk0 V c 3 ⟨n.val * 16 + 0, hn⟩)]
      refine (step6_apply _ n ⟨0, ha⟩ hcn hca _ _ _ _ _ r).trans ?_
      rw [tile6 V c ⟨n.val * 16 + 0, hn⟩ n ⟨0, ha⟩ ht r]
      rfl
    · refine (congrArg (fun o => (o.2.2.2 : S256x1.Idx → EReal) (ix2 r (0 : Fin 1))) e).trans ?_
      dsimp only
      rw [out_A_7 c (grid0.coords ⟨n.val * 16 + 0, hn⟩) (ms0_0 ⟨n.val * 16 + 0, hn⟩) (hs0_0 ⟨n.val * 16 + 0, hn⟩) (ms0_1 ⟨n.val * 16 + 0, hn⟩) (hs0_1 ⟨n.val * 16 + 0, hn⟩) (ms0_2 ⟨n.val * 16 + 0, hn⟩) (hs0_2 ⟨n.val * 16 + 0, hn⟩) (ms0_3 ⟨n.val * 16 + 0, hn⟩) (hs0_3 ⟨n.val * 16 + 0, hn⟩) (ms0_4 ⟨n.val * 16 + 0, hn⟩) (hs0_4 ⟨n.val * 16 + 0, hn⟩) (ms0_5 ⟨n.val * 16 + 0, hn⟩) (hs0_5 ⟨n.val * 16 + 0, hn⟩) (ms0_6 ⟨n.val * 16 + 0, hn⟩) (hs0_6 ⟨n.val * 16 + 0, hn⟩) (ms0_7 ⟨n.val * 16 + 0, hn⟩) (hs0_7 ⟨n.val * 16 + 0, hn⟩) ((hcond0_0 ⟨n.val * 16 + 0, hn⟩).mpr h0) (iblk0 V c 0 ⟨n.val * 16 + 0, hn⟩) (iblk0 V c 1 ⟨n.val * 16 + 0, hn⟩) (iblk0 V c 2 ⟨n.val * 16 + 0, hn⟩) (iblk0 V c 3 ⟨n.val * 16 + 0, hn⟩)]
      refine (step7_apply _ n ⟨0, ha⟩ hcn hca _ _ _ r).trans ?_
      rw [tile7 V c ⟨n.val * 16 + 0, hn⟩ n ⟨0, ha⟩ ht r]
      rfl
  | a + 1, ha, hn, r => by
    have hN : cfg0.N = 32 := N_0
    have h0 : ¬(⟨n.val * 16 + (a + 1), hn⟩ : Fin cfg0.N).val % 16 = 0 := by show ¬(n.val * 16 + (a + 1)) % 16 = 0; omega
    have ht : (⟨n.val * 16 + (a + 1), hn⟩ : Fin cfg0.N).val = n.val * 16 + (⟨a + 1, ha⟩ : Fin 16).val := rfl
    have hc := coords0 ⟨n.val * 16 + (a + 1), hn⟩
    have hcn : ((grid0.coords ⟨n.val * 16 + (a + 1), hn⟩) 0).val = n.val := by rw [hc.1]; show (n.val * 16 + (a + 1)) / 16 = n.val; omega
    have hca : ((grid0.coords ⟨n.val * 16 + (a + 1), hn⟩) 1).val = (⟨a + 1, ha⟩ : Fin 16).val := by rw [hc.2]; show (n.val * 16 + (a + 1)) % 16 = a + 1; omega
    have e := outsAt0_B V c ⟨n.val * 16 + (a + 1), hn⟩ h0
    have hn' : n.val * 16 + a < cfg0.N := Nat.lt_of_succ_lt hn
    have ep : outsAt0 V c ((⟨n.val * 16 + (a + 1), hn⟩ : Fin cfg0.N).val - 1) (Nat.lt_of_le_of_lt (Nat.sub_le _ _) (⟨n.val * 16 + (a + 1), hn⟩ : Fin cfg0.N).isLt)
        = outsAt0 V c (n.val * 16 + a) hn' := outsAt0_congr V c (by show n.val * 16 + (a + 1) - 1 = n.val * 16 + a; omega) _ _
    rw [ep] at e
    obtain ⟨i5, i6, i7⟩ := inv n a (Nat.lt_of_succ_lt ha) hn' r
    refine ⟨?_, ?_, ?_⟩
    · refine (congrArg (fun o => (o.2.1 : S256x1.Idx → EReal) (ix2 r (0 : Fin 1))) e).trans ?_
      dsimp only
      rw [out_B_5 c (grid0.coords ⟨n.val * 16 + (a + 1), hn⟩) (ms0_0 ⟨n.val * 16 + (a + 1), hn⟩) (hs0_0 ⟨n.val * 16 + (a + 1), hn⟩) (ms0_1 ⟨n.val * 16 + (a + 1), hn⟩) (hs0_1 ⟨n.val * 16 + (a + 1), hn⟩) (ms0_2 ⟨n.val * 16 + (a + 1), hn⟩) (hs0_2 ⟨n.val * 16 + (a + 1), hn⟩) (ms0_3 ⟨n.val * 16 + (a + 1), hn⟩) (hs0_3 ⟨n.val * 16 + (a + 1), hn⟩) (ms0_4 ⟨n.val * 16 + (a + 1), hn⟩) (hs0_4 ⟨n.val * 16 + (a + 1), hn⟩) (ms0_5 ⟨n.val * 16 + (a + 1), hn⟩) (hs0_5 ⟨n.val * 16 + (a + 1), hn⟩) (ms0_6 ⟨n.val * 16 + (a + 1), hn⟩) (hs0_6 ⟨n.val * 16 + (a + 1), hn⟩) (ms0_7 ⟨n.val * 16 + (a + 1), hn⟩) (hs0_7 ⟨n.val * 16 + (a + 1), hn⟩) (fun h => h0 ((hcond0_0 ⟨n.val * 16 + (a + 1), hn⟩).mp h)) (iblk0 V c 0 ⟨n.val * 16 + (a + 1), hn⟩) (iblk0 V c 1 ⟨n.val * 16 + (a + 1), hn⟩) (iblk0 V c 2 ⟨n.val * 16 + (a + 1), hn⟩) (iblk0 V c 3 ⟨n.val * 16 + (a + 1), hn⟩)]
      refine (step5_apply _ _ _ _ _ r).trans ?_
      rw [tile5 V c ⟨n.val * 16 + (a + 1), hn⟩ n ⟨a + 1, ha⟩ ht r, i5]
      rfl
    · refine (congrArg (fun o => (o.2.2.1 : S256x1.Idx → EReal) (ix2 r (0 : Fin 1))) e).trans ?_
      dsimp only
      rw [out_B_6 c (grid0.coords ⟨n.val * 16 + (a + 1), hn⟩) (ms0_0 ⟨n.val * 16 + (a + 1), hn⟩) (hs0_0 ⟨n.val * 16 + (a + 1), hn⟩) (ms0_1 ⟨n.val * 16 + (a + 1), hn⟩) (hs0_1 ⟨n.val * 16 + (a + 1), hn⟩) (ms0_2 ⟨n.val * 16 + (a + 1), hn⟩) (hs0_2 ⟨n.val * 16 + (a + 1), hn⟩) (ms0_3 ⟨n.val * 16 + (a + 1), hn⟩) (hs0_3 ⟨n.val * 16 + (a + 1), hn⟩) (ms0_4 ⟨n.val * 16 + (a + 1), hn⟩) (hs0_4 ⟨n.val * 16 + (a + 1), hn⟩) (ms0_5 ⟨n.val * 16 + (a + 1), hn⟩) (hs0_5 ⟨n.val * 16 + (a + 1), hn⟩) (ms0_6 ⟨n.val * 16 + (a + 1), hn⟩) (hs0_6 ⟨n.val * 16 + (a + 1), hn⟩) (ms0_7 ⟨n.val * 16 + (a + 1), hn⟩) (hs0_7 ⟨n.val * 16 + (a + 1), hn⟩) (fun h => h0 ((hcond0_0 ⟨n.val * 16 + (a + 1), hn⟩).mp h)) (iblk0 V c 0 ⟨n.val * 16 + (a + 1), hn⟩) (iblk0 V c 1 ⟨n.val * 16 + (a + 1), hn⟩) (iblk0 V c 2 ⟨n.val * 16 + (a + 1), hn⟩) (iblk0 V c 3 ⟨n.val * 16 + (a + 1), hn⟩)]
      refine (step6_apply _ n ⟨a + 1, ha⟩ hcn hca _ _ _ _ _ r).trans ?_
      rw [tile6 V c ⟨n.val * 16 + (a + 1), hn⟩ n ⟨a + 1, ha⟩ ht r, i6]
      rfl
    · refine (congrArg (fun o => (o.2.2.2 : S256x1.Idx → EReal) (ix2 r (0 : Fin 1))) e).trans ?_
      dsimp only
      rw [out_B_7 c (grid0.coords ⟨n.val * 16 + (a + 1), hn⟩) (ms0_0 ⟨n.val * 16 + (a + 1), hn⟩) (hs0_0 ⟨n.val * 16 + (a + 1), hn⟩) (ms0_1 ⟨n.val * 16 + (a + 1), hn⟩) (hs0_1 ⟨n.val * 16 + (a + 1), hn⟩) (ms0_2 ⟨n.val * 16 + (a + 1), hn⟩) (hs0_2 ⟨n.val * 16 + (a + 1), hn⟩) (ms0_3 ⟨n.val * 16 + (a + 1), hn⟩) (hs0_3 ⟨n.val * 16 + (a + 1), hn⟩) (ms0_4 ⟨n.val * 16 + (a + 1), hn⟩) (hs0_4 ⟨n.val * 16 + (a + 1), hn⟩) (ms0_5 ⟨n.val * 16 + (a + 1), hn⟩) (hs0_5 ⟨n.val * 16 + (a + 1), hn⟩) (ms0_6 ⟨n.val * 16 + (a + 1), hn⟩) (hs0_6 ⟨n.val * 16 + (a + 1), hn⟩) (ms0_7 ⟨n.val * 16 + (a + 1), hn⟩) (hs0_7 ⟨n.val * 16 + (a + 1), hn⟩) (fun h => h0 ((hcond0_0 ⟨n.val * 16 + (a + 1), hn⟩).mp h)) (iblk0 V c 0 ⟨n.val * 16 + (a + 1), hn⟩) (iblk0 V c 1 ⟨n.val * 16 + (a + 1), hn⟩) (iblk0 V c 2 ⟨n.val * 16 + (a + 1), hn⟩) (iblk0 V c 3 ⟨n.val * 16 + (a + 1), hn⟩)]
      refine (step7_apply _ n ⟨a + 1, ha⟩ hcn hca _ _ _ r).trans ?_
      rw [tile7 V c ⟨n.val * 16 + (a + 1), hn⟩ n ⟨a + 1, ha⟩ ht r, i7]
      rfl

end Cert.KernelIdeal.R0

end
-- ==== Proof.Region0Final.lean ====
/-
  Region 0: what its four output arrays hold when the region is left. The similarity array is written back tile by
  tile at every point, so it ends as the whole similarity matrix; each of the three column vectors is written back once
  per row tile, after that row tile's last column tile, so it ends holding, at row `i`, the running value over all
  sixteen column tiles — which is the row's maximum over its negative pairs, over its positive pairs, and the running
  maximum of the tiles' flags.
-/
import proofs.«163207_j1769526526574_2_alg».proof.Proof.Region0Acc

noncomputable section

open Idealize.ShloMosaic Idealize.ShloMosaic.TcCoe Idealize.SL.Sem
open Idealize.ShloMosaic.Pipeline (Dat)

namespace Cert.KernelIdeal.R0

open Cert.KernelIdeal Cert.KernelIdeal.Gen ValueIdx Cert.Spec

variable (V : (c : Dev nD) → (b : Ref sig .tc) → Buf (Elt Ideal) ((c : Thread nD τ).loc b)) (c : Dev nD)

/-- The output windows' block indices at a point, decided over the 32 points. -/
theorem idx0_4 : ∀ t : Fin cfg0.N, win0_4.index t 0 = t.val / 16 ∧ win0_4.index t 1 = t.val % 16 :=
  (by decide +kernel : ∀ t : Fin grid0.N, win0_4.index t 0 = t.val / 16 ∧ win0_4.index t 1 = t.val % 16)
theorem idx0_5 : ∀ t : Fin cfg0.N, win0_5.index t 0 = t.val / 16 ∧ win0_5.index t 1 = 0 :=
  (by decide +kernel : ∀ t : Fin grid0.N, win0_5.index t 0 = t.val / 16 ∧ win0_5.index t 1 = 0)
theorem idx0_6 : ∀ t : Fin cfg0.N, win0_6.index t 0 = t.val / 16 ∧ win0_6.index t 1 = 0 :=
  (by decide +kernel : ∀ t : Fin grid0.N, win0_6.index t 0 = t.val / 16 ∧ win0_6.index t 1 = 0)
theorem idx0_7 : ∀ t : Fin cfg0.N, win0_7.index t 0 = t.val / 16 ∧ win0_7.index t 1 = 0 :=
  (by decide +kernel : ∀ t : Fin grid0.N, win0_7.index t 0 = t.val / 16 ∧ win0_7.index t 1 = 0)

/-! ## The similarity matrix -/

/-- The similarity matrix as an array. -/
def G4 : S512x65536.Idx → EReal := fun y => sim (Amat V c) (Bmat V c) (y 0) (y 1)

theorem flushed4_eq (t : Fin cfg0.N) (hf : (cfg0.win 4).flush t = true) :
    (dat0 (F := Ideal) V c).flushed 4 t = ((cfg0.win 4).blk t).view.read (Elt Ideal) (G4 V c) := by
  have hN : cfg0.N = 32 := N_0
  have htlt : t.val < 32 := lt_of_lt_of_eq t.isLt hN
  obtain ⟨n, a, hn⟩ : ∃ (n : Fin 2) (a : Fin 16), t.val = n.val * 16 + a.val :=
    ⟨⟨t.val / 16, by omega⟩, ⟨t.val % 16, Nat.mod_lt _ (by norm_num)⟩, by show t.val = t.val / 16 * 16 + t.val % 16; omega⟩
  show (cfg0.win 4).cut (grid0.coords t) ((dat0 V c).after 4 t) = _
  rw [after0_4]
  funext y
  rw [View.read_apply]
  have e : (y : S256x4096.Idx) = ix2 (y 0 : Fin 256) (y 1 : Fin 4096) := eq_ix2 y
  show ((outsAt0 V c t.val t.isLt).1 : S256x4096.Idx → EReal) y = G4 V c (((cfg0.win 4).blk t).view.emb y)
  refine (congrArg ((outsAt0 V c t.val t.isLt).1 : S256x4096.Idx → EReal) e).trans ?_
  refine (out4 V c t n a hn (y 0) (y 1)).trans ?_
  show sim (Amat V c) (Bmat V c) (Tiles.row n (y 0)) (Tiles.col a (y 1))
    = sim (Amat V c) (Bmat V c) ((((cfg0.win 4).blk t).view.emb y) 0) ((((cfg0.win 4).blk t).view.emb y) 1)
  have ha := a.isLt
  refine congrArg₂ (sim (Amat V c) (Bmat V c)) (Fin.ext ?_) (Fin.ext ?_)
  · show n.val * 256 + (y 0).val = win0_4.index t 0 * 256 + 1 * (y 0).val; rw [(idx0_4 t).1, hn]; omega
  · show a.val * 4096 + (y 1).val = win0_4.index t 1 * 4096 + 1 * (y 1).val; rw [(idx0_4 t).2, hn]; omega

theorem mem_blk4 (t : Fin cfg0.N) (i : S512x65536.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v2_0).slice (win0_4.rect t)).set ↔ _
  rw [View.set_slice_whole, Rect.mem_set_unit]
  exact Iff.rfl

theorem cover4 (i : S512x65536.Idx) : ∃ t : Fin cfg0.N, (cfg0.win 4).flush t = true ∧ i ∈ ((cfg0.win 4).blk t).view.set := by
  have hN : cfg0.N = 32 := N_0
  have h0 : (i 0).val < 512 := (i 0).isLt
  have h1 : (i 1).val < 65536 := (i 1).isLt
  obtain ⟨t, ht⟩ : ∃ t : Fin cfg0.N, t.val = (i 0).val / 256 * 16 + (i 1).val / 4096 := ⟨⟨(i 0).val / 256 * 16 + (i 1).val / 4096, by rw [hN]; omega⟩, rfl⟩
  refine ⟨t, flush0_4 t, ?_⟩
  rw [mem_blk4]
  intro ax
  match ax with
  | ⟨0, _⟩ => show win0_4.index t 0 * 256 ≤ (i 0).val ∧ (i 0).val < win0_4.index t 0 * 256 + 256; rw [(idx0_4 t).1, ht]; omega
  | ⟨1, _⟩ => show win0_4.index t 1 * 4096 ≤ (i 1).val ∧ (i 1).val < win0_4.index t 1 * 4096 + 4096; rw [(idx0_4 t).2, ht]; omega

theorem final4 (i : Fin 512) (j : Fin 65536) :
    ((dat0 (F := Ideal) V c).arrAt 4 cfg0.N : S512x65536.Idx → EReal) (ix2 i j) = sim (Amat V c) (Bmat V c) i j :=
  congrFun ((dat0 (F := Ideal) V c).arrAt_eq_of_cover 4 (G4 V c) (flushed4_eq V c) (cover4)) (ix2 i j)

/-! ## The three column vectors -/

/-- Each row's largest similarity over its negative pairs (kept folded: it is a maximum over 65536 columns). -/
@[irreducible] def mneg (i : Fin 512) : EReal := rowMax (sim (Amat V c) (Bmat V c) i) (negM (tcOf V c) (trOf V c) i)
theorem mneg_eq (i : Fin 512) : mneg V c i = rowMax (sim (Amat V c) (Bmat V c) i) (negM (tcOf V c) (trOf V c) i) := by
  unfold mneg; rfl
theorem fold_negRow (i : Fin 512) : (Finset.univ : Finset (Fin 65536)).fold max ninf (negRow V c i) = mneg V c i := by
  unfold mneg; rfl

def G5 : S512x1.Idx → EReal := fun y => mneg V c (y 0)

theorem flushed5_eq (t : Fin cfg0.N) (hf : (cfg0.win 5).flush t = true) :
    (dat0 (F := Ideal) V c).flushed 5 t = ((cfg0.win 5).blk t).view.read (Elt Ideal) (G5 V c) := by
  have hN : cfg0.N = 32 := N_0
  have h15 : t.val % 16 = 15 := (flush0_5 t).mp hf
  have htlt : t.val < 32 := lt_of_lt_of_eq t.isLt hN
  obtain ⟨n, hn⟩ : ∃ n : Fin 2, t.val = n.val * 16 + 15 := ⟨⟨t.val / 16, by omega⟩, by show t.val = t.val / 16 * 16 + 15; omega⟩
  show (cfg0.win 5).cut (grid0.coords t) ((dat0 V c).after 5 t) = _
  rw [after0_5]
  funext y
  rw [View.read_apply]
  have h1 : (y 1).val < 1 := (y 1).isLt
  have e : (y : S256x1.Idx) = ix2 (y 0 : Fin 256) (0 : Fin 1) := funext fun ax => by
    match ax with
    | ⟨0, _⟩ => rfl
    | ⟨1, _⟩ => exact Fin.ext (by show (y 1).val = 0; omega)
  show ((outsAt0 V c t.val t.isLt).2.1 : S256x1.Idx → EReal) y = G5 V c (((cfg0.win 5).blk t).view.emb y)
  refine (congrArg ((outsAt0 V c t.val t.isLt).2.1 : S256x1.Idx → EReal) e).trans ?_
  have hlt : n.val * 16 + 15 < cfg0.N := by rw [← hn]; exact t.isLt
  rw [outsAt0_congr V c hn t.isLt hlt]
  refine ((inv V c n 15 (by omega) hlt (y 0)).1).trans ?_
  refine (Tiles.acc_max_last _ _).trans ?_
  rw [fold_negRow]
  show mneg V c (Tiles.row n (y 0)) = mneg V c ((((cfg0.win 5).blk t).view.emb y) 0)
  refine congrArg (mneg V c) (Fin.ext ?_)
  show n.val * 256 + (y 0).val = win0_5.index t 0 * 256 + 1 * (y 0).val
  rw [(idx0_5 t).1, hn]; omega

theorem mem_blk5 (t : Fin cfg0.N) (i : S512x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v2_1).slice (win0_5.rect t)).set ↔ _
  rw [View.set_slice_whole, Rect.mem_set_unit]
  exact Iff.rfl

theorem cover5 (i : S512x1.Idx) : ∃ t : Fin cfg0.N, (cfg0.win 5).flush t = true ∧ i ∈ ((cfg0.win 5).blk t).view.set := by
  have hN : cfg0.N = 32 := N_0
  have h0 : (i 0).val < 512 := (i 0).isLt
  have h1 : (i 1).val < 1 := (i 1).isLt
  obtain ⟨t, ht⟩ : ∃ t : Fin cfg0.N, t.val = (i 0).val / 256 * 16 + 15 := ⟨⟨(i 0).val / 256 * 16 + 15, by rw [hN]; omega⟩, rfl⟩
  refine ⟨t, (flush0_5 t).mpr (by rw [ht]; omega), ?_⟩
  rw [mem_blk5]
  intro ax
  match ax with
  | ⟨0, _⟩ => show win0_5.index t 0 * 256 ≤ (i 0).val ∧ (i 0).val < win0_5.index t 0 * 256 + 256; rw [(idx0_5 t).1, ht]; omega
  | ⟨1, _⟩ => show win0_5.index t 1 * 1 ≤ (i 1).val ∧ (i 1).val < win0_5.index t 1 * 1 + 1; rw [(idx0_5 t).2]; omega

theorem final5 (i : Fin 512) :
    ((dat0 (F := Ideal) V c).arrAt 5 cfg0.N : S512x1.Idx → EReal) (ix2 i (0 : Fin 1))
      = rowMax (sim (Amat V c) (Bmat V c) i) (negM (tcOf V c) (trOf V c) i) :=
  (congrFun ((dat0 (F := Ideal) V c).arrAt_eq_of_cover 5 (G5 V c) (flushed5_eq V c) (cover5 )) (ix2 i (0 : Fin 1))).trans (mneg_eq V c i)

/-- Each row's largest similarity over its positive pairs (kept folded likewise). -/
@[irreducible] def mpos (i : Fin 512) : EReal := rowMax (sim (Amat V c) (Bmat V c) i) (posM (tcOf V c) (trOf V c) i)
theorem mpos_eq (i : Fin 512) : mpos V c i = rowMax (sim (Amat V c) (Bmat V c) i) (posM (tcOf V c) (trOf V c) i) := by
  unfold mpos; rfl
theorem fold_posRow (i : Fin 512) : (Finset.univ : Finset (Fin 65536)).fold max ninf (posRow V c i) = mpos V c i := by
  unfold mpos; rfl

def G6 : S512x1.Idx → EReal := fun y => mpos V c (y 0)

theorem flushed6_eq (t : Fin cfg0.N) (hf : (cfg0.win 6).flush t = true) :
    (dat0 (F := Ideal) V c).flushed 6 t = ((cfg0.win 6).blk t).view.read (Elt Ideal) (G6 V c) := by
  have hN : cfg0.N = 32 := N_0
  have h15 : t.val % 16 = 15 := (flush0_6 t).mp hf
  have htlt : t.val < 32 := lt_of_lt_of_eq t.isLt hN
  obtain ⟨n, hn⟩ : ∃ n : Fin 2, t.val = n.val * 16 + 15 := ⟨⟨t.val / 16, by omega⟩, by show t.val = t.val / 16 * 16 + 15; omega⟩
  show (cfg0.win 6).cut (grid0.coords t) ((dat0 V c).after 6 t) = _
  rw [after0_6]
  funext y
  rw [View.read_apply]
  have h1 : (y 1).val < 1 := (y 1).isLt
  have e : (y : S256x1.Idx) = ix2 (y 0 : Fin 256) (0 : Fin 1) := funext fun ax => by
    match ax with
    | ⟨0, _⟩ => rfl
    | ⟨1, _⟩ => exact Fin.ext (by show (y 1).val = 0; omega)
  show ((outsAt0 V c t.val t.isLt).2.2.1 : S256x1.Idx → EReal) y = G6 V c (((cfg0.win 6).blk t).view.emb y)
  refine (congrArg ((outsAt0 V c t.val t.isLt).2.2.1 : S256x1.Idx → EReal) e).trans ?_
  have hlt : n.val * 16 + 15 < cfg0.N := by rw [← hn]; exact t.isLt
  rw [outsAt0_congr V c hn t.isLt hlt]
  refine ((inv V c n 15 (by omega) hlt (y 0)).2.1).trans ?_
  refine (Tiles.acc_max_last _ _).trans ?_
  rw [fold_posRow]
  show mpos V c (Tiles.row n (y 0)) = mpos V c ((((cfg0.win 6).blk t).view.emb y) 0)
  refine congrArg (mpos V c) (Fin.ext ?_)
  show n.val * 256 + (y 0).val = win0_6.index t 0 * 256 + 1 * (y 0).val
  rw [(idx0_6 t).1, hn]; omega

theorem mem_blk6 (t : Fin cfg0.N) (i : S512x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v2_2).slice (win0_6.rect t)).set ↔ _
  rw [View.set_slice_whole, Rect.mem_set_unit]
  exact Iff.rfl

theorem cover6 (i : S512x1.Idx) : ∃ t : Fin cfg0.N, (cfg0.win 6).flush t = true ∧ i ∈ ((cfg0.win 6).blk t).view.set := by
  have hN : cfg0.N = 32 := N_0
  have h0 : (i 0).val < 512 := (i 0).isLt
  have h1 : (i 1).val < 1 := (i 1).isLt
  obtain ⟨t, ht⟩ : ∃ t : Fin cfg0.N, t.val = (i 0).val / 256 * 16 + 15 := ⟨⟨(i 0).val / 256 * 16 + 15, by rw [hN]; omega⟩, rfl⟩
  refine ⟨t, (flush0_6 t).mpr (by rw [ht]; omega), ?_⟩
  rw [mem_blk6]
  intro ax
  match ax with
  | ⟨0, _⟩ => show win0_6.index t 0 * 256 ≤ (i 0).val ∧ (i 0).val < win0_6.index t 0 * 256 + 256; rw [(idx0_6 t).1, ht]; omega
  | ⟨1, _⟩ => show win0_6.index t 1 * 1 ≤ (i 1).val ∧ (i 1).val < win0_6.index t 1 * 1 + 1; rw [(idx0_6 t).2]; omega

theorem final6 (i : Fin 512) :
    ((dat0 (F := Ideal) V c).arrAt 6 cfg0.N : S512x1.Idx → EReal) (ix2 i (0 : Fin 1))
      = rowMax (sim (Amat V c) (Bmat V c) i) (posM (tcOf V c) (trOf V c) i) :=
  (congrFun ((dat0 (F := Ideal) V c).arrAt_eq_of_cover 6 (G6 V c) (flushed6_eq V c) (cover6 )) (ix2 i (0 : Fin 1))).trans (mpos_eq V c i)

/-- Each row's running maximum of its sixteen tiles' flags. -/
def G7 : S512x1.Idx → EReal := fun y => Tiles.acc max c0 (Tiles.tileFlag (posM (tcOf V c) (trOf V c) (y 0))) 15 (by omega)

theorem flushed7_eq (t : Fin cfg0.N) (hf : (cfg0.win 7).flush t = true) :
    (dat0 (F := Ideal) V c).flushed 7 t = ((cfg0.win 7).blk t).view.read (Elt Ideal) (G7 V c) := by
  have hN : cfg0.N = 32 := N_0
  have h15 : t.val % 16 = 15 := (flush0_7 t).mp hf
  have htlt : t.val < 32 := lt_of_lt_of_eq t.isLt hN
  obtain ⟨n, hn⟩ : ∃ n : Fin 2, t.val = n.val * 16 + 15 := ⟨⟨t.val / 16, by omega⟩, by show t.val = t.val / 16 * 16 + 15; omega⟩
  show (cfg0.win 7).cut (grid0.coords t) ((dat0 V c).after 7 t) = _
  rw [after0_7]
  funext y
  rw [View.read_apply]
  have h1 : (y 1).val < 1 := (y 1).isLt
  have e : (y : S256x1.Idx) = ix2 (y 0 : Fin 256) (0 : Fin 1) := funext fun ax => by
    match ax with
    | ⟨0, _⟩ => rfl
    | ⟨1, _⟩ => exact Fin.ext (by show (y 1).val = 0; omega)
  show ((outsAt0 V c t.val t.isLt).2.2.2 : S256x1.Idx → EReal) y = G7 V c (((cfg0.win 7).blk t).view.emb y)
  refine (congrArg ((outsAt0 V c t.val t.isLt).2.2.2 : S256x1.Idx → EReal) e).trans ?_
  have hlt : n.val * 16 + 15 < cfg0.N := by rw [← hn]; exact t.isLt
  rw [outsAt0_congr V c hn t.isLt hlt]
  refine ((inv V c n 15 (by omega) hlt (y 0)).2.2).trans ?_
  show Tiles.acc max c0 (Tiles.tileFlag (posM (tcOf V c) (trOf V c) (Tiles.row n (y 0)))) 15 (by omega) = Tiles.acc max c0 (Tiles.tileFlag (posM (tcOf V c) (trOf V c) ((((cfg0.win 7).blk t).view.emb y) 0))) 15 (by omega)
  refine congrArg (fun i : Fin 512 => Tiles.acc max c0 (Tiles.tileFlag (posM (tcOf V c) (trOf V c) i)) 15 (by omega)) (Fin.ext ?_)
  show n.val * 256 + (y 0).val = win0_7.index t 0 * 256 + 1 * (y 0).val
  rw [(idx0_7 t).1, hn]; omega

theorem mem_blk7 (t : Fin cfg0.N) (i : S512x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v2_3).slice (win0_7.rect t)).set ↔ _
  rw [View.set_slice_whole, Rect.mem_set_unit]
  exact Iff.rfl

theorem cover7 (i : S512x1.Idx) : ∃ t : Fin cfg0.N, (cfg0.win 7).flush t = true ∧ i ∈ ((cfg0.win 7).blk t).view.set := by
  have hN : cfg0.N = 32 := N_0
  have h0 : (i 0).val < 512 := (i 0).isLt
  have h1 : (i 1).val < 1 := (i 1).isLt
  obtain ⟨t, ht⟩ : ∃ t : Fin cfg0.N, t.val = (i 0).val / 256 * 16 + 15 := ⟨⟨(i 0).val / 256 * 16 + 15, by rw [hN]; omega⟩, rfl⟩
  refine ⟨t, (flush0_7 t).mpr (by rw [ht]; omega), ?_⟩
  rw [mem_blk7]
  intro ax
  match ax with
  | ⟨0, _⟩ => show win0_7.index t 0 * 256 ≤ (i 0).val ∧ (i 0).val < win0_7.index t 0 * 256 + 256; rw [(idx0_7 t).1, ht]; omega
  | ⟨1, _⟩ => show win0_7.index t 1 * 1 ≤ (i 1).val ∧ (i 1).val < win0_7.index t 1 * 1 + 1; rw [(idx0_7 t).2]; omega

theorem final7 (i : Fin 512) :
    ((dat0 (F := Ideal) V c).arrAt 7 cfg0.N : S512x1.Idx → EReal) (ix2 i (0 : Fin 1))
      = Tiles.acc max c0 (Tiles.tileFlag (posM (tcOf V c) (trOf V c) i)) 15 (by omega) :=
  congrFun ((dat0 (F := Ideal) V c).arrAt_eq_of_cover 7 (G7 V c) (flushed7_eq V c) (cover7)) (ix2 i (0 : Fin 1))

end Cert.KernelIdeal.R0

end
-- ==== Proof.Region1Body.lean ====
/-
  Region 1 (the sum pass), one grid point, as block values. The body zeroes both output blocks at the first column tile
  of a row tile; then it adds, to the positive-loss block, this tile's row sums of `1 - sim` over the selected positive
  pairs, and to the negative-loss block this tile's row sums of `sim` over the selected negative pairs. So each output
  block after the body is "what it held (or the zero block, at a first tile) plus this tile's row sums": the four
  equations below, one per output and per case, over the named values the body stores.
-/
import proofs.«163207_j1769526526574_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.R1

open Cert.KernelIdeal Cert.KernelIdeal.Gen

variable {F : FTy → Type} [FloatOps F]

theorem hz : (![0, 0] : Fin 2 → Nat) = fun _ => 0 := funext fun a => by fin_cases a <;> rfl

/-- Not a first tile: the positive-loss block becomes its running value plus the tile's positive row sums. -/
theorem out_B_5 (c : Dev nD) (i : grid1.Coords) (arg2 : Memref sig .tc .vmem S256x4096 .f32) (harg2 : arg2.IsWhole) (arg3 : Memref sig .tc .vmem S256x1 .i32) (harg3 : arg3.IsWhole) (arg4 : Memref sig .tc .vmem S1x4096 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i)
    (x0 : Vec F S256x4096 .f32) (x1 : Vec F S256x1 .i32) (x2 : Vec F S1x4096 .i32) (x3 : Vec F S256x1 .f32) (x4 : Vec F S256x1 .f32) (xo5 : Vec F S256x1 .f32) (xo6 : Vec F S256x1 .f32) :
    out1_B_5 c i arg2 harg2 arg3 harg3 arg4 harg4 arg5 harg5 arg6 harg6 arg7 harg7 arg8 harg8 hc0 x0 x1 x2 x3 x4 xo5 xo6 = k1_pay1 (k1_pay9 i x0 x1 x2 x3) xo5 := by
  unfold out1_B_5
  rw [View.read_writes_eq_canon _ _ _ (cover1_B_5 c i arg2 harg2 arg3 harg3 arg4 harg4 arg5 harg5 arg6 harg6 arg7 harg7 arg8 harg8 hc0 x0 x1 x2 x3 x4 xo5 xo6)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S256x4096) hz, View.ld_unit_zero (S := S256x1) hz, View.ld_unit_zero (S := S1x4096) hz]

/-- Not a first tile: the negative-loss block becomes its running value plus the tile's negative row sums. -/
theorem out_B_6 (c : Dev nD) (i : grid1.Coords) (arg2 : Memref sig .tc .vmem S256x4096 .f32) (harg2 : arg2.IsWhole) (arg3 : Memref sig .tc .vmem S256x1 .i32) (harg3 : arg3.IsWhole) (arg4 : Memref sig .tc .vmem S1x4096 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i)
    (x0 : Vec F S256x4096 .f32) (x1 : Vec F S256x1 .i32) (x2 : Vec F S1x4096 .i32) (x3 : Vec F S256x1 .f32) (x4 : Vec F S256x1 .f32) (xo5 : Vec F S256x1 .f32) (xo6 : Vec F S256x1 .f32) :
    out1_B_6 c i arg2 harg2 arg3 harg3 arg4 harg4 arg5 harg5 arg6 harg6 arg7 harg7 arg8 harg8 hc0 x0 x1 x2 x3 x4 xo5 xo6 = k1_pay2 (k1_pay5 x0) (k1_pay7 x1 x2) (k1_pay8 x4) xo6 := by
  unfold out1_B_6
  rw [View.read_writes_eq_canon _ _ _ (cover1_B_6 c i arg2 harg2 arg3 harg3 arg4 harg4 arg5 harg5 arg6 harg6 arg7 harg7 arg8 harg8 hc0 x0 x1 x2 x3 x4 xo5 xo6)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread,
    View.ld_unit_zero (S := S256x4096) hz, View.ld_unit_zero (S := S256x1) hz, View.ld_unit_zero (S := S1x4096) hz]

/-- A first tile: the positive-loss block becomes the zero block plus the tile's positive row sums. -/
theorem out_A_5 (c : Dev nD) (i : grid1.Coords) (arg2 : Memref sig .tc .vmem S256x4096 .f32) (harg2 : arg2.IsWhole) (arg3 : Memref sig .tc .vmem S256x1 .i32) (harg3 : arg3.IsWhole) (arg4 : Memref sig .tc .vmem S1x4096 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : cond1_0 i)
    (x0 : Vec F S256x4096 .f32) (x1 : Vec F S256x1 .i32) (x2 : Vec F S1x4096 .i32) (x3 : Vec F S256x1 .f32) (x4 : Vec F S256x1 .f32) :
    out1_A_5 c i arg2 harg2 arg3 harg3 arg4 harg4 arg5 harg5 arg6 harg6 arg7 harg7 arg8 harg8 hc0 x0 x1 x2 x3 x4 = k1_pay1 (k1_pay9 i x0 x1 x2 x3) k1_pay3 := by
  unfold out1_A_5
  rw [View.read_writes_eq_canon _ _ _ (cover1_A_5 c i arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S256x1) hz, View.readCov_unit_zero (S := S256x1) _ hz]
  simp only [View.readAt_eq_ld, harg2.read_unread, harg3.read_unread, harg4.read_unread, harg5.read_unread, harg6.read_unread, harg7.read_unread, harg8.read_unread,
    View.ld_unit_zero (S := S256x4096) hz, View.ld_unit_zero (S := S256x1) hz, View.ld_unit_zero (S := S1x4096) hz]

/-- A first tile: the negative-loss block becomes the zero block plus the tile's negative row sums. -/
theorem out_A_6 (c : Dev nD) (i : grid1.Coords) (arg2 : Memref sig .tc .vmem S256x4096 .f32) (harg2 : arg2.IsWhole) (arg3 : Memref sig .tc .vmem S256x1 .i32) (harg3 : arg3.IsWhole) (arg4 : Memref sig .tc .vmem S1x4096 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (hc0 : cond1_0 i)
    (x0 : Vec F S256x4096 .f32) (x1 : Vec F S256x1 .i32) (x2 : Vec F S1x4096 .i32) (x3 : Vec F S256x1 .f32) (x4 : Vec F S256x1 .f32) :
    out1_A_6 c i arg2 harg2 arg3 harg3 arg4 harg4 arg5 harg5 arg6 harg6 arg7 harg7 arg8 harg8 hc0 x0 x1 x2 x3 x4 = k1_pay2 (k1_pay5 x0) (k1_pay7 x1 x2) (k1_pay8 x4) k1_pay4 := by
  unfold out1_A_6
  rw [View.read_writes_eq_canon _ _ _ (cover1_A_6 c i arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S256x1) hz, View.readCov_unit_zero (S := S256x1) _ hz]
  simp only [View.readAt_eq_ld, harg2.read_unread, harg3.read_unread, harg4.read_unread, harg5.read_unread, harg6.read_unread, harg7.read_unread, harg8.read_unread,
    View.ld_unit_zero (S := S256x4096) hz, View.ld_unit_zero (S := S256x1) hz, View.ld_unit_zero (S := S1x4096) hz]

end Cert.KernelIdeal.R1

end
-- ==== Proof.Region1Pay.lean ====
/-
  Region 1, one grid point, entry by entry at the extended reals. For row `r` of the point's 256 rows: the label mask of
  column `k` compares the column label of row `r` with the row label of column `k`; the diagonal mask compares the row's
  and the column's positions in the whole matrix (the point's offsets added). The positive-loss block at row `r` is its
  running value plus the sum over the tile's 4096 columns of `1 - sim` where the pair is positive and `sim` is below the
  row's largest negative similarity plus 0.1; the negative-loss block is its running value plus the sum of `sim` where
  the pair is negative and `sim` is above `max 0.6 (the row's largest positive similarity) - 0.1`.
-/
import proofs.«163207_j1769526526574_2_alg».proof.Proof.Gen.KernelIdeal.Skeleton
import proofs.«163207_j1769526526574_2_alg».proof.Proof.LibColumn
import proofs.«163207_j1769526526574_2_alg».proof.Proof.Tiles
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.R1

open Cert.KernelIdeal Cert.KernelIdeal.Gen ValueIdx Idealize.ShloMosaic.LibColumn Cert.Spec

/-- The label mask: the column label of row `r` against the row label of column `k`. -/
theorem pay6_apply (x1 : Vec Ideal S256x1 .i32) (x2 : Vec Ideal S1x4096 .i32) (r : Fin 256) (k : Fin 4096) :
    k1_pay6 (F := Ideal) x1 x2 (ix2 r k) = IntOp.cmpi .eq (x1 (ix2 r (0 : Fin 1))) (x2 (ix2 (0 : Fin 1) k)) := by
  unfold k1_pay6
  show IntOp.cmpi .eq (broadcastTo S256x4096 (shapeCast S256x1 x1 shapeCasts_S256x1_S256x1) broadcasts_S256x1_S256x4096 (ix2 r k))
      (broadcastTo S256x4096 (shapeCast S1x4096 x2 shapeCasts_S1x4096_S1x4096) broadcasts_S1x4096_S256x4096 (ix2 r k)) = _
  rw [shapeCast_self, shapeCast_self]
  exact congrArg₂ (IntOp.cmpi .eq) (broadcastTo_a1_ab_apply _ _ r k) (broadcastTo_1b_ab_apply _ _ r k)

/-- The positive mask at the point of row tile `n` and column tile `a`: labels agree, flipped on the matrix's diagonal. -/
theorem posMask_apply (i : grid1.Coords) (n : Fin 2) (a : Fin 16) (hn : (i 0).val = n.val) (ha : (i 1).val = a.val)
    (x1 : Vec Ideal S256x1 .i32) (x2 : Vec Ideal S1x4096 .i32) (r : Fin 256) (k : Fin 4096) :
    IntOp.xori (k1_pay6 (F := Ideal) x1 x2 (ix2 r k))
        (IntOp.cmpi .eq (IntOp.addi (iota .tc S256x4096 32 [0] iota_S256x4096_d0_w32 (ix2 r k)) (Scalar.muli (BitVec.ofNat 32 (i 0).val) 256#32))
          (IntOp.addi (iota .tc S256x4096 32 [1] iota_S256x4096_d1_w32 (ix2 r k)) (Scalar.muli (BitVec.ofNat 32 (i 1).val) 4096#32)))
      = IntOp.xori (IntOp.cmpi .eq (x1 (ix2 r (0 : Fin 1))) (x2 (ix2 (0 : Fin 1) k))) (diag (Tiles.row n r) (Tiles.col a k)) := by
  rw [pay6_apply, iota_single_apply, iota_single_apply, hn, ha]
  exact congrArg (IntOp.xori _) (Tiles.diag_tile n r a k)

/-- This tile's positive row sum of row `r`. -/
theorem pay9_apply (i : grid1.Coords) (n : Fin 2) (a : Fin 16) (hn : (i 0).val = n.val) (ha : (i 1).val = a.val)
    (x0 : Vec Ideal S256x4096 .f32) (x1 : Vec Ideal S256x1 .i32) (x2 : Vec Ideal S1x4096 .i32) (x3 : Vec Ideal S256x1 .f32) (r : Fin 256) :
    k1_pay9 (F := Ideal) i x0 x1 x2 x3 (ix2 r (0 : Fin 1))
      = ∑ k : Fin 4096, posTerm (x0 (ix2 r k))
          (IntOp.xori (IntOp.cmpi .eq (x1 (ix2 r (0 : Fin 1))) (x2 (ix2 (0 : Fin 1) k))) (diag (Tiles.row n r) (Tiles.col a k)))
          (x3 (ix2 r (0 : Fin 1))) := by
  unfold k1_pay9
  refine (shapeCast_a_a1_apply _ _ r 0).trans ?_
  refine (rowSum_f32 _ _ _ _ r).trans ?_
  refine Finset.sum_congr rfl fun k _ => ?_
  show Scalar.select (IntOp.andi
        (IntOp.xori (k1_pay6 (F := Ideal) x1 x2 (ix2 r k))
          (IntOp.cmpi .eq (IntOp.addi (iota .tc S256x4096 32 [0] iota_S256x4096_d0_w32 (ix2 r k)) (Scalar.muli (BitVec.ofNat 32 (i 0).val) 256#32))
            (IntOp.addi (iota .tc S256x4096 32 [1] iota_S256x4096_d1_w32 (ix2 r k)) (Scalar.muli (BitVec.ofNat 32 (i 1).val) 4096#32))))
        (Ideal.cmp .olt (shapeCast S256x4096 x0 shapeCasts_S256x4096_S256x4096 (ix2 r k))
          (broadcastTo S256x4096 (addf (F := Ideal) (shapeCast S256x1 x3 shapeCasts_S256x1_S256x1) (broadcast S256x1 (Scalar.ofBits .f32 0x3DCCCCCD#32)))
            broadcasts_S256x1_S256x4096 (ix2 r k))))
      (c1 - shapeCast S256x4096 x0 shapeCasts_S256x4096_S256x4096 (ix2 r k)) c0 = _
  rw [posMask_apply i n a hn ha, shapeCast_self x0, shapeCast_self x3, broadcastTo_a1_ab_apply _ _ r k]
  rfl

/-- The positive-loss block after the body: the running value plus this tile's positive row sum. -/
theorem step5_apply (i : grid1.Coords) (n : Fin 2) (a : Fin 16) (hn : (i 0).val = n.val) (ha : (i 1).val = a.val)
    (x0 : Vec Ideal S256x4096 .f32) (x1 : Vec Ideal S256x1 .i32) (x2 : Vec Ideal S1x4096 .i32) (x3 : Vec Ideal S256x1 .f32)
    (xo : Vec Ideal S256x1 .f32) (r : Fin 256) :
    k1_pay1 (F := Ideal) (k1_pay9 i x0 x1 x2 x3) xo (ix2 r (0 : Fin 1))
      = xo (ix2 r (0 : Fin 1)) + ∑ k : Fin 4096, posTerm (x0 (ix2 r k))
          (IntOp.xori (IntOp.cmpi .eq (x1 (ix2 r (0 : Fin 1))) (x2 (ix2 (0 : Fin 1) k))) (diag (Tiles.row n r) (Tiles.col a k)))
          (x3 (ix2 r (0 : Fin 1))) := by
  show shapeCast S256x1 xo shapeCasts_S256x1_S256x1 (ix2 r (0 : Fin 1)) + k1_pay9 (F := Ideal) i x0 x1 x2 x3 (ix2 r (0 : Fin 1)) = _
  rw [shapeCast_self xo, pay9_apply i n a hn ha]

/-- The negative-loss block after the body: the running value plus this tile's negative row sum. -/
theorem step6_apply (x0 : Vec Ideal S256x4096 .f32) (x1 : Vec Ideal S256x1 .i32) (x2 : Vec Ideal S1x4096 .i32) (x4 : Vec Ideal S256x1 .f32)
    (xo : Vec Ideal S256x1 .f32) (r : Fin 256) :
    k1_pay2 (F := Ideal) (k1_pay5 x0) (k1_pay7 x1 x2) (k1_pay8 x4) xo (ix2 r (0 : Fin 1))
      = xo (ix2 r (0 : Fin 1)) + ∑ k : Fin 4096, negTerm (x0 (ix2 r k))
          (IntOp.xori (IntOp.cmpi .eq (x1 (ix2 r (0 : Fin 1))) (x2 (ix2 (0 : Fin 1) k))) 1#1)
          (x4 (ix2 r (0 : Fin 1))) := by
  unfold k1_pay2
  show shapeCast S256x1 xo shapeCasts_S256x1_S256x1 (ix2 r (0 : Fin 1))
      + shapeCast S256x1 (multiReduction (F := Ideal) .add [1] S256 _ 0x00000000#32 reduces_S256x4096_S256 (.inl rfl) rfl) shapeCasts_S256_S256x1 (ix2 r (0 : Fin 1)) = _
  rw [shapeCast_self xo]
  refine congrArg (xo (ix2 r (0 : Fin 1)) + ·) ?_
  refine (shapeCast_a_a1_apply _ _ r 0).trans ?_
  refine (rowSum_f32 _ _ _ _ r).trans ?_
  refine Finset.sum_congr rfl fun k _ => ?_
  show Scalar.select (IntOp.andi (IntOp.xori (k1_pay6 (F := Ideal) x1 x2 (ix2 r k)) 1#1)
        (Ideal.cmp .ogt (shapeCast S256x4096 x0 shapeCasts_S256x4096_S256x4096 (ix2 r k))
          (broadcastTo S256x4096 (subf (F := Ideal) (maximumf (F := Ideal) (broadcast S256x1 (Scalar.ofBits .f32 0x3F19999A#32)) (shapeCast S256x1 x4 shapeCasts_S256x1_S256x1))
              (broadcast S256x1 (Scalar.ofBits .f32 0x3DCCCCCD#32))) broadcasts_S256x1_S256x4096 (ix2 r k))))
      (shapeCast S256x4096 x0 shapeCasts_S256x4096_S256x4096 (ix2 r k)) c0 = _
  rw [pay6_apply, shapeCast_self x0, shapeCast_self x4, broadcastTo_a1_ab_apply _ _ r k]
  rfl

/-- The zero block a first tile stores reads 0.0 everywhere. -/
theorem pay3_apply (y : S256x1.Idx) : k1_pay3 (F := Ideal) y = c0 := rfl
theorem pay4_apply (y : S256x1.Idx) : k1_pay4 (F := Ideal) y = c0 := rfl

end Cert.KernelIdeal.R1

end
-- ==== Proof.Region1Blk.lean ====
/-
  Region 1: the point `t = 16 n + a` of the 2 × 16 grid (row tile `n`, column tile `a`) reads the 256 × 4096 block of the
  similarity matrix at rows `256 n …` and columns `4096 a …`, rows `256 n …` of the column labels and of the two row-maximum
  columns, and columns `4096 a …` of the row labels. A block's entry is the array's entry at block index × block size +
  the coordinate inside the block.
-/
import proofs.«163207_j1769526526574_2_alg».proof.Proof.Gen.KernelIdeal.Frame
import proofs.«163207_j1769526526574_2_alg».proof.Proof.Tiles
import Idealize.ShloMosaic.Lib.Pipeline.Value
import Idealize.ShloMosaic.Lib.ValueIdx

noncomputable section

open Idealize.ShloMosaic Idealize.ShloMosaic.TcCoe Idealize.SL.Sem

namespace Cert.KernelIdeal.R1

open Cert.KernelIdeal Cert.KernelIdeal.Gen ValueIdx Cert.Spec

variable (V : (c : Dev nD) → (b : Ref sig .tc) → Buf (Elt Ideal) ((c : Thread nD τ).loc b)) (c : Dev nD)

/-- The column labels, one per anchor row, and the row labels, one per memory column, as the region finds them. -/
def tcOf : Fin 512 → BitVec 32 := fun i => (V c main_v0 : S512x1.Idx → BitVec 32) (ix2 i (0 : Fin 1))
def trOf : Fin 65536 → BitVec 32 := fun j => (V c main_v1 : S1x65536.Idx → BitVec 32) (ix2 (0 : Fin 1) j)

/-- The point's grid coordinates and the windows' block indices, decided over the 32 points. -/
theorem coords1 : ∀ t : Fin cfg1.N, ((grid1.coords t) 0).val = t.val / 16 ∧ ((grid1.coords t) 1).val = t.val % 16 :=
  (by decide +kernel : ∀ t : Fin grid1.N, ((grid1.coords t) 0).val = t.val / 16 ∧ ((grid1.coords t) 1).val = t.val % 16)
theorem idx1_0 : ∀ t : Fin cfg1.N, win1_0.index t 0 = t.val / 16 ∧ win1_0.index t 1 = t.val % 16 :=
  (by decide +kernel : ∀ t : Fin grid1.N, win1_0.index t 0 = t.val / 16 ∧ win1_0.index t 1 = t.val % 16)
theorem idx1_1 : ∀ t : Fin cfg1.N, win1_1.index t 0 = t.val / 16 ∧ win1_1.index t 1 = 0 :=
  (by decide +kernel : ∀ t : Fin grid1.N, win1_1.index t 0 = t.val / 16 ∧ win1_1.index t 1 = 0)
theorem idx1_2 : ∀ t : Fin cfg1.N, win1_2.index t 0 = 0 ∧ win1_2.index t 1 = t.val % 16 :=
  (by decide +kernel : ∀ t : Fin grid1.N, win1_2.index t 0 = 0 ∧ win1_2.index t 1 = t.val % 16)
theorem idx1_3 : ∀ t : Fin cfg1.N, win1_3.index t 0 = t.val / 16 ∧ win1_3.index t 1 = 0 :=
  (by decide +kernel : ∀ t : Fin grid1.N, win1_3.index t 0 = t.val / 16 ∧ win1_3.index t 1 = 0)
theorem idx1_4 : ∀ t : Fin cfg1.N, win1_4.index t 0 = t.val / 16 ∧ win1_4.index t 1 = 0 :=
  (by decide +kernel : ∀ t : Fin grid1.N, win1_4.index t 0 = t.val / 16 ∧ win1_4.index t 1 = 0)
theorem idx1_5 : ∀ t : Fin cfg1.N, win1_5.index t 0 = t.val / 16 ∧ win1_5.index t 1 = 0 :=
  (by decide +kernel : ∀ t : Fin grid1.N, win1_5.index t 0 = t.val / 16 ∧ win1_5.index t 1 = 0)
theorem idx1_6 : ∀ t : Fin cfg1.N, win1_6.index t 0 = t.val / 16 ∧ win1_6.index t 1 = 0 :=
  (by decide +kernel : ∀ t : Fin grid1.N, win1_6.index t 0 = t.val / 16 ∧ win1_6.index t 1 = 0)

theorem blk1_0 (t : Fin cfg1.N) (n : Fin 2) (a : Fin 16) (ht : t.val = n.val * 16 + a.val) (r : Fin 256) (k : Fin 4096) :
    (iblk1 V c 0 t : S256x4096.Idx → EReal) (ix2 r k) = (V c main_v2_0 : S512x65536.Idx → EReal) (ix2 (Tiles.row n r) (Tiles.col a k)) := by
  unfold iblk1
  rw [View.read_apply]
  show V c main_v2_0 _ = V c main_v2_0 _
  refine congrArg _ (funext fun ax => Fin.ext ?_)
  have ha := a.isLt
  match ax with
  | ⟨0, _⟩ => show win1_0.index t 0 * 256 + 1 * r.val = n.val * 256 + r.val; rw [(idx1_0 t).1, ht]; omega
  | ⟨1, _⟩ => show win1_0.index t 1 * 4096 + 1 * k.val = a.val * 4096 + k.val; rw [(idx1_0 t).2, ht]; omega

theorem blk1_1 (t : Fin cfg1.N) (n : Fin 2) (a : Fin 16) (ht : t.val = n.val * 16 + a.val) (r : Fin 256) :
    (iblk1 V c 1 t : S256x1.Idx → BitVec 32) (ix2 r (0 : Fin 1)) = tcOf V c (Tiles.row n r) := by
  unfold iblk1 tcOf
  rw [View.read_apply]
  show V c main_v0 _ = V c main_v0 _
  refine congrArg _ (funext fun ax => Fin.ext ?_)
  have ha := a.isLt
  match ax with
  | ⟨0, _⟩ => show win1_1.index t 0 * 256 + 1 * r.val = n.val * 256 + r.val; rw [(idx1_1 t).1, ht]; omega
  | ⟨1, _⟩ => show win1_1.index t 1 * 1 + 1 * 0 = 0; rw [(idx1_1 t).2]

theorem blk1_2 (t : Fin cfg1.N) (n : Fin 2) (a : Fin 16) (ht : t.val = n.val * 16 + a.val) (k : Fin 4096) :
    (iblk1 V c 2 t : S1x4096.Idx → BitVec 32) (ix2 (0 : Fin 1) k) = trOf V c (Tiles.col a k) := by
  unfold iblk1 trOf
  rw [View.read_apply]
  show V c main_v1 _ = V c main_v1 _
  refine congrArg _ (funext fun ax => Fin.ext ?_)
  have ha := a.isLt
  match ax with
  | ⟨0, _⟩ => show win1_2.index t 0 * 1 + 1 * 0 = 0; rw [(idx1_2 t).1]
  | ⟨1, _⟩ => show win1_2.index t 1 * 4096 + 1 * k.val = a.val * 4096 + k.val; rw [(idx1_2 t).2, ht]; omega

theorem blk1_3 (t : Fin cfg1.N) (n : Fin 2) (a : Fin 16) (ht : t.val = n.val * 16 + a.val) (r : Fin 256) :
    (iblk1 V c 3 t : S256x1.Idx → EReal) (ix2 r (0 : Fin 1)) = (V c main_v2_1 : S512x1.Idx → EReal) (ix2 (Tiles.row n r) (0 : Fin 1)) := by
  unfold iblk1
  rw [View.read_apply]
  show V c main_v2_1 _ = V c main_v2_1 _
  refine congrArg _ (funext fun ax => Fin.ext ?_)
  have ha := a.isLt
  match ax with
  | ⟨0, _⟩ => show win1_3.index t 0 * 256 + 1 * r.val = n.val * 256 + r.val; rw [(idx1_3 t).1, ht]; omega
  | ⟨1, _⟩ => show win1_3.index t 1 * 1 + 1 * 0 = 0; rw [(idx1_3 t).2]

theorem blk1_4 (t : Fin cfg1.N) (n : Fin 2) (a : Fin 16) (ht : t.val = n.val * 16 + a.val) (r : Fin 256) :
    (iblk1 V c 4 t : S256x1.Idx → EReal) (ix2 r (0 : Fin 1)) = (V c main_v2_2 : S512x1.Idx → EReal) (ix2 (Tiles.row n r) (0 : Fin 1)) := by
  unfold iblk1
  rw [View.read_apply]
  show V c main_v2_2 _ = V c main_v2_2 _
  refine congrArg _ (funext fun ax => Fin.ext ?_)
  have ha := a.isLt
  match ax with
  | ⟨0, _⟩ => show win1_4.index t 0 * 256 + 1 * r.val = n.val * 256 + r.val; rw [(idx1_4 t).1, ht]; omega
  | ⟨1, _⟩ => show win1_4.index t 1 * 1 + 1 * 0 = 0; rw [(idx1_4 t).2]

end Cert.KernelIdeal.R1

end
-- ==== Proof.Region1Acc.lean ====
/-
  Region 1, the accumulation over the grid. Along a row tile `n` the sixteen column tiles are visited in order; after the
  point of column tile `a` each output block holds, at row `r`, the running sum "0.0, then tile 0's row sum, …, then tile
  `a`'s row sum" of row `256 n + r`'s positive (resp. negative) terms — by induction on the point: a first tile starts
  from the zero block, a later tile adds to what the point before left.
-/
import proofs.«163207_j1769526526574_2_alg».proof.Proof.Region1Body
import proofs.«163207_j1769526526574_2_alg».proof.Proof.Region1Pay
import proofs.«163207_j1769526526574_2_alg».proof.Proof.Region1Blk

noncomputable section

open Idealize.ShloMosaic Idealize.ShloMosaic.TcCoe Idealize.SL.Sem

namespace Cert.KernelIdeal.R1

open Cert.KernelIdeal Cert.KernelIdeal.Gen ValueIdx Cert.Spec

variable (V : (c : Dev nD) → (b : Ref sig .tc) → Buf (Elt Ideal) ((c : Thread nD τ).loc b)) (c : Dev nD)

/-- Row `i`'s share of the positive loss, column by column, and of the negative loss. -/
def posRow (i : Fin 512) : Fin 65536 → EReal := fun j =>
  posTerm ((V c main_v2_0 : S512x65536.Idx → EReal) (ix2 i j)) (posM (tcOf V c) (trOf V c) i j) ((V c main_v2_1 : S512x1.Idx → EReal) (ix2 i (0 : Fin 1)))
def negRow (i : Fin 512) : Fin 65536 → EReal := fun j =>
  negTerm ((V c main_v2_0 : S512x65536.Idx → EReal) (ix2 i j)) (negM (tcOf V c) (trOf V c) i j) ((V c main_v2_2 : S512x1.Idx → EReal) (ix2 i (0 : Fin 1)))

/-- At the point of row tile `n` and column tile `a` the positive-loss block's row `r` gains tile `a`'s sum of row `256 n + r`. -/
theorem point5 (t : Fin cfg1.N) (n : Fin 2) (a : Fin 16) (ht : t.val = n.val * 16 + a.val) (xo : Vec Ideal S256x1 .f32) (r : Fin 256) :
    k1_pay1 (F := Ideal) (k1_pay9 (grid1.coords t) (iblk1 V c 0 t) (iblk1 V c 1 t) (iblk1 V c 2 t) (iblk1 V c 3 t)) xo (ix2 r (0 : Fin 1))
      = xo (ix2 r (0 : Fin 1)) + Tiles.tileSum (posRow V c (Tiles.row n r)) a := by
  have ha := a.isLt
  have hn : ((grid1.coords t) 0).val = n.val := by rw [(coords1 t).1, ht]; omega
  have hac : ((grid1.coords t) 1).val = a.val := by rw [(coords1 t).2, ht]; omega
  refine (step5_apply (grid1.coords t) n a hn hac (iblk1 V c 0 t) (iblk1 V c 1 t) (iblk1 V c 2 t) (iblk1 V c 3 t) xo r).trans ?_
  show _ = xo (ix2 r (0 : Fin 1)) + ∑ k : Fin 4096, posRow V c (Tiles.row n r) (Tiles.col a k)
  refine congrArg (xo (ix2 r (0 : Fin 1)) + ·) (Finset.sum_congr rfl fun k _ => ?_)
  rw [blk1_0 V c t n a ht r k, blk1_1 V c t n a ht r, blk1_2 V c t n a ht k, blk1_3 V c t n a ht r]
  rfl

/-- … and the negative-loss block's row `r` gains tile `a`'s sum of that row's negative terms. -/
theorem point6 (t : Fin cfg1.N) (n : Fin 2) (a : Fin 16) (ht : t.val = n.val * 16 + a.val) (xo : Vec Ideal S256x1 .f32) (r : Fin 256) :
    k1_pay2 (F := Ideal) (k1_pay5 (iblk1 V c 0 t)) (k1_pay7 (iblk1 V c 1 t) (iblk1 V c 2 t)) (k1_pay8 (iblk1 V c 4 t)) xo (ix2 r (0 : Fin 1))
      = xo (ix2 r (0 : Fin 1)) + Tiles.tileSum (negRow V c (Tiles.row n r)) a := by
  refine (step6_apply (iblk1 V c 0 t) (iblk1 V c 1 t) (iblk1 V c 2 t) (iblk1 V c 4 t) xo r).trans ?_
  show _ = xo (ix2 r (0 : Fin 1)) + ∑ k : Fin 4096, negRow V c (Tiles.row n r) (Tiles.col a k)
  refine congrArg (xo (ix2 r (0 : Fin 1)) + ·) (Finset.sum_congr rfl fun k _ => ?_)
  rw [blk1_0 V c t n a ht r k, blk1_1 V c t n a ht r, blk1_2 V c t n a ht k, blk1_4 V c t n a ht r]
  rfl

/-- A first tile: both blocks hold 0.0 plus the tile's row sums. -/
theorem outsAt_A (t : Fin cfg1.N) (h0 : t.val % 16 = 0) (n : Fin 2) (a : Fin 16) (ht : t.val = n.val * 16 + a.val) (r : Fin 256) :
    ((outsAt1 V c t.val t.isLt).1 : S256x1.Idx → EReal) (ix2 r (0 : Fin 1)) = c0 + Tiles.tileSum (posRow V c (Tiles.row n r)) a
    ∧ ((outsAt1 V c t.val t.isLt).2 : S256x1.Idx → EReal) (ix2 r (0 : Fin 1)) = c0 + Tiles.tileSum (negRow V c (Tiles.row n r)) a := by
  have e := outsAt1_A V c t h0
  exact ⟨((congrFun (congrArg Prod.fst e) (ix2 r (0 : Fin 1))).trans
        (congrFun (out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) (ix2 r (0 : Fin 1)))).trans
        (point5 V c t n a ht (k1_pay3 (F := Ideal)) r),
    ((congrFun (congrArg Prod.snd e) (ix2 r (0 : Fin 1))).trans
        (congrFun (out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) (ix2 r (0 : Fin 1)))).trans
        (point6 V c t n a ht (k1_pay4 (F := Ideal)) r)⟩

/-- A later tile: both blocks hold what the point before left plus the tile's row sums. -/
theorem outsAt_B (t : Fin cfg1.N) (h0 : ¬t.val % 16 = 0) (n : Fin 2) (a : Fin 16) (ht : t.val = n.val * 16 + a.val) (r : Fin 256) :
    ((outsAt1 V c t.val t.isLt).1 : S256x1.Idx → EReal) (ix2 r (0 : Fin 1))
      = ((outsAt1 V c (t.val - 1) (Nat.lt_of_le_of_lt (Nat.sub_le _ _) t.isLt)).1 : S256x1.Idx → EReal) (ix2 r (0 : Fin 1)) + Tiles.tileSum (posRow V c (Tiles.row n r)) a
    ∧ ((outsAt1 V c t.val t.isLt).2 : S256x1.Idx → EReal) (ix2 r (0 : Fin 1))
      = ((outsAt1 V c (t.val - 1) (Nat.lt_of_le_of_lt (Nat.sub_le _ _) t.isLt)).2 : S256x1.Idx → EReal) (ix2 r (0 : Fin 1)) + Tiles.tileSum (negRow V c (Tiles.row n r)) a := by
  have e := outsAt1_B V c t h0
  exact ⟨((congrFun (congrArg Prod.fst e) (ix2 r (0 : Fin 1))).trans
        (congrFun (out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).1 (outsAt1 V c (t.val - 1) (Nat.lt_of_le_of_lt (Nat.sub_le _ _) t.isLt)).2) (ix2 r (0 : Fin 1)))).trans
        (point5 V c t n a ht (outsAt1 V c (t.val - 1) (Nat.lt_of_le_of_lt (Nat.sub_le _ _) t.isLt)).1 r),
    ((congrFun (congrArg Prod.snd e) (ix2 r (0 : Fin 1))).trans
        (congrFun (out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).1 (outsAt1 V c (t.val - 1) (Nat.lt_of_le_of_lt (Nat.sub_le _ _) t.isLt)).2) (ix2 r (0 : Fin 1)))).trans
        (point6 V c t n a ht (outsAt1 V c (t.val - 1) (Nat.lt_of_le_of_lt (Nat.sub_le _ _) t.isLt)).2 r)⟩

/-- After the point of row tile `n` and column tile `a` the blocks hold, at row `r`, the running sums over tiles 0 … `a`. -/
theorem outsAt_eq (m : ℕ) : ∀ (hm : m < cfg1.N) (n : Fin 2) (a : ℕ) (ha : a < 16) (ht : m = n.val * 16 + a) (r : Fin 256),
    ((outsAt1 V c m hm).1 : S256x1.Idx → EReal) (ix2 r (0 : Fin 1)) = Tiles.acc (· + ·) c0 (Tiles.tileSum (posRow V c (Tiles.row n r))) a ha
    ∧ ((outsAt1 V c m hm).2 : S256x1.Idx → EReal) (ix2 r (0 : Fin 1)) = Tiles.acc (· + ·) c0 (Tiles.tileSum (negRow V c (Tiles.row n r))) a ha := by
  induction m with
  | zero =>
    intro hm n a ha ht r
    obtain rfl : a = 0 := by omega
    exact outsAt_A V c ⟨0, hm⟩ rfl n ⟨0, ha⟩ ht r
  | succ m ih =>
    intro hm n a ha ht r
    by_cases h0 : (m + 1) % 16 = 0
    · obtain rfl : a = 0 := by omega
      exact outsAt_A V c ⟨m + 1, hm⟩ h0 n ⟨0, ha⟩ ht r
    · obtain ⟨a', rfl⟩ : ∃ a', a = a' + 1 := ⟨a - 1, by omega⟩
      have IH := ih (Nat.lt_of_succ_lt hm) n a' (by omega) (by omega) r
      have hB := outsAt_B V c ⟨m + 1, hm⟩ h0 n ⟨a' + 1, ha⟩ ht r
      exact ⟨hB.1.trans (congrArg (· + Tiles.tileSum (posRow V c (Tiles.row n r)) ⟨a' + 1, ha⟩) IH.1),
        hB.2.trans (congrArg (· + Tiles.tileSum (negRow V c (Tiles.row n r)) ⟨a' + 1, ha⟩) IH.2)⟩

end Cert.KernelIdeal.R1

end
-- ==== Proof.Region1Final.lean ====
/-
  Region 1, the two result arrays. Row `i` of the 512 rows belongs to row tile `i / 256`; its block is written back once,
  after that row tile's last column tile, holding the running sum over all sixteen tiles — which is 0.0 plus the sum over
  the row's 65536 columns (addition on the extended reals is commutative and associative; nothing has to be finite). So
  the positive-loss array holds, at row `i`, 0.0 plus the sum of `1 - sim` over the row's selected positive pairs, and the
  negative-loss array 0.0 plus the sum of `sim` over its selected negative pairs.
-/
import proofs.«163207_j1769526526574_2_alg».proof.Proof.Region1Acc

noncomputable section

open Idealize.ShloMosaic Idealize.ShloMosaic.TcCoe Idealize.SL.Sem

namespace Cert.KernelIdeal.R1

open Cert.KernelIdeal Cert.KernelIdeal.Gen ValueIdx Cert.Spec
open Idealize.ShloMosaic.Pipeline (Dat)

variable (V : (c : Dev nD) → (b : Ref sig .tc) → Buf (Elt Ideal) ((c : Thread nD τ).loc b)) (c : Dev nD)

/-- The two result arrays as functions of the region's inputs: 0.0 plus the row's sum. -/
def G5 : S512x1.Idx → EReal := fun y => c0 + ∑ j : Fin 65536, posRow V c (y 0) j
def G6 : S512x1.Idx → EReal := fun y => c0 + ∑ j : Fin 65536, negRow V c (y 0) j

/-- What point `t` writes back of output 5, for a last column tile: its block of `G5`. -/
theorem flushed5_eq (t : Fin cfg1.N) (hf : (cfg1.win 5).flush t = true) :
    (dat1 V c).flushed 5 t = ((cfg1.win 5).blk t).view.read (Elt Ideal) (G5 V c) := by
  have hN : cfg1.N = 32 := N_1
  have h15 : t.val % 16 = 15 := (flush1_5 t).mp hf
  have htlt : t.val < 32 := lt_of_lt_of_eq t.isLt hN
  obtain ⟨n, hn⟩ : ∃ n : Fin 2, t.val = n.val * 16 + 15 := ⟨⟨t.val / 16, by omega⟩, by show t.val = t.val / 16 * 16 + 15; omega⟩
  show (cfg1.win 5).cut (grid1.coords t) ((dat1 V c).after 5 t) = _
  rw [after1_5]
  funext y
  rw [View.read_apply]
  have h1 : (y 1).val < 1 := (y 1).isLt
  have e : (y : S256x1.Idx) = ix2 (y 0 : Fin 256) (0 : Fin 1) := funext fun ax => by
    match ax with
    | ⟨0, _⟩ => rfl
    | ⟨1, _⟩ => exact Fin.ext (by show (y 1).val = 0; omega)
  show ((outsAt1 V c t.val t.isLt).1 : S256x1.Idx → EReal) y = G5 V c (((cfg1.win 5).blk t).view.emb y)
  refine (congrArg ((outsAt1 V c t.val t.isLt).1 : S256x1.Idx → EReal) e).trans ?_
  refine ((outsAt_eq V c t.val t.isLt n 15 (by omega) hn (y 0)).1).trans ?_
  refine (Tiles.acc_add_last _ _).trans ?_
  show c0 + ∑ j : Fin 65536, posRow V c (Tiles.row n (y 0)) j = c0 + ∑ j : Fin 65536, posRow V c ((((cfg1.win 5).blk t).view.emb y) 0) j
  refine congrArg (fun i : Fin 512 => c0 + ∑ j : Fin 65536, posRow V c i j) (Fin.ext ?_)
  show n.val * 256 + (y 0).val = win1_5.index t 0 * 256 + 1 * (y 0).val
  rw [(idx1_5 t).1, hn]; omega

/-- An index of output 5's array is in point `t`'s block iff each coordinate is in the block's range on its axis. -/
theorem mem_blk5 (t : Fin cfg1.N) (i : S512x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v3_0).slice (win1_5.rect t)).set ↔ _
  rw [View.set_slice_whole, Rect.mem_set_unit]
  exact Iff.rfl

/-- Row `i` lies in the block written back after the last column tile of its row tile. -/
theorem cover5 (i : S512x1.Idx) : ∃ t : Fin cfg1.N, (cfg1.win 5).flush t = true ∧ i ∈ ((cfg1.win 5).blk t).view.set := by
  have hN : cfg1.N = 32 := N_1
  have h0 : (i 0).val < 512 := (i 0).isLt
  have h1 : (i 1).val < 1 := (i 1).isLt
  obtain ⟨t, ht⟩ : ∃ t : Fin cfg1.N, t.val = (i 0).val / 256 * 16 + 15 := ⟨⟨(i 0).val / 256 * 16 + 15, by rw [hN]; omega⟩, rfl⟩
  refine ⟨t, (flush1_5 t).mpr (by rw [ht]; omega), ?_⟩
  rw [mem_blk5]
  intro ax
  match ax with
  | ⟨0, _⟩ => show win1_5.index t 0 * 256 ≤ (i 0).val ∧ (i 0).val < win1_5.index t 0 * 256 + 256; rw [(idx1_5 t).1, ht]; omega
  | ⟨1, _⟩ => show win1_5.index t 1 * 1 ≤ (i 1).val ∧ (i 1).val < win1_5.index t 1 * 1 + 1; rw [(idx1_5 t).2]; omega

/-- What point `t` writes back of output 6, for a last column tile: its block of `G6`. -/
theorem flushed6_eq (t : Fin cfg1.N) (hf : (cfg1.win 6).flush t = true) :
    (dat1 V c).flushed 6 t = ((cfg1.win 6).blk t).view.read (Elt Ideal) (G6 V c) := by
  have hN : cfg1.N = 32 := N_1
  have h15 : t.val % 16 = 15 := (flush1_6 t).mp hf
  have htlt : t.val < 32 := lt_of_lt_of_eq t.isLt hN
  obtain ⟨n, hn⟩ : ∃ n : Fin 2, t.val = n.val * 16 + 15 := ⟨⟨t.val / 16, by omega⟩, by show t.val = t.val / 16 * 16 + 15; omega⟩
  show (cfg1.win 6).cut (grid1.coords t) ((dat1 V c).after 6 t) = _
  rw [after1_6]
  funext y
  rw [View.read_apply]
  have h1 : (y 1).val < 1 := (y 1).isLt
  have e : (y : S256x1.Idx) = ix2 (y 0 : Fin 256) (0 : Fin 1) := funext fun ax => by
    match ax with
    | ⟨0, _⟩ => rfl
    | ⟨1, _⟩ => exact Fin.ext (by show (y 1).val = 0; omega)
  show ((outsAt1 V c t.val t.isLt).2 : S256x1.Idx → EReal) y = G6 V c (((cfg1.win 6).blk t).view.emb y)
  refine (congrArg ((outsAt1 V c t.val t.isLt).2 : S256x1.Idx → EReal) e).trans ?_
  refine ((outsAt_eq V c t.val t.isLt n 15 (by omega) hn (y 0)).2).trans ?_
  refine (Tiles.acc_add_last _ _).trans ?_
  show c0 + ∑ j : Fin 65536, negRow V c (Tiles.row n (y 0)) j = c0 + ∑ j : Fin 65536, negRow V c ((((cfg1.win 6).blk t).view.emb y) 0) j
  refine congrArg (fun i : Fin 512 => c0 + ∑ j : Fin 65536, negRow V c i j) (Fin.ext ?_)
  show n.val * 256 + (y 0).val = win1_6.index t 0 * 256 + 1 * (y 0).val
  rw [(idx1_6 t).1, hn]; omega

/-- An index of output 6's array is in point `t`'s block iff each coordinate is in the block's range on its axis. -/
theorem mem_blk6 (t : Fin cfg1.N) (i : S512x1.Idx) :
    i ∈ ((cfg1.win 6).blk t).view.set ↔ ∀ a : Fin 2, win1_6.index t a * S256x1.size a ≤ (i a).val ∧ (i a).val < win1_6.index t a * S256x1.size a + S256x1.size a := by
  show i ∈ ((View.whole main_v3_1).slice (win1_6.rect t)).set ↔ _
  rw [View.set_slice_whole, Rect.mem_set_unit]
  exact Iff.rfl

/-- Row `i` lies in the block written back after the last column tile of its row tile. -/
theorem cover6 (i : S512x1.Idx) : ∃ t : Fin cfg1.N, (cfg1.win 6).flush t = true ∧ i ∈ ((cfg1.win 6).blk t).view.set := by
  have hN : cfg1.N = 32 := N_1
  have h0 : (i 0).val < 512 := (i 0).isLt
  have h1 : (i 1).val < 1 := (i 1).isLt
  obtain ⟨t, ht⟩ : ∃ t : Fin cfg1.N, t.val = (i 0).val / 256 * 16 + 15 := ⟨⟨(i 0).val / 256 * 16 + 15, by rw [hN]; omega⟩, rfl⟩
  refine ⟨t, (flush1_6 t).mpr (by rw [ht]; omega), ?_⟩
  rw [mem_blk6]
  intro ax
  match ax with
  | ⟨0, _⟩ => show win1_6.index t 0 * 256 ≤ (i 0).val ∧ (i 0).val < win1_6.index t 0 * 256 + 256; rw [(idx1_6 t).1, ht]; omega
  | ⟨1, _⟩ => show win1_6.index t 1 * 1 ≤ (i 1).val ∧ (i 1).val < win1_6.index t 1 * 1 + 1; rw [(idx1_6 t).2]; omega

/-- The positive-loss array after the region: at row `i`, 0.0 plus the row's positive-loss terms. -/
theorem final5 (i : Fin 512) :
    (((dat1 (F := Ideal) V c).arrAt 5 cfg1.N : S512x1.Idx → EReal)) (ix2 i (0 : Fin 1))
      = c0 + ∑ j : Fin 65536, posTerm ((V c main_v2_0 : S512x65536.Idx → EReal) (ix2 i j)) (posM (tcOf V c) (trOf V c) i j)
          ((V c main_v2_1 : S512x1.Idx → EReal) (ix2 i (0 : Fin 1))) :=
  congrFun ((dat1 V c).arrAt_eq_of_cover 5 (G5 V c) (flushed5_eq V c) cover5) (ix2 i (0 : Fin 1))

/-- The negative-loss array after the region: at row `i`, 0.0 plus the row's negative-loss terms. -/
theorem final6 (i : Fin 512) :
    (((dat1 (F := Ideal) V c).arrAt 6 cfg1.N : S512x1.Idx → EReal)) (ix2 i (0 : Fin 1))
      = c0 + ∑ j : Fin 65536, negTerm ((V c main_v2_0 : S512x65536.Idx → EReal) (ix2 i j)) (negM (tcOf V c) (trOf V c) i j)
          ((V c main_v2_2 : S512x1.Idx → EReal) (ix2 i (0 : Fin 1))) :=
  congrFun ((dat1 V c).arrAt_eq_of_cover 6 (G6 V c) (flushed6_eq V c) cover6) (ix2 i (0 : Fin 1))

end Cert.KernelIdeal.R1

end
-- ==== Proof.KVal.lean ====
/-
  The kernel program's value. Region 0 runs at the launch contents with the two label vectors reshaped to a column and a
  row; it leaves the similarity matrix, each row's largest negative and largest positive similarity, and each row's flag
  "some pair of the row is positive". Region 1 runs at what region 0 leaves and adds up each row's positive and negative
  loss. The host operations after it compare the flag with one half, add the two losses, count a row without the flag as
  zero, sum the rows from zero and divide by 512: the loss of the four argument arrays.
-/
import proofs.«163207_j1769526526574_2_alg».proof.Proof.Tail
import proofs.«163207_j1769526526574_2_alg».proof.Proof.Region0Final
import proofs.«163207_j1769526526574_2_alg».proof.Proof.Region1Final
import proofs.«163207_j1769526526574_2_alg».proof.Proof.LibColumn
import proofs.«163207_j1769526526574_2_alg».proof.Proof.Tiles

set_option maxRecDepth 16384

noncomputable section

namespace Cert.KernelIdeal.KVal

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Spec

variable (m : (ℓ : Loc nD τ sig) → Buf (Elt Ideal) ℓ) (ρ : Dev nD → PrngReg) (c : Dev nD)

/-- The four argument arrays by coordinates. -/
abbrev Aof : Fin 512 → Fin 512 → EReal := mat (m ((c : Thread nD τ).loc main_arg0))
abbrev Bof : Fin 65536 → Fin 512 → EReal := mat (m ((c : Thread nD τ).loc main_arg2))
abbrev tcof : Fin 512 → BitVec 32 := vec (m ((c : Thread nD τ).loc main_arg1))
abbrev trof : Fin 65536 → BitVec 32 := vec (m ((c : Thread nD τ).loc main_arg3))

/-! ## Region 0's entry: the launch contents, the label vectors as a column and as a row -/

theorem V1_arg0 : V1 m ρ c main_arg0 = m ((c : Thread nD τ).loc main_arg0) := by
  show StableHlo.after hostOps0 (W0 m ρ c) (Proc.devRef .tc main_arg0) = _
  after_results

theorem V1_arg2 : V1 m ρ c main_arg2 = m ((c : Thread nD τ).loc main_arg2) := by
  show StableHlo.after hostOps0 (W0 m ρ c) (Proc.devRef .tc main_arg2) = _
  after_results

theorem V1_v0 (i : Fin 512) :
    (V1 m ρ c main_v0 : S512x1.Idx → BitVec 32) (ix2 i (0 : Fin 1)) = tcof m c i := by
  have e : V1 m ρ c main_v0
      = (shapeCast S512x1 (m ((c : Thread nD τ).loc main_arg1) : S512.Idx → BitVec 32) shapeCasts_S512_S512x1 : S512x1.Idx → BitVec 32) := by
    show StableHlo.after hostOps0 (W0 m ρ c) (Proc.devRef .tc main_v0) = _
    after_results
    rfl
  exact (congrFun e (ix2 i (0 : Fin 1))).trans (LibColumn.shapeCast_a_a1_apply _ _ i 0)

theorem V1_v1 (j : Fin 65536) :
    (V1 m ρ c main_v1 : S1x65536.Idx → BitVec 32) (ix2 (0 : Fin 1) j) = trof m c j := by
  have e : V1 m ρ c main_v1
      = (shapeCast S1x65536 (m ((c : Thread nD τ).loc main_arg3) : S65536.Idx → BitVec 32) shapeCasts_S65536_S1x65536 : S1x65536.Idx → BitVec 32) := by
    show StableHlo.after hostOps0 (W0 m ρ c) (Proc.devRef .tc main_v1) = _
    after_results
    rfl
  exact (congrFun e (ix2 (0 : Fin 1) j)).trans (shapeCast_a_1a_apply _ _ 0 j)

/-- Region 0 finds the two matrices as launched and the labels of the two label vectors. -/
theorem Amat_V1 : R0.Amat (V1 m ρ) c = Aof m c := by
  funext i q; unfold R0.Amat; rw [V1_arg0]; rfl
theorem Bmat_V1 : R0.Bmat (V1 m ρ) c = Bof m c := by
  funext j q; unfold R0.Bmat; rw [V1_arg2]; rfl
theorem tcOf_V1 : R0.tcOf (V1 m ρ) c = tcof m c := funext fun i => V1_v0 m ρ c i
theorem trOf_V1 : R0.trOf (V1 m ρ) c = trof m c := funext fun j => V1_v1 m ρ c j

/-! ## Region 0's exit -/

theorem V2_v2_0 (i : Fin 512) (j : Fin 65536) :
    (V2 m ρ c main_v2_0 : S512x65536.Idx → EReal) (ix2 i j) = sim (Aof m c) (Bof m c) i j :=
  (congrFun (W2_arr m ρ c 4) (ix2 i j)).trans ((R0.final4 (V1 m ρ) c i j).trans (by rw [Amat_V1, Bmat_V1]))

theorem V2_v2_1 (i : Fin 512) :
    (V2 m ρ c main_v2_1 : S512x1.Idx → EReal) (ix2 i (0 : Fin 1)) = maxNeg (Aof m c) (Bof m c) (tcof m c) (trof m c) i :=
  (congrFun (W2_arr m ρ c 5) (ix2 i (0 : Fin 1))).trans ((R0.final5 (V1 m ρ) c i).trans (by rw [Amat_V1, Bmat_V1, tcOf_V1, trOf_V1]; rfl))

theorem V2_v2_2 (i : Fin 512) :
    (V2 m ρ c main_v2_2 : S512x1.Idx → EReal) (ix2 i (0 : Fin 1)) = maxPos (Aof m c) (Bof m c) (tcof m c) (trof m c) i :=
  (congrFun (W2_arr m ρ c 6) (ix2 i (0 : Fin 1))).trans ((R0.final6 (V1 m ρ) c i).trans (by rw [Amat_V1, Bmat_V1, tcOf_V1, trOf_V1]; rfl))

theorem V2_v2_3 (i : Fin 512) :
    (V2 m ρ c main_v2_3 : S512x1.Idx → EReal) (ix2 i (0 : Fin 1))
      = Tiles.acc max c0 (Tiles.tileFlag (posM (tcof m c) (trof m c) i)) 15 (by omega) :=
  (congrFun (W2_arr m ρ c 7) (ix2 i (0 : Fin 1))).trans ((R0.final7 (V1 m ρ) c i).trans (by rw [tcOf_V1, trOf_V1]))

/-- The label column and the label row pass through region 0 unchanged: they are inputs of it. -/
theorem V2_v0 : V2 m ρ c main_v0 = V1 m ρ c main_v0 :=
  (W2_arr m ρ c 2).trans (((dat0 (V1 m ρ) c).arrAt_in 2 rfl _).trans (A_eq0 (V1 m ρ) c 2))
theorem V2_v1 : V2 m ρ c main_v1 = V1 m ρ c main_v1 :=
  (W2_arr m ρ c 3).trans (((dat0 (V1 m ρ) c).arrAt_in 3 rfl _).trans (A_eq0 (V1 m ρ) c 3))

theorem tcOf_V2 : R1.tcOf (V2 m ρ) c = tcof m c := by
  funext i; unfold R1.tcOf; rw [V2_v0]; exact V1_v0 m ρ c i
theorem trOf_V2 : R1.trOf (V2 m ρ) c = trof m c := by
  funext j; unfold R1.trOf; rw [V2_v1]; exact V1_v1 m ρ c j

/-! ## Region 1's exit, given what region 1 computes from its entry contents -/

section Given

variable
  (hR5 : ∀ (V : (c : Dev nD) → (b : Ref sig .tc) → Buf (Elt Ideal) ((c : Thread nD τ).loc b)) (c : Dev nD) (i : Fin 512),
    ((dat1 (F := Ideal) V c).arrAt 5 cfg1.N : S512x1.Idx → EReal) (ix2 i (0 : Fin 1))
      = c0 + ∑ j : Fin 65536, posTerm ((V c main_v2_0 : S512x65536.Idx → EReal) (ix2 i j)) (posM (R1.tcOf V c) (R1.trOf V c) i j)
          ((V c main_v2_1 : S512x1.Idx → EReal) (ix2 i (0 : Fin 1))))
  (hR6 : ∀ (V : (c : Dev nD) → (b : Ref sig .tc) → Buf (Elt Ideal) ((c : Thread nD τ).loc b)) (c : Dev nD) (i : Fin 512),
    ((dat1 (F := Ideal) V c).arrAt 6 cfg1.N : S512x1.Idx → EReal) (ix2 i (0 : Fin 1))
      = c0 + ∑ j : Fin 65536, negTerm ((V c main_v2_0 : S512x65536.Idx → EReal) (ix2 i j)) (negM (R1.tcOf V c) (R1.trOf V c) i j)
          ((V c main_v2_2 : S512x1.Idx → EReal) (ix2 i (0 : Fin 1))))

include hR5 in
/-- Region 1 leaves each row's positive loss, added up from zero. -/
theorem W3_v3_0 (i : Fin 512) :
    (W3 m ρ c (Proc.devRef .tc main_v3_0) : S512x1.Idx → EReal) (ix2 i (0 : Fin 1))
      = c0 + posLoss (Aof m c) (Bof m c) (tcof m c) (trof m c) i :=
  (congrFun (W3_arr m ρ c 5) (ix2 i (0 : Fin 1))).trans ((hR5 (V2 m ρ) c i).trans (by
    rw [tcOf_V2, trOf_V2, V2_v2_1]
    unfold posLoss
    exact congrArg (c0 + ·) (Finset.sum_congr rfl fun j _ => by rw [V2_v2_0])))

include hR6 in
/-- Region 1 leaves each row's negative loss, added up from zero. -/
theorem W3_v3_1 (i : Fin 512) :
    (W3 m ρ c (Proc.devRef .tc main_v3_1) : S512x1.Idx → EReal) (ix2 i (0 : Fin 1))
      = c0 + negLoss (Aof m c) (Bof m c) (tcof m c) (trof m c) i :=
  (congrFun (W3_arr m ρ c 6) (ix2 i (0 : Fin 1))).trans ((hR6 (V2 m ρ) c i).trans (by
    rw [tcOf_V2, trOf_V2, V2_v2_2]
    unfold negLoss
    exact congrArg (c0 + ·) (Finset.sum_congr rfl fun j _ => by rw [V2_v2_0])))

/-- The flag column is not an array of region 1: it is as region 0 left it. -/
theorem W3_v2_3 (i : Fin 512) :
    (W3 m ρ c (Proc.devRef .tc main_v2_3) : S512x1.Idx → EReal) (ix2 i (0 : Fin 1))
      = Tiles.acc max c0 (Tiles.tileFlag (posM (tcof m c) (trof m c) i)) 15 (by omega) :=
  (congrFun (W3_of_ne m ρ c main_v2_3 (by decide)) (ix2 i (0 : Fin 1))).trans (V2_v2_3 m ρ c i)

/-- One row's share: the flag compared with one half selects the two losses' sum, each added up from zero. -/
theorem row_share (A : Fin 512 → Fin 512 → EReal) (B : Fin 65536 → Fin 512 → EReal) (tc : Fin 512 → BitVec 32)
    (tr : Fin 65536 → BitVec 32) (i : Fin 512) :
    Scalar.select (Ideal.cmp .ogt (Tiles.acc max c0 (Tiles.tileFlag (posM tc tr i)) 15 (by omega)) chalf)
        ((c0 + posLoss A B tc tr i) + (c0 + negLoss A B tc tr i)) c0
      = rowLoss A B tc tr i := by
  have z : ∀ x : EReal, c0 + x = x := fun x => by rw [Tiles.c0_eq, zero_add]
  rw [Tiles.acc_flag_last, z, z]
  rfl

include hR5 hR6 in
/-- The kernel program's result is the loss of its four argument arrays, given region 1's two sums. -/
theorem result_of :
    (W6 m ρ c (Proc.devRef .tc main_v12) : S_.Idx → EReal)
      = fun _ => lossOf (m ((c : Thread nD τ).loc main_arg0)) (m ((c : Thread nD τ).loc main_arg1))
          (m ((c : Thread nD τ).loc main_arg2)) (m ((c : Thread nD τ).loc main_arg3)) := by
  rw [Tail.result_eq m ρ c _ _ _ (W3_v2_3 m ρ c) (W3_v3_0 m ρ c hR5) (W3_v3_1 m ρ c hR6)]
  funext _
  unfold lossOf loss
  exact congrArg (fun t => Ideal.div (c0 + t) c512) (Finset.sum_congr rfl fun i _ => row_share _ _ _ _ i)

end Given

/-- The kernel program's result is the loss of its four argument arrays. -/
theorem result :
    (W6 m ρ c (Proc.devRef .tc main_v12) : S_.Idx → EReal)
      = fun _ => Spec.lossOf (m ((c : Thread nD τ).loc main_arg0)) (m ((c : Thread nD τ).loc main_arg1))
          (m ((c : Thread nD τ).loc main_arg2)) (m ((c : Thread nD τ).loc main_arg3)) :=
  result_of m ρ c R1.final5 R1.final6

end Cert.KernelIdeal.KVal

end
-- ==== Proof.LibScatterRead.lean ====
/-
  The result of a scatter, read at one index.

  `Host.scatter d f x idx upd` is the left fold, over the update indices in row-major order, of the
  step "replace the element at the update's result index by `f` of that element and the update's
  element; leave the array alone when the result index falls outside it". This file proves, for ANY
  shapes, dimension numbers, combiner `f` and element type, under the one hypothesis that distinct
  update indices land on distinct result indices
  (`hinj : ∀ j j' i, d.resultIdx? j idx = some i → d.resultIdx? j' idx = some i → j = j'`):

  * `Host.scatter_apply_of_hit`: when update index `j` lands on `i`
    (`d.resultIdx? j idx = some i`), the result at `i` is `f (x i) (upd j)`: the operand's element
    combined once with that single update;
  * `Host.scatter_apply_of_miss`: when no update index lands on `i`
    (`∀ j, d.resultIdx? j idx ≠ some i`), the result at `i` is the operand's element `x i`
    (this half needs no injectivity).

  The proof restates the fold as a fold over the list of update indices (every index once, each exactly
  once), then argues by induction on a list with the array generalized: a step whose result index is not
  `i` does not change the element at `i` (`foldl_step_of_miss`), and in a list without repeats the one
  step that lands on `i` is preceded and followed only by such steps (`foldl_step_of_hit`).
-/
import Idealize.ShloMosaic.PureOps.ShapeOps
import Mathlib.Data.List.Nodup
import Mathlib.Data.List.FinRange

namespace Idealize.ShloMosaic

namespace Host

variable {s si u : Shape} {α : Type} {w : Nat}

/-- One step of the scatter: the array after update index `j` has been applied to the array `r`. -/
def scatterStep (d : ScatterDims s si u) (f : α → α → α) (idx : IVec si w) (upd : u.Idx → α)
    (r : s.Idx → α) (j : u.Idx) : s.Idx → α :=
  match d.resultIdx? j idx with
  | some i => fun i' => if i' = i then f (r i) (upd j) else r i'
  | none => r

/-- A step whose update lands on `i` combines the element at `i` with the update's element. -/
theorem scatterStep_of_hit (d : ScatterDims s si u) (f : α → α → α) (idx : IVec si w) (upd : u.Idx → α)
    (r : s.Idx → α) (j : u.Idx) (i : s.Idx) (h : d.resultIdx? j idx = some i) :
    scatterStep d f idx upd r j i = f (r i) (upd j) := by
  unfold scatterStep; rw [h]; exact if_pos rfl

/-- A step whose update does not land on `i` leaves the element at `i` alone. -/
theorem scatterStep_of_miss (d : ScatterDims s si u) (f : α → α → α) (idx : IVec si w) (upd : u.Idx → α)
    (r : s.Idx → α) (j : u.Idx) (i : s.Idx) (h : d.resultIdx? j idx ≠ some i) :
    scatterStep d f idx upd r j i = r i := by
  unfold scatterStep
  cases hr : d.resultIdx? j idx with
  | none => rfl
  | some i₀ =>
    have hne : i ≠ i₀ := fun e => h (by rw [hr, e])
    exact if_neg hne

/-- The update indices in row-major order. -/
def updIndices (u : Shape) : List u.Idx := (List.finRange u.numel).map u.rowMajor.symm

theorem mem_updIndices (j : u.Idx) : j ∈ updIndices u := by
  unfold updIndices
  exact List.mem_map.2 ⟨u.rowMajor j, List.mem_finRange _, u.rowMajor.symm_apply_apply j⟩

theorem nodup_updIndices (u : Shape) : (updIndices u).Nodup := by
  unfold updIndices
  exact (List.nodup_finRange _).map u.rowMajor.symm.injective

/-- The scatter is the fold of its step over the update indices. -/
theorem scatter_eq_foldl (d : ScatterDims s si u) (f : α → α → α) (x : s.Idx → α) (idx : IVec si w)
    (upd : u.Idx → α) :
    Host.scatter d f x idx upd = (updIndices u).foldl (scatterStep d f idx upd) x := by
  unfold Host.scatter updIndices
  rw [List.foldl_map]
  rfl

/-- Steps none of which lands on `i` leave the element at `i` alone. -/
theorem foldl_step_of_miss (d : ScatterDims s si u) (f : α → α → α) (idx : IVec si w) (upd : u.Idx → α)
    (i : s.Idx) (l : List u.Idx) (hl : ∀ j ∈ l, d.resultIdx? j idx ≠ some i) (x : s.Idx → α) :
    l.foldl (scatterStep d f idx upd) x i = x i := by
  induction l generalizing x with
  | nil => rfl
  | cons j₀ l ih =>
    rw [List.foldl_cons, ih (fun j hj => hl j (List.mem_cons_of_mem _ hj)),
      scatterStep_of_miss d f idx upd x j₀ i (hl j₀ List.mem_cons_self)]

/-- In a list of update indices without repeats that contains `j`, landing on `i`, where distinct
    update indices land on distinct result indices, the steps combine the element at `i` once, with
    `j`'s update. -/
theorem foldl_step_of_hit (d : ScatterDims s si u) (f : α → α → α) (idx : IVec si w) (upd : u.Idx → α)
    (hinj : ∀ j j' i, d.resultIdx? j idx = some i → d.resultIdx? j' idx = some i → j = j')
    (j : u.Idx) (i : s.Idx) (h : d.resultIdx? j idx = some i)
    (l : List u.Idx) (hnd : l.Nodup) (hj : j ∈ l) (x : s.Idx → α) :
    l.foldl (scatterStep d f idx upd) x i = f (x i) (upd j) := by
  induction l generalizing x with
  | nil => exact absurd hj List.not_mem_nil
  | cons j₀ l ih =>
    rw [List.foldl_cons]
    rw [List.nodup_cons] at hnd
    by_cases e : j₀ = j
    · subst e
      rw [foldl_step_of_miss d f idx upd i l (fun j' hj' h' => hnd.1 (by rw [hinj j₀ j' i h h']; exact hj')),
        scatterStep_of_hit d f idx upd x j₀ i h]
    · have hj' : j ∈ l := by
        rcases List.mem_cons.1 hj with e' | e'
        · exact absurd e'.symm e
        · exact e'
      rw [ih hnd.2 hj', scatterStep_of_miss d f idx upd x j₀ i (fun h' => e (hinj j₀ j i h' h))]

/-- The scatter read at an index an update lands on: the operand's element combined with that update. -/
theorem scatter_apply_of_hit (d : ScatterDims s si u) (f : α → α → α) (x : s.Idx → α) (idx : IVec si w)
    (upd : u.Idx → α)
    (hinj : ∀ j j' i, d.resultIdx? j idx = some i → d.resultIdx? j' idx = some i → j = j')
    (j : u.Idx) (i : s.Idx) (h : d.resultIdx? j idx = some i) :
    Host.scatter d f x idx upd i = f (x i) (upd j) := by
  rw [scatter_eq_foldl]
  exact foldl_step_of_hit d f idx upd hinj j i h _ (nodup_updIndices u) (mem_updIndices j) x

/-- The scatter read at an index no update lands on: the operand's element. -/
theorem scatter_apply_of_miss (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_step_of_miss d f idx upd i _ (fun j _ => h j) x

end Host

end Idealize.ShloMosaic
-- ==== Proof.RefSide1.lean ====
/-
  The reference's three masks, entry by entry.

  The label-equality mask compares the two label vectors, each broadcast over the 512 × 65536 rectangle. The negative
  mask is its complement, which on one bit is the exclusive or with 1. The positive mask is a scatter into the
  label-equality mask: the update is the mask's first 512 columns, each entry flipped where the row number equals the
  column number, and it is written at column offset 0. The update index (p, q) lands on the entry (p, q) of the
  rectangle, so distinct update indices land on distinct entries; an entry in a column below 512 is therefore the
  update's entry, and an entry in a later column is untouched, and there the diagonal term vanishes because a row
  number is below 512.
-/
import proofs.«163207_j1769526526574_2_alg».proof.Proof.RefReadP
import proofs.«163207_j1769526526574_2_alg».proof.Proof.Spec
import proofs.«163207_j1769526526574_2_alg».proof.Proof.LibScatterRead

noncomputable section

namespace Cert.RefSide

open Cert.ReferenceIdeal Cert.ReferenceIdeal.ReadP Idealize.ShloMosaic Idealize.ShloMosaic.ValueIdx

local notation "dS" => scatter_S512x65536_S1_S512x512_01_n_1_0

/-- Update index (p, q) lands on entry (p, q): the window starts at row 0 and at the column the index operand names, 0. -/
theorem landing (idx : S1.Idx → BitVec 32) (hidx : ∀ k, idx k = 0#32) (p q : Fin 512) :
    ScatterDims.resultIdx? dS (ix2 p q : S512x512.Idx) idx
      = some (ix2 p (⟨q.val, by have := q.isLt; omega⟩ : Fin 65536) : S512x65536.Idx) := by
  have hs0 : ScatterDims.start dS (ix2 p q : S512x512.Idx) idx (0 : Fin S512x65536.rank) = 0 := by
    unfold ScatterDims.start; rw [dif_neg (by decide)]
  have hs1 : ScatterDims.start dS (ix2 p q : S512x512.Idx) idx (1 : Fin S512x65536.rank) = 0 := by
    unfold ScatterDims.start; rw [dif_pos (by decide), hidx]; rfl
  have hw0 : ScatterDims.window dS (ix2 p q : S512x512.Idx) (0 : Fin S512x65536.rank) = p.val := by
    unfold ScatterDims.window; rw [dif_pos (by decide)]; rfl
  have hw1 : ScatterDims.window dS (ix2 p q : S512x512.Idx) (1 : Fin S512x65536.rank) = q.val := by
    unfold ScatterDims.window; rw [dif_pos (by decide)]; rfl
  have hall : ∀ a : Fin S512x65536.rank,
      0 ≤ ScatterDims.start dS (ix2 p q : S512x512.Idx) idx a + ScatterDims.window dS (ix2 p q : S512x512.Idx) a
      ∧ ScatterDims.start dS (ix2 p q : S512x512.Idx) idx a + ScatterDims.window dS (ix2 p q : S512x512.Idx) a < S512x65536.size a := by
    intro a
    match a with
    | ⟨0, h0⟩ =>
      have e0 : (⟨0, h0⟩ : Fin S512x65536.rank) = 0 := rfl
      rw [e0, hs0, hw0]
      have := p.isLt
      refine ⟨by omega, ?_⟩
      show (0 : Int) + (p.val : Int) < ((512 : Nat) : Int)
      omega
    | ⟨1, h1⟩ =>
      have e1 : (⟨1, h1⟩ : Fin S512x65536.rank) = 1 := rfl
      rw [e1, hs1, hw1]
      have := q.isLt
      refine ⟨by omega, ?_⟩
      show (0 : Int) + (q.val : Int) < ((65536 : Nat) : Int)
      omega
  unfold ScatterDims.resultIdx?
  rw [dif_pos hall]
  refine congrArg some (funext fun a => Fin.ext ?_)
  match a with
  | ⟨0, h0⟩ =>
    show (ScatterDims.start dS (ix2 p q : S512x512.Idx) idx 0 + ScatterDims.window dS (ix2 p q : S512x512.Idx) 0).toNat = p.val
    rw [hs0, hw0]; omega
  | ⟨1, h1⟩ =>
    show (ScatterDims.start dS (ix2 p q : S512x512.Idx) idx 1 + ScatterDims.window dS (ix2 p q : S512x512.Idx) 1).toNat = q.val
    rw [hs1, hw1]; omega

/-- Distinct update indices land on distinct result indices. -/
theorem landing_inj (idx : S1.Idx → BitVec 32) (hidx : ∀ k, idx k = 0#32) :
    ∀ (j j' : S512x512.Idx) (i : S512x65536.Idx), ScatterDims.resultIdx? dS j idx = some i →
      ScatterDims.resultIdx? dS j' idx = some i → j = j' := by
  intro j j' i h h'
  obtain ⟨p, q, rfl⟩ : ∃ (p q : Fin 512), j = ix2 p q := ⟨j 0, j 1, eq_ix2 j⟩
  obtain ⟨p', q', rfl⟩ : ∃ (p' q' : Fin 512), j' = ix2 p' q' := ⟨j' 0, j' 1, eq_ix2 j'⟩
  rw [landing idx hidx] at h h'
  have e := (Option.some.inj h).trans (Option.some.inj h').symm
  have e0 : p.val = p'.val := congrArg (fun t : S512x65536.Idx => (t 0).val) e
  have e1 : q.val = q'.val := congrArg (fun t : S512x65536.Idx => (t 1).val) e
  rw [Fin.ext e0, Fin.ext e1]

/-- The scatter writes the 512 × 512 update over columns 0..511 and leaves the other columns as they were. -/
theorem scatter_cols (x : S512x65536.Idx → BitVec 1) (idx : S1.Idx → BitVec 32) (hidx : ∀ k, idx k = 0#32)
    (upd : S512x512.Idx → BitVec 1) (i : Fin 512) (j : Fin 65536) :
    Host.scatter dS (fun _ b => b) x idx upd (ix2 i j)
      = if h : j.val < 512 then upd (ix2 i ⟨j.val, h⟩) else x (ix2 i j) := by
  by_cases h : j.val < 512
  · rw [dif_pos h]
    exact Host.scatter_apply_of_hit dS (fun _ b => b) x idx upd (landing_inj idx hidx) (ix2 i ⟨j.val, h⟩) (ix2 i j)
      (landing idx hidx i ⟨j.val, h⟩)
  · rw [dif_neg h]
    refine Host.scatter_apply_of_miss dS (fun _ b => b) x idx upd (ix2 i j) fun jj hj => ?_
    obtain ⟨p, q, rfl⟩ : ∃ (p q : Fin 512), jj = ix2 p q := ⟨jj 0, jj 1, eq_ix2 jj⟩
    rw [landing idx hidx] at hj
    have e1 : q.val = j.val := congrArg (fun t : S512x65536.Idx => (t 1).val) (Option.some.inj hj)
    have := q.isLt
    omega

/-! ## The masks of the reference, entry by entry -/

variable (x1 : (⟨S512, .i32⟩ : BufTy).Contents (Elt Ideal)) (x3 : (⟨S65536, .i32⟩ : BufTy).Contents (Elt Ideal))

/-- The label-equality mask: both labels are broadcast over the rectangle and compared. -/
theorem v6_at (i : Fin 512) (j : Fin 65536) :
    val_main_v6 (F := Ideal) x1 x3 (ix2 i j) = Spec.same (Spec.vec x1) (Spec.vec x3) i j := by
  have e1 : idx_main_v2 (idx_main_v4 (ix2 i j)) = ix1 i := funext fun a => Fin.ext (by match a with | ⟨0, _⟩ => rfl)
  have e3 : idx_main_v3 (idx_main_v5 (ix2 i j)) = ix1 j := funext fun a => Fin.ext (by match a with | ⟨0, _⟩ => rfl)
  rw [val_main_v6_apply, val_main_v4_apply, val_main_v2_apply, val_main_v5_apply, val_main_v3_apply, e1, e3]
  rfl

/-- On one bit, the complement is the exclusive or with 1. -/
theorem not_eq_xor_one (s : BitVec 1) : ~~~s = IntOp.xori s 1#1 := by
  rcases BitVec.eq_zero_or_eq_one s with h | h <;> subst h <;> decide

/-- The negative mask: the complement of the label-equality mask. -/
theorem v7_at (i : Fin 512) (j : Fin 65536) :
    val_main_v7 (F := Ideal) x1 x3 (ix2 i j) = Spec.negM (Spec.vec x1) (Spec.vec x3) i j := by
  rw [val_main_v7_apply, v6_at, not_eq_xor_one]
  rfl

/-- The 512 × 512 identity mask: the row number, as a word, equals the column number, as a word. -/
theorem v12_at (i q : Fin 512) :
    val_main_v12 (F := Ideal) (ix2 i q) = if i.val = q.val then 1#1 else 0#1 := by
  rw [val_main_v12_apply, val_main_v11_apply, val_main_v8_apply, val_main_v10_apply, val_main_c_apply, val_main_v9_apply]
  show IntOp.cmpi .eq (IntOp.addi (BitVec.ofNat 32 i.val) 0#32) (BitVec.ofNat 32 q.val) = _
  unfold IntOp.cmpi IntOp.addi
  rw [BitVec.add_zero]
  by_cases h : i.val = q.val
  · rw [if_pos h, h]; simp
  · rw [if_neg h]
    have hne : BitVec.ofNat 32 i.val ≠ BitVec.ofNat 32 q.val := by
      intro e
      have e' := congrArg BitVec.toNat e
      simp only [BitVec.toNat_ofNat] at e'
      have hi := i.isLt; have hq := q.isLt
      rw [Nat.mod_eq_of_lt (by omega), Nat.mod_eq_of_lt (by omega)] at e'
      exact h e'
    rw [beq_false_of_ne hne]
    rfl

/-- The update of the scatter: the first 512 columns of the label-equality mask, flipped on the diagonal. -/
theorem v14_at (i q : Fin 512) :
    val_main_v14 (F := Ideal) x1 x3 (ix2 i q)
      = IntOp.xori (Spec.same (Spec.vec x1) (Spec.vec x3) i ⟨q.val, by have := q.isLt; omega⟩) (if i.val = q.val then 1#1 else 0#1) := by
  have e : idx_main_v13 (ix2 i q) = ix2 i (⟨q.val, by have := q.isLt; omega⟩ : Fin 65536) :=
    funext fun a => Fin.ext (by match a with | ⟨0, _⟩ => rfl | ⟨1, _⟩ => rfl)
  rw [val_main_v14_apply, val_main_v13_apply, e, v6_at, v12_at]

/-- The positive mask: the scatter overwrites columns 0..511 by the flipped ones, and off those columns nothing lies
    on the diagonal, since a row number is below 512. -/
theorem v16_at (i : Fin 512) (j : Fin 65536) :
    val_main_v16 (F := Ideal) x1 x3 (ix2 i j) = Spec.posM (Spec.vec x1) (Spec.vec x3) i j := by
  unfold val_main_v16
  rw [scatter_cols _ _ (fun k => by rw [val_main_v15_apply, val_main_c_0_apply]) _ i j]
  unfold Spec.posM Spec.diag
  by_cases h : j.val < 512
  · rw [dif_pos h, v14_at]
  · rw [dif_neg h, v6_at, if_neg (by have := i.isLt; omega)]
    unfold IntOp.xori
    rw [BitVec.xor_zero]

end Cert.RefSide
end
-- ==== Proof.RefSide2.lean ====
/-
  The reference's similarity matrix and its two row maxima.

  Entry (i, j) of the similarity matrix is the inner product of row i of the first matrix with row j of the second (the
  reference transposes the second and contracts the shared axis). A row's largest negative / positive similarity is a
  maximum-reduction along the columns of the matrix with -∞ written where the mask is off: at row i it is the fold of
  max, from -∞, over the 65536 columns.
-/
import proofs.«163207_j1769526526574_2_alg».proof.Proof.RefSide1

noncomputable section

namespace Cert.RefSide

open Cert.ReferenceIdeal Cert.ReferenceIdeal.Gen Cert.ReferenceIdeal.ReadP Idealize.ShloMosaic Idealize.ShloMosaic.ValueIdx

variable (x0 : (⟨S512x512, .f32⟩ : BufTy).Contents (Elt Ideal)) (x1 : (⟨S512, .i32⟩ : BufTy).Contents (Elt Ideal))
  (x2 : (⟨S65536x512, .f32⟩ : BufTy).Contents (Elt Ideal)) (x3 : (⟨S65536, .i32⟩ : BufTy).Contents (Elt Ideal))

/-- The similarity matrix, entry by entry. -/
theorem v1_at (i : Fin 512) (j : Fin 65536) :
    val_main_v1 (F := Ideal) x0 x2 (ix2 i j) = Spec.sim (Spec.mat x0) (Spec.mat x2) i j := by
  rw [val_main_v1_apply]
  unfold Spec.sim Spec.mat
  refine Finset.sum_congr rfl fun k _ => ?_
  have el : lidx_main_v1 (ix2 i j) k = ix2 i k :=
    funext fun a => Fin.ext (by match a with | ⟨0, _⟩ => rfl | ⟨1, _⟩ => rfl)
  have er : idx_main_v0 (ridx_main_v1 (ix2 i j) k) = ix2 j k :=
    funext fun a => Fin.ext (by match a with | ⟨0, _⟩ => rfl | ⟨1, _⟩ => rfl)
  rw [val_main_v0_apply, el, er]

/-- The index of the rectangle over row i whose column is k. -/
theorem lift_row (hR : S512x65536.Reduces [1] S512) (i : Fin 512) (k : Fin (S512x65536.size 1)) :
    hR.lift (ix1 i : S512.Idx) k = (ix2 i (⟨k.val, k.isLt⟩ : Fin 65536) : S512x65536.Idx) :=
  funext fun c => Fin.ext (by
    show hR.liftVal (ix1 i) k.val c = _
    unfold Shape.Reduces.liftVal
    match c with
    | ⟨0, _⟩ => rw [dif_neg (by decide +revert), dif_pos (by decide +revert)]
    | ⟨1, _⟩ => rw [dif_pos (by decide +revert)])

/-- On the extended reals the float maximum is max. -/
theorem fold_maximumf (b : EReal) (f : Fin 65536 → EReal) :
    (Finset.univ : Finset (Fin 65536)).fold (FloatOps.maximumf (F := Ideal) (φ := .f32)) b f
      = (Finset.univ : Finset (Fin 65536)).fold max b f := rfl

/-- A maximum-reduction along the columns, from -∞, at row i. -/
theorem rowMax_read (y : (⟨S512x65536, .f32⟩ : BufTy).Contents (Elt Ideal)) (init : (⟨S_, .f32⟩ : BufTy).Contents (Elt Ideal))
    (hinit : ∀ k, init k = Spec.ninf) (i : Fin 512) :
    Host.reduce (FloatOps.maximumf (F := Ideal) (φ := .f32)) y init reducesTo_S512x65536_S512_d1 h_S_ (ix1 i)
      = (Finset.univ : Finset (Fin 65536)).fold max Spec.ninf (fun k => y (ix2 i k)) := by
  have hR : S512x65536.Reduces [1] S512 := by decide
  refine (Host.reduce_eq_fold_single (FloatOps.maximumf (F := Ideal) (φ := .f32)) y init reducesTo_S512x65536_S512_d1 hR h_S_ (ix1 i)).trans ?_
  rw [hinit]
  refine (fold_maximumf _ _).trans ?_
  refine Finset.fold_congr fun k _ => ?_
  exact congrArg y (lift_row hR i k)

/-- The largest negative similarity of row i. -/
theorem v18_at (i : Fin 512) :
    val_main_v18 (F := Ideal) x0 x1 x2 x3 (ix1 i) = Spec.maxNeg (Spec.mat x0) (Spec.mat x2) (Spec.vec x1) (Spec.vec x3) i := by
  unfold val_main_v18
  rw [rowMax_read _ _ (fun k => by rw [val_main_cst_1_apply]; rfl) i]
  unfold Spec.maxNeg Spec.rowMax
  refine Finset.fold_congr fun k _ => ?_
  rw [val_main_v17_apply, v7_at, v1_at, val_main_call0_v0_apply, val_main_cst_apply]
  rfl

/-- The largest positive similarity of row i. -/
theorem v20_at (i : Fin 512) :
    val_main_v20 (F := Ideal) x0 x1 x2 x3 (ix1 i) = Spec.maxPos (Spec.mat x0) (Spec.mat x2) (Spec.vec x1) (Spec.vec x3) i := by
  unfold val_main_v20
  rw [rowMax_read _ _ (fun k => by rw [val_main_cst_3_apply]; rfl) i]
  unfold Spec.maxPos Spec.rowMax
  refine Finset.fold_congr fun k _ => ?_
  rw [val_main_v19_apply, v16_at, v1_at, val_main_call1_v0_apply, val_main_cst_2_apply]
  rfl

end Cert.RefSide

end
-- ==== Proof.RefSide3.lean ====
/-
  The reference's two row sums.

  For a pair (i, k) the reference keeps 1 - sim when the pair is positive and sim lies below the row's largest negative
  similarity plus 0.1, and keeps sim when the pair is negative and sim lies above max(0.6, the row's largest positive
  similarity) minus 0.1; otherwise it keeps 0. Each row sum starts from the word 0, which is the real number 0.
-/
import proofs.«163207_j1769526526574_2_alg».proof.Proof.RefSide2

noncomputable section

namespace Cert.RefSide

open Cert.ReferenceIdeal Cert.ReferenceIdeal.Gen Cert.ReferenceIdeal.ReadP Idealize.ShloMosaic Idealize.ShloMosaic.ValueIdx

variable (x0 : (⟨S512x512, .f32⟩ : BufTy).Contents (Elt Ideal)) (x1 : (⟨S512, .i32⟩ : BufTy).Contents (Elt Ideal))
  (x2 : (⟨S65536x512, .f32⟩ : BufTy).Contents (Elt Ideal)) (x3 : (⟨S65536, .i32⟩ : BufTy).Contents (Elt Ideal))

/-- One pair's share of the positive loss. -/
theorem v29_at (i : Fin 512) (k : Fin 65536) :
    val_main_v29 (F := Ideal) x0 x1 x2 x3 (ix2 i k)
      = Spec.posTerm (Spec.sim (Spec.mat x0) (Spec.mat x2) i k) (Spec.posM (Spec.vec x1) (Spec.vec x3) i k)
          (Spec.maxNeg (Spec.mat x0) (Spec.mat x2) (Spec.vec x1) (Spec.vec x3) i) := by
  have e : idx_main_v23 (idx_main_v24 (ix2 i k)) = ix1 i := funext fun a => Fin.ext (by match a with | ⟨0, _⟩ => rfl)
  rw [val_main_v29_apply, val_main_v26_apply, val_main_v25_apply, val_main_v24_apply, val_main_v23_apply, e,
    val_main_v22_apply, val_main_v21_apply, val_main_cst_4_apply, val_main_v28_apply, val_main_v27_apply,
    val_main_cst_5_apply, val_main_call2_v1_apply, val_main_call2_v0_apply, val_main_cst_6_apply,
    v16_at, v1_at, v18_at]
  rfl

/-- One pair's share of the negative loss. -/
theorem v39_at (i : Fin 512) (k : Fin 65536) :
    val_main_v39 (F := Ideal) x0 x1 x2 x3 (ix2 i k)
      = Spec.negTerm (Spec.sim (Spec.mat x0) (Spec.mat x2) i k) (Spec.negM (Spec.vec x1) (Spec.vec x3) i k)
          (Spec.maxPos (Spec.mat x0) (Spec.mat x2) (Spec.vec x1) (Spec.vec x3) i) := by
  have e : idx_main_v35 (idx_main_v36 (ix2 i k)) = ix1 i := funext fun a => Fin.ext (by match a with | ⟨0, _⟩ => rfl)
  rw [val_main_v39_apply, val_main_v38_apply, val_main_v37_apply, val_main_v36_apply, val_main_v35_apply, e,
    val_main_v34_apply, val_main_v32_apply, val_main_v31_apply, val_main_cst_8_apply, val_main_v33_apply,
    val_main_cst_9_apply, val_main_call3_v1_apply, val_main_call3_v0_apply, val_main_cst_10_apply,
    v7_at, v1_at, v20_at]
  rfl

/-- The word 0 is the number 0. -/
theorem zero_word_add (t : EReal) : FloatOps.ofBits (F := Ideal) .f32 0x00000000#32 + t = t := by
  rw [Ideal.ofBits_def, Ideal.ofBits_zero_f32, zero_add]

/-- The positive loss of row i. -/
theorem v30_at (i : Fin 512) :
    val_main_v30 (F := Ideal) x0 x1 x2 x3 (ix1 i)
      = Spec.posLoss (Spec.mat x0) (Spec.mat x2) (Spec.vec x1) (Spec.vec x3) i := by
  rw [val_main_v30_apply, val_main_cst_7_apply, zero_word_add]
  unfold Spec.posLoss
  refine Finset.sum_congr rfl fun k _ => ?_
  have e : idx_main_v30 (ix1 i) k = ix2 i k :=
    funext fun a => Fin.ext (by match a with | ⟨0, _⟩ => rfl | ⟨1, _⟩ => rfl)
  rw [e, v29_at]

/-- The negative loss of row i. -/
theorem v40_at (i : Fin 512) :
    val_main_v40 (F := Ideal) x0 x1 x2 x3 (ix1 i)
      = Spec.negLoss (Spec.mat x0) (Spec.mat x2) (Spec.vec x1) (Spec.vec x3) i := by
  rw [val_main_v40_apply, val_main_cst_11_apply, zero_word_add]
  unfold Spec.negLoss
  refine Finset.sum_congr rfl fun k _ => ?_
  have e : idx_main_v40 (ix1 i) k = ix2 i k :=
    funext fun a => Fin.ext (by match a with | ⟨0, _⟩ => rfl | ⟨1, _⟩ => rfl)
  rw [e, v39_at]

end Cert.RefSide

end
-- ==== Proof.RefAny.lean ====
/-
  "Some column of the mask is set", read off an or-reduction.

  An or-reduction along the columns of a 512 × 65536 matrix of bits, started from 0, gives at row i the "or" of the row's
  65536 bits: 1 exactly when some bit of the row is 1. The "or" of a family of bits over a finite set, from 0, is 1 iff
  some member's bit is 1 — by induction on the set, so the row is never enumerated — and a bit that is not 1 is 0.
-/
import proofs.«163207_j1769526526574_2_alg».proof.Proof.RefSide2

noncomputable section

namespace Cert.RefSide

open Cert.ReferenceIdeal Cert.ReferenceIdeal.Gen Cert.ReferenceIdeal.ReadP Idealize.ShloMosaic Idealize.ShloMosaic.ValueIdx

/-- On one bit, an "or" is 1 exactly when one of the two is. -/
theorem ori_eq_one (x y : BitVec 1) : IntOp.ori x y = 1#1 ↔ x = 1#1 ∨ y = 1#1 := by
  rcases BitVec.eq_zero_or_eq_one x with rfl | rfl <;> rcases BitVec.eq_zero_or_eq_one y with rfl | rfl <;> decide

/-- The "or" of a family of bits over a finite set, from 0, is 1 exactly when some member's bit is 1. -/
theorem fold_ori_eq_one {ι : Type} [DecidableEq ι] (s : Finset ι) (p : ι → BitVec 1) :
    s.fold IntOp.ori 0#1 p = 1#1 ↔ ∃ j ∈ s, p j = 1#1 := by
  induction s using Finset.induction_on with
  | empty =>
    rw [Finset.fold_empty]
    exact ⟨fun h => absurd h (by decide), fun ⟨j, hj, _⟩ => by simp at hj⟩
  | insert a s ha ih =>
    rw [Finset.fold_insert ha, ori_eq_one, ih, Finset.exists_mem_insert]

/-- Over a whole row of 65536 bits: the "or" from 0 is the flag "some bit is set". -/
theorem fold_ori_anyB (p : Fin 65536 → BitVec 1) :
    (Finset.univ : Finset (Fin 65536)).fold IntOp.ori 0#1 p = Spec.anyB p := by
  unfold Spec.anyB
  by_cases h : ∃ j, p j = 1#1
  · rw [if_pos h]
    obtain ⟨j, hj⟩ := h
    exact (fold_ori_eq_one _ p).mpr ⟨j, Finset.mem_univ j, hj⟩
  · rw [if_neg h]
    rcases BitVec.eq_zero_or_eq_one ((Finset.univ : Finset (Fin 65536)).fold IntOp.ori 0#1 p) with h0 | h1
    · exact h0
    · obtain ⟨j, _, hj⟩ := (fold_ori_eq_one _ p).mp h1
      exact absurd ⟨j, hj⟩ h

/-- An or-reduction along the columns, from 0, at row i: "some column of row i is set". -/
theorem anyB_read (y : (⟨S512x65536, .i1⟩ : BufTy).Contents (Elt Ideal)) (init : (⟨S_, .i1⟩ : BufTy).Contents (Elt Ideal))
    (hinit : ∀ k, init k = 0#1) (i : Fin 512) :
    Host.reduce IntOp.ori y init reducesTo_S512x65536_S512_d1 h_S_ (ix1 i) = Spec.anyB (fun j : Fin 65536 => y (ix2 i j)) := by
  have hR : S512x65536.Reduces [1] S512 := by decide
  refine (Host.reduce_eq_fold_single IntOp.ori y init reducesTo_S512x65536_S512_d1 hR h_S_ (ix1 i)).trans ?_
  rw [hinit]
  refine Eq.trans (b := (Finset.univ : Finset (Fin 65536)).fold IntOp.ori 0#1 (fun j => y (ix2 i j))) ?_ (fold_ori_anyB _)
  refine Finset.fold_congr fun k _ => ?_
  exact congrArg y (lift_row hR i k)

end Cert.RefSide

end
-- ==== Proof.RefSide4.lean ====
/-
  The reference's loss is the loss of the specification.

  A row counts only when some pair of it is positive (an or-reduction of the positive mask along the columns); it then
  counts its positive loss plus its negative loss. The loss is the sum of the rows' shares, started from the word 0,
  divided by the word 512.
-/
import proofs.«163207_j1769526526574_2_alg».proof.Proof.RefSide3
import proofs.«163207_j1769526526574_2_alg».proof.Proof.RefAny

noncomputable section

namespace Cert.RefSide

open Cert.ReferenceIdeal Cert.ReferenceIdeal.Gen Cert.ReferenceIdeal.ReadP Idealize.ShloMosaic Idealize.ShloMosaic.ValueIdx

variable (x0 : (⟨S512x512, .f32⟩ : BufTy).Contents (Elt Ideal)) (x1 : (⟨S512, .i32⟩ : BufTy).Contents (Elt Ideal))
  (x2 : (⟨S65536x512, .f32⟩ : BufTy).Contents (Elt Ideal)) (x3 : (⟨S65536, .i32⟩ : BufTy).Contents (Elt Ideal))

/-- Some pair of row i is positive. -/
theorem v41_at (i : Fin 512) :
    val_main_v41 (F := Ideal) x1 x3 (ix1 i) = Spec.anyB (Spec.posM (Spec.vec x1) (Spec.vec x3) i) := by
  unfold val_main_v41
  rw [anyB_read _ _ (fun k => val_main_c_12_apply k) i]
  exact congrArg Spec.anyB (funext fun j => v16_at x1 x3 i j)

/-- Row i's share of the loss. -/
theorem v43_at (i : Fin 512) :
    val_main_v43 (F := Ideal) x0 x1 x2 x3 (ix1 i)
      = Spec.rowLoss (Spec.mat x0) (Spec.mat x2) (Spec.vec x1) (Spec.vec x3) i := by
  rw [val_main_v43_apply, val_main_v42_apply, val_main_call4_v1_apply, val_main_call4_v0_apply, val_main_cst_13_apply,
    v41_at, v30_at, v40_at]
  rfl

/-- A sum over the indices of a vector is the sum over its coordinates. -/
theorem sum_idx1 {M : Type} [AddCommMonoid M] {n : Nat} (f : (⟨1, ![n]⟩ : Shape).Idx → M) :
    ∑ j, f j = ∑ a : Fin n, f (ix1 a) :=
  Fintype.sum_equiv ⟨fun j => j 0, ix1, fun j => (eq_ix1 j).symm, fun _ => rfl⟩ _ _ fun j => congrArg f (eq_ix1 j)

/-- The reference's result, at its one index, is the loss of the four argument arrays. -/
theorem v45_eq :
    val_main_v45 (F := Ideal) x0 x1 x2 x3 = fun _ => Spec.lossOf x0 x1 x2 x3 := by
  funext idx
  rw [val_main_v45_apply, val_main_v44_apply, val_main_cst_14_apply, val_main_cst_15_apply, sum_idx1,
    Finset.sum_congr rfl (fun a _ => v43_at x0 x1 x2 x3 a)]
  rfl

end Cert.RefSide

end
-- ==== Proof.RefSide.lean ====
/-
  The reference program's run, with its result named by the specification.

  Every weakly fair execution of the reference terminates with its result buffer holding, at its one index, the loss
  of the four argument arrays, and with the four arguments unchanged: the run's composed term is the last stage of the
  operation-by-operation reading, and that stage is the specification's loss.
-/
import proofs.«163207_j1769526526574_2_alg».proof.Proof.RefSide4

noncomputable section

namespace Cert.RefSide

open Cert.ReferenceIdeal Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v45)
          = (fun _ => Spec.lossOf (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((ReadP.val_main_v45_eq m c).trans (v45_eq _ _ _ _)), (h c).2⟩)
    (ValueP.run (F := Ideal) m ρ)

end Cert.RefSide

end
-- ==== Proof.lean ====
/-
  The certificate of the triplet-loss kernel against its jnp reference.

  Both programs compute, from an anchor matrix [512, 512], a memory matrix [65536, 512] and the two label vectors, the
  loss `Cert.Spec.loss` (Proof/Spec.lean): for every anchor row the similarities to all memory rows, the row's largest
  similarity over its negative and over its positive pairs, the two thresholded sums built on those maxima, and the mean
  over the rows that have a positive pair. The reference does it on whole arrays. The kernel does it in two grid passes
  over 2 × 16 tiles of 256 × 4096 — the first pass writes the similarity tiles and carries the two maxima and a
  "has a positive pair" flag across a row tile's sixteen column tiles, the second carries the two sums — and a few host
  operations on the four column vectors. Over the extended reals a maximum or a sum taken tile by tile is the maximum or
  the sum of the whole row (only commutativity and associativity of `max` and `+` are used), and the flag carried as
  a running maximum of 0 / 1 exceeds one half exactly when the row has a positive pair; so the two results are one value,
  for all inputs: the precondition is not needed for the value. The three frames are the programs' runs; the idealized
  kernel is the kernel's own text read at the extended reals, so the fourth conjunct has nothing to state.
-/
import proofs.«163207_j1769526526574_2_alg».proof.Defs
import proofs.«163207_j1769526526574_2_alg».proof.Proof.Gen.Kernel
import proofs.«163207_j1769526526574_2_alg».proof.Proof.Gen.Kernel.Skeleton
import proofs.«163207_j1769526526574_2_alg».proof.Proof.Gen.Kernel.Launch
import proofs.«163207_j1769526526574_2_alg».proof.Proof.Gen.Kernel.Points
import proofs.«163207_j1769526526574_2_alg».proof.Proof.Gen.Kernel.Frame
import proofs.«163207_j1769526526574_2_alg».proof.Proof.Gen.KernelIdeal
import proofs.«163207_j1769526526574_2_alg».proof.Proof.Gen.KernelIdeal.Skeleton
import proofs.«163207_j1769526526574_2_alg».proof.Proof.Gen.KernelIdeal.Launch
import proofs.«163207_j1769526526574_2_alg».proof.Proof.Gen.KernelIdeal.Points
import proofs.«163207_j1769526526574_2_alg».proof.Proof.Gen.KernelIdeal.Frame
import proofs.«163207_j1769526526574_2_alg».proof.Proof.Gen.ReferenceIdeal
import proofs.«163207_j1769526526574_2_alg».proof.Proof.Gen.Pre_finite_inputs
import proofs.«163207_j1769526526574_2_alg».proof.Proof.KRun
import proofs.«163207_j1769526526574_2_alg».proof.Proof.KVal
import proofs.«163207_j1769526526574_2_alg».proof.Proof.RefRunP
import proofs.«163207_j1769526526574_2_alg».proof.Proof.RefSide
import Idealize.ShloMosaic.Adequacy
import Idealize.ShloMosaic.Init

noncomputable section

namespace Cert.Proof

open Idealize.ShloMosaic Idealize.ShloMosaic.TcCoe Idealize.SL.Sem

/-- The three programs run: the kernel and its idealization by their generated frames, the reference by its run with
    the result dropped. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- At the extended reals both programs end with the loss of the argument arrays in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => Cert.Spec.lossOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))), ?_, ?_⟩
  · exact (θ_run Cert.KernelIdeal.defs _ _).mono (fun _ h c => ⟨(h c).1.trans (Cert.KernelIdeal.KVal.result m ρ c), (h c).2⟩)
      (Cert.KernelIdeal.KRun.run (F := Ideal) m ρ)
  · refine (θ_run Cert.ReferenceIdeal.defs _ _).mono (fun _ h c => ?_) (Cert.RefSide.run m' ρ')
    refine ⟨(h c).1.trans ?_, (h c).2⟩
    rw [(hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
